-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S1024x256 : Shape := ⟨2, ![1024, 256]⟩
abbrev S1024x64 : Shape := ⟨2, ![1024, 64]⟩
abbrev S1024x16 : Shape := ⟨2, ![1024, 16]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S160000x64 : S_.BroadcastsInDim S160000x64 (![] : Fin 0 → Fin S160000x64.rank)
  reducesTo_S160000x64_S_d0_1 : S160000x64.ReducesTo [0, 1] S_
  bcast_S_S67735x16 : S_.BroadcastsInDim S67735x16 (![] : Fin 0 → Fin S67735x16.rank)
  reducesTo_S67735x16_S_d0_1 : S67735x16.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S1024x64 : S_.BroadcastsInDim S1024x64 (![] : Fin 0 → Fin S1024x64.rank)
  reducesTo_S1024x64_S_d0_1 : S1024x64.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part2 {F : FTy → Type} [FloatOps F] (main_arg8 : FVec F S1024x16 .f32) (main_v33 : IVec S_ 1) : IVec S_ 1 :=
  let main_v34 : FVec F S1024x16 .f32 := Host.absf main_arg8
  let main_cst_12 : FVec F S_ .f32 := constant S_ .f32 0x7F800000#32
  let main_v35 : FVec F S1024x16 .f32 := broadcastInDim S1024x16 ![] bcast_S_S1024x16 main_cst_12
  let main_v36 : IVec S1024x16 1 := cmpf .olt main_v34 main_v35
  let main_c_13 : IVec S_ 1 := constantI S_ 1 1#1
  let main_v37 : IVec S_ 1 := (fun x v => Host.reduce IntOp.andi x v reducesTo_S1024x16_S_d0_1 h_S_) main_v36 main_c_13
  let main_v38 : IVec S_ 1 := andi main_v33 main_v37
  main_v38

def fn_part1 {F : FTy → Type} [FloatOps F] (main_arg5 : FVec F S1024x1024 .f32) (main_arg6 : FVec F S1024x256 .f32) (main_arg7 : FVec F S1024x64 .f32) (main_arg8 : FVec F S1024x16 .f32) (main_v13 : IVec S_ 1) (main_v16 : IVec S67735x16 1) : IVec S_ 1 :=
  let main_c_5 : IVec S_ 1 := constantI S_ 1 1#1
  let main_v17 : IVec S_ 1 := (fun x v => Host.reduce IntOp.andi x v reducesTo_S67735x16_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x256 .f32 := Host.absf main_arg6
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S1024x64 .f32 := Host.absf main_arg7
  let main_cst_10 : FVec F S_ .f32 := constant S_ .f32 0x7F800000#32
  let main_v30 : FVec F S1024x64 .f32 := broadcastInDim S1024x64 ![] bcast_S_S1024x64 main_cst_10
  let main_v31 : IVec S1024x64 1 := cmpf .olt main_v29 main_v30
  let main_c_11 : IVec S_ 1 := constantI S_ 1 1#1
  let main_v32 : IVec S_ 1 := (fun x v => Host.reduce IntOp.andi x v reducesTo_S1024x64_S_d0_1 h_S_) main_v31 main_c_11
  let main_v33 : IVec S_ 1 := andi main_v28 main_v32
  fn_part2 (F := F) main_arg8 main_v33

def fn {F : FTy → Type} [FloatOps F] (main_arg0 : IVec S4x4096 32) (main_arg1 : FVec F S20000x1024 .f32) (main_arg2 : FVec F S20000x256 .f32) (main_arg3 : FVec F S160000x64 .f32) (main_arg4 : FVec F S67735x16 .f32) (main_arg5 : FVec F S1024x1024 .f32) (main_arg6 : FVec F S1024x256 .f32) (main_arg7 : FVec F S1024x64 .f32) (main_arg8 : FVec F S1024x16 .f32) : IVec S_ 1 :=
  let main_v0 : FVec F S20000x1024 .f32 := Host.absf main_arg1
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S20000x256 .f32 := Host.absf main_arg2
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S160000x64 .f32 := Host.absf main_arg3
  let main_cst_2 : FVec F S_ .f32 := constant S_ .f32 0x7F800000#32
  let main_v10 : FVec F S160000x64 .f32 := broadcastInDim S160000x64 ![] bcast_S_S160000x64 main_cst_2
  let main_v11 : IVec S160000x64 1 := cmpf .olt main_v9 main_v10
  let main_c_3 : IVec S_ 1 := constantI S_ 1 1#1
  let main_v12 : IVec S_ 1 := (fun x v => Host.reduce IntOp.andi x v reducesTo_S160000x64_S_d0_1 h_S_) main_v11 main_c_3
  let main_v13 : IVec S_ 1 := andi main_v8 main_v12
  let main_v14 : FVec F S67735x16 .f32 := Host.absf main_arg4
  let main_cst_4 : FVec F S_ .f32 := constant S_ .f32 0x7F800000#32
  let main_v15 : FVec F S67735x16 .f32 := broadcastInDim S67735x16 ![] bcast_S_S67735x16 main_cst_4
  let main_v16 : IVec S67735x16 1 := cmpf .olt main_v14 main_v15
  fn_part1 (F := F) main_arg5 main_arg6 main_arg7 main_arg8 main_v13 main_v16
-- ==== Kernel.lean ====
abbrev S4x4096 : Shape := ⟨2, ![4, 4096]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S1024x256 : Shape := ⟨2, ![1024, 256]⟩
abbrev S1024x64 : Shape := ⟨2, ![1024, 64]⟩
abbrev S1024x16 : Shape := ⟨2, ![1024, 16]⟩
abbrev S16384 : Shape := ⟨1, ![16384]⟩
abbrev S_ : Shape := ⟨0, ![]⟩
abbrev S16384x1 : Shape := ⟨2, ![16384, 1]⟩
abbrev S16384x1024 : Shape := ⟨2, ![16384, 1024]⟩
abbrev S16384x256 : Shape := ⟨2, ![16384, 256]⟩
abbrev S256x1024 : Shape := ⟨2, ![256, 1024]⟩
abbrev S16384x64 : Shape := ⟨2, ![16384, 64]⟩
abbrev S64x1024 : Shape := ⟨2, ![64, 1024]⟩
abbrev S16384x16 : Shape := ⟨2, ![16384, 16]⟩
abbrev S16x1024 : Shape := ⟨2, ![16, 1024]⟩
abbrev S16384x336 : Shape := ⟨2, ![16384, 336]⟩
abbrev S336x1024 : Shape := ⟨2, ![336, 1024]⟩
abbrev S16384x384 : Shape := ⟨2, ![16384, 384]⟩
abbrev S384x1024 : Shape := ⟨2, ![384, 1024]⟩
abbrev S1024x384 : Shape := ⟨2, ![1024, 384]⟩
abbrev S4x4096x1024 : Shape := ⟨3, ![4, 4096, 1024]⟩

abbrev nBuf : Space → Nat
  | .hbm => 164
  | .vmem => 8
  | .smem => 0
  | _ => 0

abbrev hbmTy0_0 (i : Nat) : BufTy := match i % 128 with
  | 0 => ⟨S4x4096, .i32⟩
  | 1 => ⟨S20000x1024, .f32⟩
  | 2 => ⟨S20000x256, .f32⟩
  | 3 => ⟨S160000x64, .f32⟩
  | 4 => ⟨S67735x16, .f32⟩
  | 5 => ⟨S1024x1024, .f32⟩
  | 6 => ⟨S1024x256, .f32⟩
  | 7 => ⟨S1024x64, .f32⟩
  | 8 => ⟨S1024x16, .f32⟩
  | 9 => ⟨S16384, .i32⟩
  | 10 => ⟨S_, .i32⟩
  | 11 => ⟨S16384, .i32⟩
  | 12 => ⟨S16384, .i1⟩
  | 13 => ⟨S_, .i32⟩
  | 14 => ⟨S16384, .i32⟩
  | 15 => ⟨S16384, .i1⟩
  | 16 => ⟨S16384, .i1⟩
  | 17 => ⟨S_, .i32⟩
  | 18 => ⟨S16384, .i32⟩
  | 19 => ⟨S16384, .i32⟩
  | 20 => ⟨S_, .i32⟩
  | 21 => ⟨S_, .i32⟩
  | 22 => ⟨S_, .i32⟩
  | 23 => ⟨S16384, .i32⟩
  | 24 => ⟨S16384, .i32⟩
  | 25 => ⟨S_, .i32⟩
  | 26 => ⟨S16384, .i32⟩
  | 27 => ⟨S16384, .i32⟩
  | 28 => ⟨S_, .i32⟩
  | 29 => ⟨S16384, .i32⟩
  | 30 => ⟨S16384, .i1⟩
  | 31 => ⟨S_, .i32⟩
  | 32 => ⟨S16384, .i32⟩
  | 33 => ⟨S16384, .i32⟩
  | 34 => ⟨S16384, .i32⟩
  | 35 => ⟨S16384x1, .i32⟩
  | 36 => ⟨S16384x1024, .f32⟩
  | 37 => ⟨S16384x1, .i1⟩
  | 38 => ⟨S_, .f32⟩
  | 39 => ⟨S_, .f32⟩
  | 40 => ⟨S16384x1024, .i1⟩
  | 41 => ⟨S16384x1024, .f32⟩
  | 42 => ⟨S16384x1024, .f32⟩
  | 43 => ⟨S16384x1024, .bf16⟩
  | 44 => ⟨S1024x1024, .bf16⟩
  | 45 => ⟨S1024x1024, .bf16⟩
  | 46 => ⟨S_, .i32⟩
  | 47 => ⟨S16384, .i32⟩
  | 48 => ⟨S16384, .i1⟩
  | 49 => ⟨S_, .i32⟩
  | 50 => ⟨S16384, .i32⟩
  | 51 => ⟨S16384, .i1⟩
  | 52 => ⟨S16384, .i1⟩
  | 53 => ⟨S_, .i32⟩
  | 54 => ⟨S16384, .i32⟩
  | 55 => ⟨S16384, .i32⟩
  | 56 => ⟨S_, .i32⟩
  | 57 => ⟨S_, .i32⟩
  | 58 => ⟨S_, .i32⟩
  | 59 => ⟨S16384, .i32⟩
  | 60 => ⟨S16384, .i32⟩
  | 61 => ⟨S_, .i32⟩
  | 62 => ⟨S16384, .i32⟩
  | 63 => ⟨S16384, .i32⟩
  | 64 => ⟨S_, .i32⟩
  | 65 => ⟨S16384, .i32⟩
  | 66 => ⟨S16384, .i1⟩
  | 67 => ⟨S_, .i32⟩
  | 68 => ⟨S16384, .i32⟩
  | 69 => ⟨S16384, .i32⟩
  | 70 => ⟨S16384, .i32⟩
  | 71 => ⟨S16384x1, .i32⟩
  | 72 => ⟨S16384x256, .f32⟩
  | 73 => ⟨S16384x1, .i1⟩
  | 74 => ⟨S_, .f32⟩
  | 75 => ⟨S_, .f32⟩
  | 76 => ⟨S16384x256, .i1⟩
  | 77 => ⟨S16384x256, .f32⟩
  | 78 => ⟨S16384x256, .f32⟩
  | 79 => ⟨S16384x256, .bf16⟩
  | 80 => ⟨S1024x256, .bf16⟩
  | 81 => ⟨S256x1024, .bf16⟩
  | 82 => ⟨S_, .i32⟩
  | 83 => ⟨S16384, .i32⟩
  | 84 => ⟨S16384, .i1⟩
  | 85 => ⟨S_, .i32⟩
  | 86 => ⟨S16384, .i32⟩
  | 87 => ⟨S16384, .i1⟩
  | 88 => ⟨S16384, .i1⟩
  | 89 => ⟨S_, .i32⟩
  | 90 => ⟨S16384, .i32⟩
  | 91 => ⟨S16384, .i32⟩
  | 92 => ⟨S_, .i32⟩
  | 93 => ⟨S_, .i32⟩
  | 94 => ⟨S_, .i32⟩
  | 95 => ⟨S16384, .i32⟩
  | 96 => ⟨S16384, .i32⟩
  | 97 => ⟨S_, .i32⟩
  | 98 => ⟨S16384, .i32⟩
  | 99 => ⟨S16384, .i32⟩
  | 100 => ⟨S_, .i32⟩
  | 101 => ⟨S16384, .i32⟩
  | 102 => ⟨S16384, .i1⟩
  | 103 => ⟨S_, .i32⟩
  | 104 => ⟨S16384, .i32⟩
  | 105 => ⟨S16384, .i32⟩
  | 106 => ⟨S16384, .i32⟩
  | 107 => ⟨S16384x1, .i32⟩
  | 108 => ⟨S16384x64, .f32⟩
  | 109 => ⟨S16384x1, .i1⟩
  | 110 => ⟨S_, .f32⟩
  | 111 => ⟨S_, .f32⟩
  | 112 => ⟨S16384x64, .i1⟩
  | 113 => ⟨S16384x64, .f32⟩
  | 114 => ⟨S16384x64, .f32⟩
  | 115 => ⟨S16384x64, .bf16⟩
  | 116 => ⟨S1024x64, .bf16⟩
  | 117 => ⟨S64x1024, .bf16⟩
  | 118 => ⟨S_, .i32⟩
  | 119 => ⟨S16384, .i32⟩
  | 120 => ⟨S16384, .i1⟩
  | 121 => ⟨S_, .i32⟩
  | 122 => ⟨S16384, .i32⟩
  | 123 => ⟨S16384, .i1⟩
  | 124 => ⟨S16384, .i1⟩
  | 125 => ⟨S_, .i32⟩
  | 126 => ⟨S16384, .i32⟩
  | 127 => ⟨S16384, .i32⟩
  | _ => ⟨S4x4096, .i32⟩

abbrev hbmTy0_1 (i : Nat) : BufTy := match i % 128 with
  | 0 => ⟨S_, .i32⟩
  | 1 => ⟨S_, .i32⟩
  | 2 => ⟨S_, .i32⟩
  | 3 => ⟨S16384, .i32⟩
  | 4 => ⟨S16384, .i32⟩
  | 5 => ⟨S_, .i32⟩
  | 6 => ⟨S16384, .i32⟩
  | 7 => ⟨S16384, .i32⟩
  | 8 => ⟨S_, .i32⟩
  | 9 => ⟨S16384, .i32⟩
  | 10 => ⟨S16384, .i1⟩
  | 11 => ⟨S_, .i32⟩
  | 12 => ⟨S16384, .i32⟩
  | 13 => ⟨S16384, .i32⟩
  | 14 => ⟨S16384, .i32⟩
  | 15 => ⟨S16384x1, .i32⟩
  | 16 => ⟨S16384x16, .f32⟩
  | 17 => ⟨S16384x1, .i1⟩
  | 18 => ⟨S_, .f32⟩
  | 19 => ⟨S_, .f32⟩
  | 20 => ⟨S16384x16, .i1⟩
  | 21 => ⟨S16384x16, .f32⟩
  | 22 => ⟨S16384x16, .f32⟩
  | 23 => ⟨S16384x16, .bf16⟩
  | 24 => ⟨S1024x16, .bf16⟩
  | 25 => ⟨S16x1024, .bf16⟩
  | 26 => ⟨S16384x336, .bf16⟩
  | 27 => ⟨S336x1024, .bf16⟩
  | 28 => ⟨S_, .i32⟩
  | 29 => ⟨S_, .bf16⟩
  | 30 => ⟨S16384x384, .bf16⟩
  | 31 => ⟨S_, .i32⟩
  | 32 => ⟨S_, .bf16⟩
  | 33 => ⟨S384x1024, .bf16⟩
  | 34 => ⟨S16384x1024, .f32⟩
  | 35 => ⟨S4x4096x1024, .f32⟩
  | _ => ⟨S4x4096, .i32⟩

abbrev hbmTy (i : Nat) : BufTy := match i / 128 with
  | 0 => hbmTy0_0 i
  | 1 => hbmTy0_1 i
  | _ => ⟨S4x4096, .i32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x1024, .bf16⟩
  | .local _ .vmem, ⟨5, _⟩ => ⟨S384x1024, .bf16⟩
  | .local _ .vmem, ⟨6, _⟩ => ⟨S1024x1024, .f32⟩
  | .local _ .vmem, ⟨7, _⟩ => ⟨S1024x1024, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v8 : Ref sig .tc := ⟨.hbm, 27, rfl⟩
abbrev main_c_4 : Ref sig .tc := ⟨.hbm, 28, rfl⟩
abbrev main_v9 : Ref sig .tc := ⟨.hbm, 29, rfl⟩
abbrev main_v10 : Ref sig .tc := ⟨.hbm, 30, rfl⟩
abbrev main_c_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_6 : Ref sig .tc := ⟨.hbm, 46, rfl⟩
abbrev main_v21 : Ref sig .tc := ⟨.hbm, 47, rfl⟩
abbrev main_v22 : Ref sig .tc := ⟨.hbm, 48, rfl⟩
abbrev main_c_7 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_8 : Ref sig .tc := ⟨.hbm, 53, rfl⟩
abbrev main_v26 : Ref sig .tc := ⟨.hbm, 54, rfl⟩
abbrev main_v27 : Ref sig .tc := ⟨.hbm, 55, rfl⟩
abbrev main_c_9 : Ref sig .tc := ⟨.hbm, 56, rfl⟩
abbrev main_c_10 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v28 : Ref sig .tc := ⟨.hbm, 63, rfl⟩
abbrev main_c_11 : Ref sig .tc := ⟨.hbm, 64, rfl⟩
abbrev main_v29 : Ref sig .tc := ⟨.hbm, 65, rfl⟩
abbrev main_v30 : Ref sig .tc := ⟨.hbm, 66, rfl⟩
abbrev main_c_12 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_13 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_c_14 : Ref sig .tc := ⟨.hbm, 82, rfl⟩
abbrev main_v41 : Ref sig .tc := ⟨.hbm, 83, rfl⟩
abbrev main_v42 : Ref sig .tc := ⟨.hbm, 84, rfl⟩
abbrev main_c_15 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_c_16 : Ref sig .tc := ⟨.hbm, 89, rfl⟩
abbrev main_v46 : Ref sig .tc := ⟨.hbm, 90, rfl⟩
abbrev main_v47 : Ref sig .tc := ⟨.hbm, 91, rfl⟩
abbrev main_c_17 : Ref sig .tc := ⟨.hbm, 92, rfl⟩
abbrev main_c_18 : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_v48 : Ref sig .tc := ⟨.hbm, 99, rfl⟩
abbrev main_c_19 : Ref sig .tc := ⟨.hbm, 100, rfl⟩
abbrev main_v49 : Ref sig .tc := ⟨.hbm, 101, rfl⟩
abbrev main_v50 : Ref sig .tc := ⟨.hbm, 102, rfl⟩
abbrev main_c_20 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_cst_21 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_c_22 : Ref sig .tc := ⟨.hbm, 118, rfl⟩
abbrev main_v61 : Ref sig .tc := ⟨.hbm, 119, rfl⟩
abbrev main_v62 : Ref sig .tc := ⟨.hbm, 120, rfl⟩
abbrev main_c_23 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_c_24 : Ref sig .tc := ⟨.hbm, 125, rfl⟩
abbrev main_v66 : Ref sig .tc := ⟨.hbm, 126, rfl⟩
abbrev main_v67 : Ref sig .tc := ⟨.hbm, 127, rfl⟩
abbrev main_c_25 : Ref sig .tc := ⟨.hbm, 128, rfl⟩
abbrev main_c_26 : Ref sig .tc := ⟨.hbm, 129, rfl⟩
abbrev main_call6_v0 : Ref sig .tc := ⟨.hbm, 130, rfl⟩
abbrev main_call6_v1 : Ref sig .tc := ⟨.hbm, 131, rfl⟩
abbrev main_call6_v2 : Ref sig .tc := ⟨.hbm, 132, rfl⟩
abbrev main_call6_v3 : Ref sig .tc := ⟨.hbm, 133, rfl⟩
abbrev main_call6_v4 : Ref sig .tc := ⟨.hbm, 134, rfl⟩
abbrev main_v68 : Ref sig .tc := ⟨.hbm, 135, rfl⟩
abbrev main_c_27 : Ref sig .tc := ⟨.hbm, 136, rfl⟩
abbrev main_v69 : Ref sig .tc := ⟨.hbm, 137, rfl⟩
abbrev main_v70 : Ref sig .tc := ⟨.hbm, 138, rfl⟩
abbrev main_c_28 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_29 : Ref sig .tc := ⟨.hbm, 146, rfl⟩
abbrev main_call7_v0 : Ref sig .tc := ⟨.hbm, 147, rfl⟩
abbrev main_call7_v1 : Ref sig .tc := ⟨.hbm, 148, rfl⟩
abbrev main_call7_v2 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_c_30 : Ref sig .tc := ⟨.hbm, 156, rfl⟩
abbrev main_call8_v0 : Ref sig .tc := ⟨.hbm, 157, rfl⟩
abbrev main_v83 : Ref sig .tc := ⟨.hbm, 158, rfl⟩
abbrev main_c_31 : Ref sig .tc := ⟨.hbm, 159, rfl⟩
abbrev main_call9_v0 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x4096_S16384 : S4x4096.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  bitsLt_bf16_f32 : FTy.bits .bf16 < FTy.bits .f32
  transposes_S1024x1024_S1024x1024_1_0 : S1024x1024.Transposes [1, 0] S1024x1024
  bcast_S16384x1_S16384x256_0_1 : S16384x1.BroadcastsInDim S16384x256 (![0, 1] : Fin 2 → Fin S16384x256.rank)
  bcast_S_S16384x256 : S_.BroadcastsInDim S16384x256 (![] : Fin 0 → Fin S16384x256.rank)
  transposes_S1024x256_S256x1024_1_0 : S1024x256.Transposes [1, 0] S256x1024
  bcast_S16384x1_S16384x64_0_1 : S16384x1.BroadcastsInDim S16384x64 (![0, 1] : Fin 2 → Fin S16384x64.rank)
  bcast_S_S16384x64 : S_.BroadcastsInDim S16384x64 (![] : Fin 0 → Fin S16384x64.rank)
  transposes_S1024x64_S64x1024_1_0 : S1024x64.Transposes [1, 0] S64x1024
  bcast_S16384x1_S16384x16_0_1 : S16384x1.BroadcastsInDim S16384x16 (![0, 1] : Fin 2 → Fin S16384x16.rank)
  bcast_S_S16384x16 : S_.BroadcastsInDim S16384x16 (![] : Fin 0 → Fin S16384x16.rank)
  transposes_S1024x16_S16x1024_1_0 : S1024x16.Transposes [1, 0] S16x1024
  concatenates_S16384x256_S16384x64_S16384x16_S16384x336_d1 : Shape.Concatenates [S16384x256, S16384x64, S16384x16] S16384x336 1
  concatenates_S256x1024_S64x1024_S16x1024_S336x1024_d0 : Shape.Concatenates [S256x1024, S64x1024, S16x1024] S336x1024 0
  pads_S16384x336_S16384x384_000_0480 : S16384x336.Pads (![0, 0] : Fin 2 → Nat) ![0, 48] ![0, 0] S16384x384
  h_S_ : 0 < S_.numel
  pads_S336x1024_S384x1024_0480_000 : S336x1024.Pads (![0, 0] : Fin 2 → Nat) ![48, 0] ![0, 0] S384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S384x1024_S384x1024_0_0 : ∀ a, (![0, 0] : Fin 2 → Nat) a + S384x1024.size a ≤ S384x1024.size a
  h_S384x1024 : 0 < S384x1024.numel
  shapeCasts_S384x1024_S384x1024 : S384x1024.ShapeCasts S384x1024
  shapeCasts_S16384x1024_S4x4096x1024 : S16384x1024.ShapeCasts S4x4096x1024
  gather_S20000x1024_S16384x1_S16384x1024_1_0_n_n_0_1_11024_wf : GatherDims.WF S20000x1024 S16384x1 S16384x1024 [1] [0] [] [0] [] 1 ![1, 1024]
  gather_S20000x256_S16384x1_S16384x256_1_0_n_n_0_1_1256_wf : GatherDims.WF S20000x256 S16384x1 S16384x256 [1] [0] [] [0] [] 1 ![1, 256]
  gather_S160000x64_S16384x1_S16384x64_1_0_n_n_0_1_164_wf : GatherDims.WF S160000x64 S16384x1 S16384x64 [1] [0] [] [0] [] 1 ![1, 64]
  gather_S67735x16_S16384x1_S16384x16_1_0_n_n_0_1_116_wf : GatherDims.WF S67735x16 S16384x1 S16384x16 [1] [0] [] [0] [] 1 ![1, 16]
  dot_S1024x1024_S1024x1024_S1024x1024_1_0_0_1_n_n_wf : DotDims.WF S1024x1024 S1024x1024 S1024x1024 [1] [0] [0] [1] [] []
  dot_S1024x384_S384x1024_S1024x1024_1_0_0_1_n_n_wf : DotDims.WF S1024x384 S384x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .bf16 = 32 ∨ (Rect.block (s := S16384x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S16384x384.size a
  hwx0_1 : ∀ i : grid0.Coords, EltTy.bits .bf16 = 32 ∨ (Rect.block (s := S16384x384) S1024x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x1024.size a ≤ S384x1024.size a
  hwx0_3 : ∀ i : grid0.Coords, EltTy.bits .bf16 = 32 ∨ (Rect.block (s := S384x1024) S384x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .f32 = 32 ∨ (Rect.block (s := S16384x1024) S1024x1024.size (cc0_transform_4 i) (hinb0_4 i)).WholeWords (EltTy.packing .f32)

variable [Facts₀]

def gather_S20000x1024_S16384x1_S16384x1024_1_0_n_n_0_1_11024 : GatherDims S20000x1024 S16384x1 S16384x1024 where
  offsetDims := [1]
  collapsedSliceDims := [0]
  operandBatchingDims := []
  startIndicesBatchingDims := []
  startIndexMap := [0]
  indexVectorDim := 1
  sliceSizes := ![1, 1024]
  wf := gather_S20000x1024_S16384x1_S16384x1024_1_0_n_n_0_1_11024_wf
def gather_S20000x256_S16384x1_S16384x256_1_0_n_n_0_1_1256 : GatherDims S20000x256 S16384x1 S16384x256 where
  offsetDims := [1]
  collapsedSliceDims := [0]
  operandBatchingDims := []
  startIndicesBatchingDims := []
  startIndexMap := [0]
  indexVectorDim := 1
  sliceSizes := ![1, 256]
  wf := gather_S20000x256_S16384x1_S16384x256_1_0_n_n_0_1_1256_wf
def gather_S160000x64_S16384x1_S16384x64_1_0_n_n_0_1_164 : GatherDims S160000x64 S16384x1 S16384x64 where
  offsetDims := [1]
  collapsedSliceDims := [0]
  operandBatchingDims := []
  startIndicesBatchingDims := []
  startIndexMap := [0]
  indexVectorDim := 1
  sliceSizes := ![1, 64]
  wf := gather_S160000x64_S16384x1_S16384x64_1_0_n_n_0_1_164_wf
def gather_S67735x16_S16384x1_S16384x16_1_0_n_n_0_1_116 : GatherDims S67735x16 S16384x1 S16384x16 where
  offsetDims := [1]
  collapsedSliceDims := [0]
  operandBatchingDims := []
  startIndicesBatchingDims := []
  startIndexMap := [0]
  indexVectorDim := 1
  sliceSizes := ![1, 16]
  wf := gather_S67735x16_S16384x1_S16384x16_1_0_n_n_0_1_116_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x384_S384x1024_S1024x1024_1_0_0_1_n_n : DotDims S1024x384 S384x1024 S1024x1024 where
  lhsContracting := [1]
  rhsContracting := [0]
  lhsNonContracting := [0]
  rhsNonContracting := [1]
  lhsBatch := []
  rhsBatch := []
  wf := dot_S1024x384_S384x1024_S1024x1024_1_0_0_1_n_n_wf

abbrev win0_0 : Pipeline.Window sig grid0 :=
  Pipeline.Window.ofSpec (Memref.whole main_v18) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v83) S1024x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v84) S384x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v85) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096 : Shape := ⟨2, ![4, 4096]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S1024x256 : Shape := ⟨2, ![1024, 256]⟩
abbrev S1024x64 : Shape := ⟨2, ![1024, 64]⟩
abbrev S1024x16 : Shape := ⟨2, ![1024, 16]⟩
abbrev S16384 : Shape := ⟨1, ![16384]⟩
abbrev S_ : Shape := ⟨0, ![]⟩
abbrev S16384x1024 : Shape := ⟨2, ![16384, 1024]⟩
abbrev S16384x1 : Shape := ⟨2, ![16384, 1]⟩
abbrev S16384x256 : Shape := ⟨2, ![16384, 256]⟩
abbrev S16384x64 : Shape := ⟨2, ![16384, 64]⟩
abbrev S16384x16 : Shape := ⟨2, ![16384, 16]⟩
abbrev S4x4096x1024 : Shape := ⟨3, ![4, 4096, 1024]⟩

abbrev nBuf : Space → Nat
  | .hbm => 156
  | .vmem => 0
  | .smem => 0
  | _ => 0

abbrev hbmTy0_0 (i : Nat) : BufTy := match i % 128 with
  | 0 => ⟨S4x4096, .i32⟩
  | 1 => ⟨S20000x1024, .f32⟩
  | 2 => ⟨S20000x256, .f32⟩
  | 3 => ⟨S160000x64, .f32⟩
  | 4 => ⟨S67735x16, .f32⟩
  | 5 => ⟨S1024x1024, .f32⟩
  | 6 => ⟨S1024x256, .f32⟩
  | 7 => ⟨S1024x64, .f32⟩
  | 8 => ⟨S1024x16, .f32⟩
  | 9 => ⟨S16384, .i32⟩
  | 10 => ⟨S_, .f32⟩
  | 11 => ⟨S16384x1024, .f32⟩
  | 12 => ⟨S_, .i32⟩
  | 13 => ⟨S16384, .i32⟩
  | 14 => ⟨S16384, .i1⟩
  | 15 => ⟨S_, .i32⟩
  | 16 => ⟨S16384, .i32⟩
  | 17 => ⟨S16384, .i1⟩
  | 18 => ⟨S16384, .i1⟩
  | 19 => ⟨S_, .i32⟩
  | 20 => ⟨S16384, .i32⟩
  | 21 => ⟨S16384, .i32⟩
  | 22 => ⟨S_, .i32⟩
  | 23 => ⟨S_, .i32⟩
  | 24 => ⟨S_, .i32⟩
  | 25 => ⟨S16384, .i32⟩
  | 26 => ⟨S16384, .i32⟩
  | 27 => ⟨S_, .i32⟩
  | 28 => ⟨S16384, .i32⟩
  | 29 => ⟨S16384, .i32⟩
  | 30 => ⟨S_, .i32⟩
  | 31 => ⟨S16384, .i32⟩
  | 32 => ⟨S16384, .i1⟩
  | 33 => ⟨S_, .i32⟩
  | 34 => ⟨S16384, .i32⟩
  | 35 => ⟨S16384, .i32⟩
  | 36 => ⟨S16384, .i32⟩
  | 37 => ⟨S16384x1, .i32⟩
  | 38 => ⟨S16384x1024, .f32⟩
  | 39 => ⟨S16384x1024, .f32⟩
  | 40 => ⟨S16384x1, .i1⟩
  | 41 => ⟨S_, .f32⟩
  | 42 => ⟨S_, .f32⟩
  | 43 => ⟨S16384x1024, .i1⟩
  | 44 => ⟨S16384x1024, .f32⟩
  | 45 => ⟨S16384x1024, .f32⟩
  | 46 => ⟨S16384x1024, .f32⟩
  | 47 => ⟨S_, .i32⟩
  | 48 => ⟨S16384, .i32⟩
  | 49 => ⟨S16384, .i1⟩
  | 50 => ⟨S_, .i32⟩
  | 51 => ⟨S16384, .i32⟩
  | 52 => ⟨S16384, .i1⟩
  | 53 => ⟨S16384, .i1⟩
  | 54 => ⟨S_, .i32⟩
  | 55 => ⟨S16384, .i32⟩
  | 56 => ⟨S16384, .i32⟩
  | 57 => ⟨S_, .i32⟩
  | 58 => ⟨S_, .i32⟩
  | 59 => ⟨S_, .i32⟩
  | 60 => ⟨S16384, .i32⟩
  | 61 => ⟨S16384, .i32⟩
  | 62 => ⟨S_, .i32⟩
  | 63 => ⟨S16384, .i32⟩
  | 64 => ⟨S16384, .i32⟩
  | 65 => ⟨S_, .i32⟩
  | 66 => ⟨S16384, .i32⟩
  | 67 => ⟨S16384, .i1⟩
  | 68 => ⟨S_, .i32⟩
  | 69 => ⟨S16384, .i32⟩
  | 70 => ⟨S16384, .i32⟩
  | 71 => ⟨S16384, .i32⟩
  | 72 => ⟨S16384x1, .i32⟩
  | 73 => ⟨S16384x256, .f32⟩
  | 74 => ⟨S16384x1024, .f32⟩
  | 75 => ⟨S16384x1, .i1⟩
  | 76 => ⟨S_, .f32⟩
  | 77 => ⟨S_, .f32⟩
  | 78 => ⟨S16384x1024, .i1⟩
  | 79 => ⟨S16384x1024, .f32⟩
  | 80 => ⟨S16384x1024, .f32⟩
  | 81 => ⟨S16384x1024, .f32⟩
  | 82 => ⟨S_, .i32⟩
  | 83 => ⟨S16384, .i32⟩
  | 84 => ⟨S16384, .i1⟩
  | 85 => ⟨S_, .i32⟩
  | 86 => ⟨S16384, .i32⟩
  | 87 => ⟨S16384, .i1⟩
  | 88 => ⟨S16384, .i1⟩
  | 89 => ⟨S_, .i32⟩
  | 90 => ⟨S16384, .i32⟩
  | 91 => ⟨S16384, .i32⟩
  | 92 => ⟨S_, .i32⟩
  | 93 => ⟨S_, .i32⟩
  | 94 => ⟨S_, .i32⟩
  | 95 => ⟨S16384, .i32⟩
  | 96 => ⟨S16384, .i32⟩
  | 97 => ⟨S_, .i32⟩
  | 98 => ⟨S16384, .i32⟩
  | 99 => ⟨S16384, .i32⟩
  | 100 => ⟨S_, .i32⟩
  | 101 => ⟨S16384, .i32⟩
  | 102 => ⟨S16384, .i1⟩
  | 103 => ⟨S_, .i32⟩
  | 104 => ⟨S16384, .i32⟩
  | 105 => ⟨S16384, .i32⟩
  | 106 => ⟨S16384, .i32⟩
  | 107 => ⟨S16384x1, .i32⟩
  | 108 => ⟨S16384x64, .f32⟩
  | 109 => ⟨S16384x1024, .f32⟩
  | 110 => ⟨S16384x1, .i1⟩
  | 111 => ⟨S_, .f32⟩
  | 112 => ⟨S_, .f32⟩
  | 113 => ⟨S16384x1024, .i1⟩
  | 114 => ⟨S16384x1024, .f32⟩
  | 115 => ⟨S16384x1024, .f32⟩
  | 116 => ⟨S16384x1024, .f32⟩
  | 117 => ⟨S_, .i32⟩
  | 118 => ⟨S16384, .i32⟩
  | 119 => ⟨S16384, .i1⟩
  | 120 => ⟨S_, .i32⟩
  | 121 => ⟨S16384, .i32⟩
  | 122 => ⟨S16384, .i1⟩
  | 123 => ⟨S16384, .i1⟩
  | 124 => ⟨S_, .i32⟩
  | 125 => ⟨S16384, .i32⟩
  | 126 => ⟨S16384, .i32⟩
  | 127 => ⟨S_, .i32⟩
  | _ => ⟨S4x4096, .i32⟩

abbrev hbmTy0_1 (i : Nat) : BufTy := match i % 128 with
  | 0 => ⟨S_, .i32⟩
  | 1 => ⟨S_, .i32⟩
  | 2 => ⟨S16384, .i32⟩
  | 3 => ⟨S16384, .i32⟩
  | 4 => ⟨S_, .i32⟩
  | 5 => ⟨S16384, .i32⟩
  | 6 => ⟨S16384, .i32⟩
  | 7 => ⟨S_, .i32⟩
  | 8 => ⟨S16384, .i32⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S16384x16, .f32⟩
  | 16 => ⟨S16384x1024, .f32⟩
  | 17 => ⟨S16384x1, .i1⟩
  | 18 => ⟨S_, .f32⟩
  | 19 => ⟨S_, .f32⟩
  | 20 => ⟨S16384x1024, .i1⟩
  | 21 => ⟨S16384x1024, .f32⟩
  | 22 => ⟨S16384x1024, .f32⟩
  | 23 => ⟨S16384x1024, .f32⟩
  | 24 => ⟨S_, .f32⟩
  | 25 => ⟨S16384x1024, .f32⟩
  | 26 => ⟨S16384x1024, .f32⟩
  | 27 => ⟨S4x4096x1024, .f32⟩
  | _ => ⟨S4x4096, .i32⟩

abbrev hbmTy (i : Nat) : BufTy := match i / 128 with
  | 0 => hbmTy0_0 i
  | 1 => hbmTy0_1 i
  | _ => ⟨S4x4096, .i32⟩

abbrev bufTy : (tb : Table) → Fin (tcTables nBuf tb) → BufTy
  | .hbm, ⟨i, _⟩ => hbmTy i
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v9 : Ref sig .tc := ⟨.hbm, 29, rfl⟩
abbrev main_c_4 : Ref sig .tc := ⟨.hbm, 30, rfl⟩
abbrev main_v10 : Ref sig .tc := ⟨.hbm, 31, rfl⟩
abbrev main_v11 : Ref sig .tc := ⟨.hbm, 32, rfl⟩
abbrev main_c_5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v19 : Ref sig .tc := ⟨.hbm, 45, rfl⟩
abbrev main_v20 : Ref sig .tc := ⟨.hbm, 46, rfl⟩
abbrev main_c_7 : Ref sig .tc := ⟨.hbm, 47, rfl⟩
abbrev main_v21 : Ref sig .tc := ⟨.hbm, 48, rfl⟩
abbrev main_v22 : Ref sig .tc := ⟨.hbm, 49, rfl⟩
abbrev main_c_8 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_9 : Ref sig .tc := ⟨.hbm, 54, rfl⟩
abbrev main_v26 : Ref sig .tc := ⟨.hbm, 55, rfl⟩
abbrev main_v27 : Ref sig .tc := ⟨.hbm, 56, rfl⟩
abbrev main_c_10 : Ref sig .tc := ⟨.hbm, 57, rfl⟩
abbrev main_c_11 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v28 : Ref sig .tc := ⟨.hbm, 64, rfl⟩
abbrev main_c_12 : Ref sig .tc := ⟨.hbm, 65, rfl⟩
abbrev main_v29 : Ref sig .tc := ⟨.hbm, 66, rfl⟩
abbrev main_v30 : Ref sig .tc := ⟨.hbm, 67, rfl⟩
abbrev main_c_13 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_14 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v38 : Ref sig .tc := ⟨.hbm, 80, rfl⟩
abbrev main_v39 : Ref sig .tc := ⟨.hbm, 81, rfl⟩
abbrev main_c_15 : Ref sig .tc := ⟨.hbm, 82, rfl⟩
abbrev main_v40 : Ref sig .tc := ⟨.hbm, 83, rfl⟩
abbrev main_v41 : Ref sig .tc := ⟨.hbm, 84, rfl⟩
abbrev main_c_16 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_c_17 : Ref sig .tc := ⟨.hbm, 89, rfl⟩
abbrev main_v45 : Ref sig .tc := ⟨.hbm, 90, rfl⟩
abbrev main_v46 : Ref sig .tc := ⟨.hbm, 91, rfl⟩
abbrev main_c_18 : Ref sig .tc := ⟨.hbm, 92, rfl⟩
abbrev main_c_19 : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_v47 : Ref sig .tc := ⟨.hbm, 99, rfl⟩
abbrev main_c_20 : Ref sig .tc := ⟨.hbm, 100, rfl⟩
abbrev main_v48 : Ref sig .tc := ⟨.hbm, 101, rfl⟩
abbrev main_v49 : Ref sig .tc := ⟨.hbm, 102, rfl⟩
abbrev main_c_21 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_cst_22 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_v57 : Ref sig .tc := ⟨.hbm, 115, rfl⟩
abbrev main_v58 : Ref sig .tc := ⟨.hbm, 116, rfl⟩
abbrev main_c_23 : Ref sig .tc := ⟨.hbm, 117, rfl⟩
abbrev main_v59 : Ref sig .tc := ⟨.hbm, 118, rfl⟩
abbrev main_v60 : Ref sig .tc := ⟨.hbm, 119, rfl⟩
abbrev main_c_24 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_c_25 : Ref sig .tc := ⟨.hbm, 124, rfl⟩
abbrev main_v64 : Ref sig .tc := ⟨.hbm, 125, rfl⟩
abbrev main_v65 : Ref sig .tc := ⟨.hbm, 126, rfl⟩
abbrev main_c_26 : Ref sig .tc := ⟨.hbm, 127, rfl⟩
abbrev main_c_27 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_call6_v3 : Ref sig .tc := ⟨.hbm, 132, rfl⟩
abbrev main_call6_v4 : Ref sig .tc := ⟨.hbm, 133, rfl⟩
abbrev main_v66 : Ref sig .tc := ⟨.hbm, 134, rfl⟩
abbrev main_c_28 : Ref sig .tc := ⟨.hbm, 135, rfl⟩
abbrev main_v67 : Ref sig .tc := ⟨.hbm, 136, rfl⟩
abbrev main_v68 : Ref sig .tc := ⟨.hbm, 137, rfl⟩
abbrev main_c_29 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_cst_30 : Ref sig .tc := ⟨.hbm, 146, rfl⟩
abbrev main_call7_v0 : Ref sig .tc := ⟨.hbm, 147, rfl⟩
abbrev main_call7_v1 : Ref sig .tc := ⟨.hbm, 148, rfl⟩
abbrev main_call7_v2 : Ref sig .tc := ⟨.hbm, 149, rfl⟩
abbrev main_v76 : Ref sig .tc := ⟨.hbm, 150, rfl⟩
abbrev main_v77 : Ref sig .tc := ⟨.hbm, 151, rfl⟩
abbrev main_cst_31 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩

abbrev nD : Nat := 1
abbrev τ : Topo := Topo.v7x

variable {F : FTy → Type} [FloatOps F]

class Facts₀ : Prop where
  shapeCasts_S4x4096_S16384 : S4x4096.ShapeCasts S16384
  bcast_S_S16384x1024 : S_.BroadcastsInDim S16384x1024 (![] : Fin 0 → Fin S16384x1024.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  shapeCasts_S16384x1024_S4x4096x1024 : S16384x1024.ShapeCasts S4x4096x1024
  gather_S20000x1024_S16384x1_S16384x1024_1_0_n_n_0_1_11024_wf : GatherDims.WF S20000x1024 S16384x1 S16384x1024 [1] [0] [] [0] [] 1 ![1, 1024]
  dot_S16384x1024_S1024x1024_S16384x1024_1_1_0_0_n_n_wf : DotDims.WF S16384x1024 S1024x1024 S16384x1024 [1] [1] [0] [0] [] []
  gather_S20000x256_S16384x1_S16384x256_1_0_n_n_0_1_1256_wf : GatherDims.WF S20000x256 S16384x1 S16384x256 [1] [0] [] [0] [] 1 ![1, 256]
  dot_S16384x256_S1024x256_S16384x1024_1_1_0_0_n_n_wf : DotDims.WF S16384x256 S1024x256 S16384x1024 [1] [1] [0] [0] [] []
  gather_S160000x64_S16384x1_S16384x64_1_0_n_n_0_1_164_wf : GatherDims.WF S160000x64 S16384x1 S16384x64 [1] [0] [] [0] [] 1 ![1, 64]
  dot_S16384x64_S1024x64_S16384x1024_1_1_0_0_n_n_wf : DotDims.WF S16384x64 S1024x64 S16384x1024 [1] [1] [0] [0] [] []
  gather_S67735x16_S16384x1_S16384x16_1_0_n_n_0_1_116_wf : GatherDims.WF S67735x16 S16384x1 S16384x16 [1] [0] [] [0] [] 1 ![1, 16]
  dot_S16384x16_S1024x16_S16384x1024_1_1_0_0_n_n_wf : DotDims.WF S16384x16 S1024x16 S16384x1024 [1] [1] [0] [0] [] []

variable [Facts₀]

def gather_S20000x1024_S16384x1_S16384x1024_1_0_n_n_0_1_11024 : GatherDims S20000x1024 S16384x1 S16384x1024 where
  offsetDims := [1]
  collapsedSliceDims := [0]
  operandBatchingDims := []
  startIndicesBatchingDims := []
  startIndexMap := [0]
  indexVectorDim := 1
  sliceSizes := ![1, 1024]
  wf := gather_S20000x1024_S16384x1_S16384x1024_1_0_n_n_0_1_11024_wf
def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf
def gather_S20000x256_S16384x1_S16384x256_1_0_n_n_0_1_1256 : GatherDims S20000x256 S16384x1 S16384x256 where
  offsetDims := [1]
  collapsedSliceDims := [0]
  operandBatchingDims := []
  startIndicesBatchingDims := []
  startIndexMap := [0]
  indexVectorDim := 1
  sliceSizes := ![1, 256]
  wf := gather_S20000x256_S16384x1_S16384x256_1_0_n_n_0_1_1256_wf
def dot_S16384x256_S1024x256_S16384x1024_1_1_0_0_n_n : DotDims S16384x256 S1024x256 S16384x1024 where
  lhsContracting := [1]
  rhsContracting := [1]
  lhsNonContracting := [0]
  rhsNonContracting := [0]
  lhsBatch := []
  rhsBatch := []
  wf := dot_S16384x256_S1024x256_S16384x1024_1_1_0_0_n_n_wf
def gather_S160000x64_S16384x1_S16384x64_1_0_n_n_0_1_164 : GatherDims S160000x64 S16384x1 S16384x64 where
  offsetDims := [1]
  collapsedSliceDims := [0]
  operandBatchingDims := []
  startIndicesBatchingDims := []
  startIndexMap := [0]
  indexVectorDim := 1
  sliceSizes := ![1, 64]
  wf := gather_S160000x64_S16384x1_S16384x64_1_0_n_n_0_1_164_wf
def dot_S16384x64_S1024x64_S16384x1024_1_1_0_0_n_n : DotDims S16384x64 S1024x64 S16384x1024 where
  lhsContracting := [1]
  rhsContracting := [1]
  lhsNonContracting := [0]
  rhsNonContracting := [0]
  lhsBatch := []
  rhsBatch := []
  wf := dot_S16384x64_S1024x64_S16384x1024_1_1_0_0_n_n_wf
def gather_S67735x16_S16384x1_S16384x16_1_0_n_n_0_1_116 : GatherDims S67735x16 S16384x1 S16384x16 where
  offsetDims := [1]
  collapsedSliceDims := [0]
  operandBatchingDims := []
  startIndicesBatchingDims := []
  startIndexMap := [0]
  indexVectorDim := 1
  sliceSizes := ![1, 16]
  wf := gather_S67735x16_S16384x1_S16384x16_1_0_n_n_0_1_116_wf
def dot_S16384x16_S1024x16_S16384x1024_1_1_0_0_n_n : DotDims S16384x16 S1024x16 S16384x1024 where
  lhsContracting := [1]
  rhsContracting := [1]
  lhsNonContracting := [0]
  rhsNonContracting := [0]
  lhsBatch := []
  rhsBatch := []
  wf := dot_S16384x16_S1024x16_S16384x1024_1_1_0_0_n_n_wf

class Facts : Prop extends Facts₀ where

variable [Facts]
-- ==== Proof.FrameBits.lean ====
/-
  The frame of the program: its host lines, its one pipelined region, its closing reshape.

  The host lines before the region (index arithmetic, four row gathers, four masked selects, the casts, the
  transposes, two concatenations and two zero paddings) write only buffers of their own, so the region finds the
  nine argument arrays as launched and every staged operand at the lines' value (`V`). At every grid point the
  body reads its four operand blocks whole, forms two matrix products, adds them, scales by 32 and stores the whole
  output block; the two projection operands have a constant block index and are fetched once. The closing reshape
  writes only its own result. Hence every weakly fair execution terminates without a fault, the arguments end
  unchanged, and the region's output array is, block by block, what the body stored.
-/
import proofs.«130990_j59871844107157_2_alg».proof.Proof.Gen.Kernel.Launch
import proofs.«130990_j59871844107157_2_alg».proof.Proof.Gen.Kernel.Skeleton
import proofs.«130990_j59871844107157_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines before the region, stretch by stretch. -/
abbrev opssPre : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19]

/-- The buffers' contents when the region is entered: the launch contents after the lines before it. -/
abbrev V0 (c : Dev nD) : Valuation τ sig (Elt F) := StableHlo.after (List.flatten (opssPre (F := F))) (fun b => m (c, b))
/-- The same read at a TensorCore reference. -/
abbrev V (c : Dev nD) (b : Ref sig .tc) : Buf (Elt F) ((c : Thread nD τ).loc b) := V0 m c (Proc.devRef .tc b)

/-- No line before the region allocates. -/
theorem pre_fresh : (opssPre (F := F)).Forall fun ops => ops.Forall fun op => op.fresh = ∅ := by
  simp only [List.Forall]; repeat' constructor
/-- Every line before the region touches TensorCore references only. -/
theorem pre_sub : (opssPre (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub⟩
theorem hostOps1_fresh : (hostOps1 : List (HloOp τ sig (Elt F))).Forall fun op => op.fresh = ∅ := by
  simp only [List.Forall]; repeat' constructor

/-- The program is the lines before the region, the region, the closing line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main opssPre [hostOps1] pre_sub pre_fresh main_chain

/-- The closing line touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- No line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- No line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Operand window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Operand window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Operand window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Operand window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run to the library's frame post, for proof data whose arrays are the region-entry contents: every
    argument array is no array of the pipeline, kept by the region and by the closing line. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

/-! ## The body -/

abbrev rSq : Rect S1024x1024 := Rect.unit (s := S1024x1024) ![0, 0] S1024x1024.size Facts₀.inb_S1024x1024_S1024x1024_0_0
abbrev rPk : Rect S1024x384 := Rect.unit (s := S1024x384) ![0, 0] S1024x384.size Facts₀.inb_S1024x384_S1024x384_0_0
abbrev rPj : Rect S384x1024 := Rect.unit (s := S384x1024) ![0, 0] S384x1024.size Facts₀.inb_S384x1024_S384x1024_0_0

/-- The output window's staging buffer after the body, from the four operand blocks: its one whole store. -/
def out0_4 (x0 : Vec F S1024x1024 .bf16) (x1 : Vec F S1024x384 .bf16) (x2 : Vec F S1024x1024 .bf16) (x3 : Vec F S384x1024 .bf16) : Vec F S1024x1024 .f32 :=
  View.canon [⟨rSq, k0_pay1 (View.ld x0 rSq) (View.ld x2 rSq) (View.ld x1 rPk) (View.ld x3 rPj)⟩]

/-- The one store covers the buffer. -/
theorem cover0_4 (p0 : Vec F S1024x1024 .f32) (y : S1024x1024.Idx) :
    ∃ pc ∈ ([⟨rSq, p0⟩] : List (View.Piece (Elt F) S1024x1024 .f32)), y ∈ pc.1.set :=
  View.cover_of_tiled [⟨rSq, p0⟩] S1024x1024.size (by rfl) y

set_option maxHeartbeats 1000000 in
/-- The body on whole staging buffers, the operands' at read contents and the output's at anything, runs to the
    continuation holding the operands' as they were and the output's at `out0_4` of them. -/
theorem sound_kernel (c : Dev nD) (E : Set ℕ) (i : grid0.Coords)
    (arg1 : Memref sig .tc .vmem S1024x1024 .bf16) (harg1 : arg1.IsWhole) (arg2 : Memref sig .tc .vmem S1024x384 .bf16) (harg2 : arg2.IsWhole)
    (arg3 : Memref sig .tc .vmem S1024x1024 .bf16) (harg3 : arg3.IsWhole) (arg4 : Memref sig .tc .vmem S384x1024 .bf16) (harg4 : arg4.IsWhole)
    (arg5 : Memref sig .tc .vmem S1024x1024 .f32) (harg5 : arg5.IsWhole)
    (x0 : Vec F S1024x1024 .bf16) (x1 : Vec F S1024x384 .bf16) (x2 : Vec F S1024x1024 .bf16) (x3 : Vec F S384x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__emb_proj_kernel i arg1 harg1 arg2 harg2 arg3 harg3 arg4 harg4 arg5 harg5) K := by
  simp only [cc0__emb_proj_kernel_eq_skeleton]; unfold cc0__emb_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The arrays as the region finds them; after the body at point `t` each operand's buffer at its block and the
    output's at `out0_4` of the operand blocks; the untouched rest as the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates; every array of the pipeline ends at what the proof data say, every other
    unscoped buffer as the closing line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.Kernel.Fr

end
-- ==== Proof.FrameIdeal.lean ====
/-
  The frame of the program: its host lines, its one pipelined region, its closing reshape.

  The host lines before the region (index arithmetic, four row gathers, four masked selects, the casts, the
  transposes, two concatenations and two zero paddings) write only buffers of their own, so the region finds the
  nine argument arrays as launched and every staged operand at the lines' value (`V`). At every grid point the
  body reads its four operand blocks whole, forms two matrix products, adds them, scales by 32 and stores the whole
  output block; the two projection operands have a constant block index and are fetched once. The closing reshape
  writes only its own result. Hence every weakly fair execution terminates without a fault, the arguments end
  unchanged, and the region's output array is, block by block, what the body stored.
-/
import proofs.«130990_j59871844107157_2_alg».proof.Proof.Gen.KernelIdeal.Launch
import proofs.«130990_j59871844107157_2_alg».proof.Proof.Gen.KernelIdeal.Skeleton
import proofs.«130990_j59871844107157_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines before the region, stretch by stretch. -/
abbrev opssPre : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19]

/-- The buffers' contents when the region is entered: the launch contents after the lines before it. -/
abbrev V0 (c : Dev nD) : Valuation τ sig (Elt F) := StableHlo.after (List.flatten (opssPre (F := F))) (fun b => m (c, b))
/-- The same read at a TensorCore reference. -/
abbrev V (c : Dev nD) (b : Ref sig .tc) : Buf (Elt F) ((c : Thread nD τ).loc b) := V0 m c (Proc.devRef .tc b)

/-- No line before the region allocates. -/
theorem pre_fresh : (opssPre (F := F)).Forall fun ops => ops.Forall fun op => op.fresh = ∅ := by
  simp only [List.Forall]; repeat' constructor
/-- Every line before the region touches TensorCore references only. -/
theorem pre_sub : (opssPre (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub⟩
theorem hostOps1_fresh : (hostOps1 : List (HloOp τ sig (Elt F))).Forall fun op => op.fresh = ∅ := by
  simp only [List.Forall]; repeat' constructor

/-- The program is the lines before the region, the region, the closing line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main opssPre [hostOps1] pre_sub pre_fresh main_chain

/-- The closing line touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- No line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- No line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [opssPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the closing line: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Operand window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Operand window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Operand window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Operand window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run to the library's frame post, for proof data whose arrays are the region-entry contents: every
    argument array is no array of the pipeline, kept by the region and by the closing line. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

/-! ## The body -/

abbrev rSq : Rect S1024x1024 := Rect.unit (s := S1024x1024) ![0, 0] S1024x1024.size Facts₀.inb_S1024x1024_S1024x1024_0_0
abbrev rPk : Rect S1024x384 := Rect.unit (s := S1024x384) ![0, 0] S1024x384.size Facts₀.inb_S1024x384_S1024x384_0_0
abbrev rPj : Rect S384x1024 := Rect.unit (s := S384x1024) ![0, 0] S384x1024.size Facts₀.inb_S384x1024_S384x1024_0_0

/-- The output window's staging buffer after the body, from the four operand blocks: its one whole store. -/
def out0_4 (x0 : Vec F S1024x1024 .bf16) (x1 : Vec F S1024x384 .bf16) (x2 : Vec F S1024x1024 .bf16) (x3 : Vec F S384x1024 .bf16) : Vec F S1024x1024 .f32 :=
  View.canon [⟨rSq, k0_pay1 (View.ld x0 rSq) (View.ld x2 rSq) (View.ld x1 rPk) (View.ld x3 rPj)⟩]

/-- The one store covers the buffer. -/
theorem cover0_4 (p0 : Vec F S1024x1024 .f32) (y : S1024x1024.Idx) :
    ∃ pc ∈ ([⟨rSq, p0⟩] : List (View.Piece (Elt F) S1024x1024 .f32)), y ∈ pc.1.set :=
  View.cover_of_tiled [⟨rSq, p0⟩] S1024x1024.size (by rfl) y

set_option maxHeartbeats 1000000 in
/-- The body on whole staging buffers, the operands' at read contents and the output's at anything, runs to the
    continuation holding the operands' as they were and the output's at `out0_4` of them. -/
theorem sound_kernel (c : Dev nD) (E : Set ℕ) (i : grid0.Coords)
    (arg1 : Memref sig .tc .vmem S1024x1024 .bf16) (harg1 : arg1.IsWhole) (arg2 : Memref sig .tc .vmem S1024x384 .bf16) (harg2 : arg2.IsWhole)
    (arg3 : Memref sig .tc .vmem S1024x1024 .bf16) (harg3 : arg3.IsWhole) (arg4 : Memref sig .tc .vmem S384x1024 .bf16) (harg4 : arg4.IsWhole)
    (arg5 : Memref sig .tc .vmem S1024x1024 .f32) (harg5 : arg5.IsWhole)
    (x0 : Vec F S1024x1024 .bf16) (x1 : Vec F S1024x384 .bf16) (x2 : Vec F S1024x1024 .bf16) (x3 : Vec F S384x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__emb_proj_kernel i arg1 harg1 arg2 harg2 arg3 harg3 arg4 harg4 arg5 harg5) K := by
  simp only [cc0__emb_proj_kernel_eq_skeleton]; unfold cc0__emb_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The arrays as the region finds them; after the body at point `t` each operand's buffer at its block and the
    output's at `out0_4` of the operand blocks; the untouched rest as the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates; every array of the pipeline ends at what the proof data say, every other
    unscoped buffer as the closing line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.KernelIdeal.Fr

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«130990_j59871844107157_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.KVal.lean ====
/-
  What the region's output array holds after the run, as one function of the four staged operand arrays: entry
  `(n, j)` is the sum of the two products' entries — row `n` of the first token operand against column `j` of the
  first projection operand, row `n` of the packed token operand against column `j` of the packed projection operand —
  times 32. Point `t` of the grid writes rows `1024 t … 1024 t + 1023`, from the same rows of the token operands and
  the whole projection operands; the sixteen row blocks tile the array. The closing reshape then lays the array out as
  `[4, 4096, 1024]`.
-/
import proofs.«130990_j59871844107157_2_alg».proof.Proof.FrameIdeal
import proofs.«130990_j59871844107157_2_alg».proof.Proof.LibDense
import Idealize.ShloMosaic.Lib.Pipeline.Value
import Idealize.ShloMosaic.Lib.StableHlo.Run

set_option maxRecDepth 16384

noncomputable section

namespace Cert.KernelIdeal.KVal

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Fr Cert.KernelIdeal.Facts₀ Cert.DenseLib Cert.LayoutLib

variable (m : (ℓ : Loc nD τ sig) → Buf (Elt Ideal) ℓ) (ρ : Dev nD → PrngReg)

/-- The scale, 32 as the body's literal. -/
abbrev c32 : EReal := Ideal.ofBits .f32 0x42000000#32

/-- The output array from the four operand arrays. -/
def G (A0 : S16384x1024.Idx → EReal) (A1 : S16384x384.Idx → EReal) (B0 : S1024x1024.Idx → EReal)
    (B1 : S384x1024.Idx → EReal) : S16384x1024.Idx → EReal :=
  fun i => (mm A0 B0 i + mm A1 B1 i) * c32

/-- The body's stored value: the two products of its loaded blocks, added and scaled. -/
theorem pay_eq (x0 : Vec Ideal S1024x1024 .bf16) (x2 : Vec Ideal S1024x1024 .bf16) (x5 : Vec Ideal S1024x384 .bf16)
    (x7 : Vec Ideal S384x1024 .bf16) :
    k0_pay1 (F := Ideal) x0 x2 x5 x7 = fun i => (mm x0 x2 i + mm x5 x7 i) * c32 := by
  unfold k0_pay1
  simp only [shapeCast_self]
  rw [matmul_eq_mm dot_S1024x1024_S1024x1024_S1024x1024_1_0_0_1_n_n rfl x0 x2, matmul_eq_mm dot_S1024x384_S384x1024_S1024x1024_1_0_0_1_n_n rfl x5 x7]
  rfl

/-- A block's entry is the array's: rows of the token operands at the block's offset, the projection operands whole. -/
theorem G_at (A0 : S16384x1024.Idx → EReal) (A1 : S16384x384.Idx → EReal) (B0 : S1024x1024.Idx → EReal)
    (B1 : S384x1024.Idx → EReal) (X0 : S1024x1024.Idx → EReal) (X1 : S1024x384.Idx → EReal)
    (Y0 : S1024x1024.Idx → EReal) (Y1 : S384x1024.Idx → EReal) (hY0 : Y0 = B0) (hY1 : Y1 = B1)
    (j : S1024x1024.Idx) (i : S16384x1024.Idx) (hi1 : (i 1).val = (j 1).val)
    (h0 : ∀ k : Fin 1024, X0 (ix2 (j 0) k) = A0 (ix2 (i 0) k))
    (h1 : ∀ k : Fin 384, X1 (ix2 (j 0) k) = A1 (ix2 (i 0) k)) :
    (mm X0 Y0 j + mm X1 Y1 j) * c32 = G A0 A1 B0 B1 i := by
  subst hY0 hY1
  have hq : j 1 = i 1 := Fin.ext hi1.symm
  unfold G mm
  simp only [h0, h1, hq]

theorem hz : (![0, 0] : Fin 2 → Nat) = fun _ => 0 := funext fun a => by fin_cases a <;> rfl

/-- The printed index maps over the grid: the token operands and the output move down by one block per point, the
    projection operands stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of `G` of the operand arrays as the region finds them. -/
theorem flushed_eq (c : Dev nD) (t : Fin cfg0.N) :
    (dats m 0 c).flushed 4 t = ((cfg0.win 4).blk t).view.read (Elt Ideal)
      (G (V m c main_v18) (V m c main_v83) (V m c main_v20) (V m c main_v84)) := by
  show (cfg0.win 4).cut (grid0.coords t) ((dats m 0 c).after 4 t) = _
  rw [after0_4]
  unfold out0_4
  rw [View.canon_unit_zero hz]
  simp only [View.ld_unit_zero (S := S1024x1024) hz, View.ld_unit_zero (S := S1024x384) hz, View.ld_unit_zero (S := S384x1024) hz]
  rw [pay_eq]
  obtain ⟨e00, e01, e10, e11, e20, e21, e30, e31, e40, e41⟩ := idx_facts t
  funext j
  refine G_at (V m c main_v18) (V m c main_v83) (V m c main_v20) (V m c main_v84)
    (iblk m c 0 t) (iblk m c 1 t) (iblk m c 2 t) (iblk m c 3 t) ?_ ?_ j (((cfg0.win 4).blk t).view.emb j) ?_ ?_ ?_
  · funext x
    unfold iblk
    rw [View.read_apply]
    show V m c main_v20 (((cfg0.win 2).blk t).view.emb x) = V m c main_v20 x
    congr 1; funext a; apply Fin.ext
    match a with
    | ⟨0, _⟩ => show win0_2.index t (0 : Fin 2) * 1024 + 1 * (x 0).val = (x 0).val; rw [e20]; omega
    | ⟨1, _⟩ => show win0_2.index t (1 : Fin 2) * 1024 + 1 * (x 1).val = (x 1).val; rw [e21]; omega
  · funext x
    unfold iblk
    rw [View.read_apply]
    show V m c main_v84 (((cfg0.win 3).blk t).view.emb x) = V m c main_v84 x
    congr 1; funext a; apply Fin.ext
    match a with
    | ⟨0, _⟩ => show win0_3.index t (0 : Fin 2) * 384 + 1 * (x 0).val = (x 0).val; rw [e30]; omega
    | ⟨1, _⟩ => show win0_3.index t (1 : Fin 2) * 1024 + 1 * (x 1).val = (x 1).val; rw [e31]; omega
  · show win0_4.index t (1 : Fin 2) * 1024 + 1 * (j 1).val = (j 1).val
    rw [e41]; omega
  · intro k
    unfold iblk
    rw [View.read_apply]
    show V m c main_v18 (((cfg0.win 0).blk t).view.emb (ix2 (j 0) k)) = V m c main_v18 (ix2 ((((cfg0.win 4).blk t).view.emb j) 0) k)
    congr 1; funext a; apply Fin.ext
    match a with
    | ⟨0, _⟩ => show win0_0.index t (0 : Fin 2) * 1024 + 1 * (j 0).val = win0_4.index t (0 : Fin 2) * 1024 + 1 * (j 0).val; rw [e00, e40]
    | ⟨1, _⟩ => show win0_0.index t (1 : Fin 2) * 1024 + 1 * k.val = k.val; rw [e01]; omega
  · intro k
    unfold iblk
    rw [View.read_apply]
    show V m c main_v83 (((cfg0.win 1).blk t).view.emb (ix2 (j 0) k)) = V m c main_v83 (ix2 ((((cfg0.win 4).blk t).view.emb j) 0) k)
    congr 1; funext a; apply Fin.ext
    match a with
    | ⟨0, _⟩ => show win0_1.index t (0 : Fin 2) * 1024 + 1 * (j 0).val = win0_4.index t (0 : Fin 2) * 1024 + 1 * (j 0).val; rw [e10, e40]
    | ⟨1, _⟩ => show win0_1.index t (1 : Fin 2) * 384 + 1 * k.val = k.val; rw [e11]; omega

/-- An index of the output array is in point `t`'s block iff each coordinate is in the block's range. -/
theorem mem_blk (t : Fin cfg0.N) (i : S16384x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v85).slice (win0_4.rect t)).set ↔ _
  rw [View.set_slice_whole, Rect.mem_set_unit]
  exact Iff.rfl

/-- The sixteen row blocks tile the array, so it ends at `G` of the operand arrays. -/
theorem final (c : Dev nD) : (dats m 0 c).arrAt 4 cfg0.N = G (V m c main_v18) (V m c main_v83) (V m c main_v20) (V m c main_v84) :=
  (dats m 0 c).arrAt_eq_of_cover 4 _ (fun t _ => flushed_eq m c t) (fun i => by
    have hi0 : (i 0).val < 16384 := (i 0).isLt
    have hi1 : (i 1).val < 1024 := (i 1).isLt
    have hN : cfg0.N = 16 := N_0
    refine ⟨⟨(i 0).val / 1024, by rw [hN]; omega⟩, flush0_4 _, ?_⟩
    rw [mem_blk]
    obtain ⟨-, -, -, -, -, -, -, -, e40, e41⟩ := idx_facts ⟨(i 0).val / 1024, by rw [hN]; omega⟩
    intro a
    match a with
    | ⟨0, _⟩ =>
      show win0_4.index _ (0 : Fin 2) * 1024 ≤ (i 0).val ∧ (i 0).val < win0_4.index _ (0 : Fin 2) * 1024 + 1024
      rw [e40]; dsimp only; omega
    | ⟨1, _⟩ =>
      show win0_4.index _ (1 : Fin 2) * 1024 ≤ (i 1).val ∧ (i 1).val < win0_4.index _ (1 : Fin 2) * 1024 + 1024
      rw [e41]; omega)

/-- After the closing reshape the result is `G` laid out as `[4, 4096, 1024]`. -/
theorem out_eq (c : Dev nD) :
    Pipeline.afterTail₀ cfgs (dats m) 0 (V0 m) [hostOps1] c main_v86
      = shapeCast S4x4096x1024 (G (V m c main_v18) (V m c main_v83) (V m c main_v20) (V m c main_v84)) Facts₀.shapeCasts_S16384x1024_S4x4096x1024 := by
  unfold Pipeline.afterTail₀
  show StableHlo.after hostOps1 _ (Proc.devRef .tc main_v86) = _
  after_results
  have e : Pipeline.withArrays (cfgs 0).spec c (V0 m c) (fun w => (dats m 0 c).arrAt w (cfgs 0).N) (Proc.devRef .tc main_v85)
      = G (V m c main_v18) (V m c main_v83) (V m c main_v20) (V m c main_v84) :=
    (Pipeline.withArrays_arr spec0 launch0.win.arr_inj c _ _ 4).trans (final m c)
  rw [e]
  rfl

/-- The run, read: the result at `G` of the region-entry operand arrays, reshaped; the arguments unchanged. -/
theorem run : θ_run defs (onTc (τ := τ) (main (F := Ideal))) ⟨m, fun _ => 0, ρ⟩ fun r => ∀ c : Dev nD,
      r.2.mem ((c.tc : Thread nD τ).loc main_v86)
        = shapeCast S4x4096x1024 (G (V m c main_v18) (V m c main_v83) (V m c main_v20) (V m c main_v84)) Facts₀.shapeCasts_S16384x1024_S4x4096x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v86 (Pipeline.mem_restRefs_of main_v86 (by decide) (by decide))).trans (out_eq m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c)⟩)
    (run_main m ρ)

end Cert.KernelIdeal.KVal

end
-- ==== Proof.Stages.lean ====
/-
  The index arithmetic shared by the two programs, as functions of the token array: the token array flattened, a
  bucket's membership mask (the token is at least the bucket's first id and below its end), and a bucket's local row
  index (the token less the bucket's first id, clamped into the table, wrapped if negative, laid out as a column).
  Both programs spell these identically, line for line; neither proof opens them.
-/
import Idealize.ShloMosaic.PureOps.Ideal
import Idealize.ShloMosaic.Lib.ValueIdx

noncomputable section

namespace Cert.Stages

open Idealize.ShloMosaic

abbrev Sin : Shape := ⟨2, ![4, 4096]⟩
abbrev Sn : Shape := ⟨1, ![16384]⟩
abbrev Sn1 : Shape := ⟨2, ![16384, 1]⟩
abbrev S0 : Shape := ⟨0, ![]⟩

/-- The shape relations the lines cite. -/
structure Hyp : Prop where
  sc : Sin.ShapeCasts Sn
  b0 : S0.BroadcastsInDim Sn (![] : Fin 0 → Fin Sn.rank)
  b1 : Sn.BroadcastsInDim Sn1 (![0] : Fin 1 → Fin Sn1.rank)

variable (h : Hyp)

/-- The tokens as one vector. -/
def flat (x0 : Sin.Idx → BitVec 32) : Sn.Idx → BitVec 32 := shapeCast Sn x0 h.sc

/-- A constant along the vector. -/
def splat (v : BitVec 32) : Sn.Idx → BitVec 32 := broadcastInDim Sn ![] h.b0 (constantI S0 32 v)

/-- The bucket's mask: `lo ≤ token < hi`. -/
def mask (lo hi : BitVec 32) (x0 : Sin.Idx → BitVec 32) : Sn.Idx → BitVec 1 :=
  andi (cmpi .sge (flat h x0) (splat h lo)) (cmpi .slt (flat h x0) (splat h hi))

/-- The token less the bucket's first id, clamped to `[0, top]`. -/
def clipped (off top : BitVec 32) (x0 : Sin.Idx → BitVec 32) : Sn.Idx → BitVec 32 :=
  minsi (splat h top) (maxsi (splat h 0#32) (subi (flat h x0) (splat h off)))

/-- The bucket's local row index as a column: the clamped value, moved up by the table's height where negative. -/
def rowIx (off top n : BitVec 32) (x0 : Sin.Idx → BitVec 32) : Sn1.Idx → BitVec 32 :=
  broadcastInDim Sn1 ![0] h.b1
    (select (cmpi .slt (clipped h off top x0) (splat h 0#32)) (addi (clipped h off top x0) (splat h n)) (clipped h off top x0))

/-- The mask as a column. -/
def maskCol (lo hi : BitVec 32) (x0 : Sin.Idx → BitVec 32) : Sn1.Idx → BitVec 1 :=
  broadcastInDim Sn1 ![0] h.b1 (mask h lo hi x0)

end Cert.Stages

end
-- ==== Proof.Entry.lean ====
/-
  The four staged operand arrays as the region finds them, each as the host lines' value of the argument arrays: the
  first bucket's gathered rows kept under its mask and cast; the first projection cast and transposed; the three
  narrow buckets' masked rows laid side by side and widened with zero columns; their projections, cast and transposed,
  laid one under another and deepened with zero rows. Each is read off the fold of the host lines over the launch
  contents, the index arithmetic left folded in the shared stage functions.
-/
import proofs.«130990_j59871844107157_2_alg».proof.Proof.FrameIdeal
import proofs.«130990_j59871844107157_2_alg».proof.Proof.Stages
import Idealize.ShloMosaic.Lib.StableHlo.Run

set_option maxRecDepth 16384

noncomputable section

namespace Cert.KernelIdeal.Entry

open Idealize.ShloMosaic Idealize.ShloMosaic.TcCoe Idealize.SL.Sem Idealize.ShloMosaic.StableHlo
open Cert.KernelIdeal Cert.KernelIdeal.Gen Cert.KernelIdeal.Fr Cert.Stages

/-- A concatenation of three operands: its result with each operand's contents at its own reference. -/
theorem nary3_result' {sig : RefSig} {τ : Topo} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The fold of a literal list of host lines at a reference, in one pass. -/
macro "fold_results" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

theorem hyp : Hyp := ⟨Facts₀.shapeCasts_S4x4096_S16384, Facts₀.bcast_S_S16384, Facts₀.bcast_S16384_S16384x1_0⟩

variable (m : (ℓ : Loc nD τ sig) → Buf (Elt Ideal) ℓ)

/-- Bucket 0's gathered rows: row `n` of its table at token `n`'s local index. -/
def rows0 (c : Dev nD) : S16384x1024.Idx → EReal :=
  Host.gather gather_S20000x1024_S16384x1_S16384x1024_1_0_n_n_0_1_11024 (m ((c.tc : Thread nD τ).loc main_arg1)) (rowIx hyp 0#32 19999#32 20000#32 (m ((c.tc : Thread nD τ).loc main_arg0)))

/-- Bucket 1's gathered rows: row `n` of its table at token `n`'s local index. -/
def rows1 (c : Dev nD) : S16384x256.Idx → EReal :=
  Host.gather gather_S20000x256_S16384x1_S16384x256_1_0_n_n_0_1_1256 (m ((c.tc : Thread nD τ).loc main_arg2)) (rowIx hyp 20000#32 19999#32 20000#32 (m ((c.tc : Thread nD τ).loc main_arg0)))

/-- Bucket 2's gathered rows: row `n` of its table at token `n`'s local index. -/
def rows2 (c : Dev nD) : S16384x64.Idx → EReal :=
  Host.gather gather_S160000x64_S16384x1_S16384x64_1_0_n_n_0_1_164 (m ((c.tc : Thread nD τ).loc main_arg3)) (rowIx hyp 40000#32 159999#32 160000#32 (m ((c.tc : Thread nD τ).loc main_arg0)))

/-- Bucket 3's gathered rows: row `n` of its table at token `n`'s local index. -/
def rows3 (c : Dev nD) : S16384x16.Idx → EReal :=
  Host.gather gather_S67735x16_S16384x1_S16384x16_1_0_n_n_0_1_116 (m ((c.tc : Thread nD τ).loc main_arg4)) (rowIx hyp 200000#32 67734#32 67735#32 (m ((c.tc : Thread nD τ).loc main_arg0)))

attribute [local irreducible] Host.gather pad concatenate transpose in
set_option maxHeartbeats 4000000 in
theorem entry_v18 (c : Dev nD) : @Eq (S16384x1024.Idx → EReal) (V m c main_v18) (truncf (F := Ideal) .bf16 (select (broadcastInDim S16384x1024 ![0, 1] Facts₀.bcast_S16384x1_S16384x1024_0_1 (maskCol hyp 0#32 20000#32 (m ((c.tc : Thread nD τ).loc main_arg0)))) (rows0 m c) (broadcastInDim S16384x1024 ![] Facts₀.bcast_S_S16384x1024 (constant (F := Ideal) S_ .f32 0x00000000#32))) Facts₀.bitsLt_bf16_f32) := by
  dsimp only [V, V0, opssPre]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  fold_results
  all_goals rfl

attribute [local irreducible] Host.gather pad concatenate transpose in
set_option maxHeartbeats 4000000 in
theorem entry_v20 (c : Dev nD) : @Eq (S1024x1024.Idx → EReal) (V m c main_v20) (transpose S1024x1024 [1, 0] (truncf (F := Ideal) .bf16 (m ((c.tc : Thread nD τ).loc main_arg5)) Facts₀.bitsLt_bf16_f32) Facts₀.transposes_S1024x1024_S1024x1024_1_0) := by
  dsimp only [V, V0, opssPre]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  fold_results
  all_goals rfl

attribute [local irreducible] Host.gather pad concatenate transpose in
set_option maxHeartbeats 4000000 in
theorem entry_v83 (c : Dev nD) : @Eq (S16384x384.Idx → EReal) (V m c main_v83)
    (pad S16384x384 ![0, 0] ![0, 48] ![0, 0]
        (concatenate S16384x336 1 [⟨S16384x256, truncf (F := Ideal) .bf16 (select (broadcastInDim S16384x256 ![0, 1] Facts₀.bcast_S16384x1_S16384x256_0_1 (maskCol hyp 20000#32 40000#32 (m ((c.tc : Thread nD τ).loc main_arg0)))) (rows1 m c) (broadcastInDim S16384x256 ![] Facts₀.bcast_S_S16384x256 (constant (F := Ideal) S_ .f32 0x00000000#32))) Facts₀.bitsLt_bf16_f32⟩,
          ⟨S16384x64, truncf (F := Ideal) .bf16 (select (broadcastInDim S16384x64 ![0, 1] Facts₀.bcast_S16384x1_S16384x64_0_1 (maskCol hyp 40000#32 200000#32 (m ((c.tc : Thread nD τ).loc main_arg0)))) (rows2 m c) (broadcastInDim S16384x64 ![] Facts₀.bcast_S_S16384x64 (constant (F := Ideal) S_ .f32 0x00000000#32))) Facts₀.bitsLt_bf16_f32⟩,
          ⟨S16384x16, truncf (F := Ideal) .bf16 (select (broadcastInDim S16384x16 ![0, 1] Facts₀.bcast_S16384x1_S16384x16_0_1 (maskCol hyp 200000#32 267735#32 (m ((c.tc : Thread nD τ).loc main_arg0)))) (rows3 m c) (broadcastInDim S16384x16 ![] Facts₀.bcast_S_S16384x16 (constant (F := Ideal) S_ .f32 0x00000000#32))) Facts₀.bitsLt_bf16_f32⟩] Facts₀.concatenates_S16384x256_S16384x64_S16384x16_S16384x336_d1)
        (sitofp (F := Ideal) .bf16 (constantI S_ 32 0#32)) Facts₀.pads_S16384x336_S16384x384_000_0480 Facts₀.h_S_) := by
  dsimp only [V, V0, opssPre]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  fold_results
  all_goals rfl

attribute [local irreducible] Host.gather pad concatenate transpose in
set_option maxHeartbeats 4000000 in
theorem entry_v84 (c : Dev nD) : @Eq (S384x1024.Idx → EReal) (V m c main_v84)
    (pad S384x1024 ![0, 0] ![48, 0] ![0, 0]
        (concatenate S336x1024 0 [⟨S256x1024, transpose S256x1024 [1, 0] (truncf (F := Ideal) .bf16 (m ((c.tc : Thread nD τ).loc main_arg6)) Facts₀.bitsLt_bf16_f32) Facts₀.transposes_S1024x256_S256x1024_1_0⟩,
          ⟨S64x1024, transpose S64x1024 [1, 0] (truncf (F := Ideal) .bf16 (m ((c.tc : Thread nD τ).loc main_arg7)) Facts₀.bitsLt_bf16_f32) Facts₀.transposes_S1024x64_S64x1024_1_0⟩,
          ⟨S16x1024, transpose S16x1024 [1, 0] (truncf (F := Ideal) .bf16 (m ((c.tc : Thread nD τ).loc main_arg8)) Facts₀.bitsLt_bf16_f32) Facts₀.transposes_S1024x16_S16x1024_1_0⟩] Facts₀.concatenates_S256x1024_S64x1024_S16x1024_S336x1024_d0)
        (sitofp (F := Ideal) .bf16 (constantI S_ 32 0#32)) Facts₀.pads_S336x1024_S384x1024_0480_000 Facts₀.h_S_) := by
  dsimp only [V, V0, opssPre]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  fold_results
  all_goals rfl

end Cert.KernelIdeal.Entry

end
-- ==== Proof.LibPack.lean ====
/-
  General lemmas about matrix products over the extended reals whose operands are assembled from pieces: a transposed
  operand, rows kept under a row mask and zeroed elsewhere, and three column groups (of widths 256, 64 and 16) laid
  side by side and widened with 48 zero columns against three row groups laid one under another and deepened with 48
  zero rows. The product with a masked operand is the masked product; the product of the packed pair is the sum of the
  three groups' products. Also the host's spellings of these assemblies (a select under a broadcast column, a
  transpose, a zero padding of a concatenation), read entry by entry. None mentions a program.
-/
import proofs.«130990_j59871844107157_2_alg».proof.Proof.LibDense
import Idealize.ShloMosaic.Lib.KernelVsHost

noncomputable section

namespace Cert.PackLib

open Idealize.ShloMosaic Idealize.ShloMosaic.ValueIdx Cert.LayoutLib Cert.DenseLib

/-! ## A transposed operand -/

/-- The transposed array: entry `(k, q)` is entry `(q, k)`. -/
def tr {N K : ℕ} (P : (⟨2, ![N, K]⟩ : Shape).Idx → EReal) : (⟨2, ![K, N]⟩ : Shape).Idx → EReal :=
  fun i => P (ix2 (i 1) (i 0))

theorem tr_apply {N K : ℕ} (P : (⟨2, ![N, K]⟩ : Shape).Idx → EReal) (k : Fin K) (q : Fin N) :
    tr P (ix2 k q) = P (ix2 q k) := rfl

/-- The host's transpose of a rank-two array is `tr`. -/
theorem transpose_eq_tr {N K : ℕ} (P : (⟨2, ![N, K]⟩ : Shape).Idx → EReal)
    (h : (⟨2, ![N, K]⟩ : Shape).Transposes [1, 0] ⟨2, ![K, N]⟩) :
    transpose ⟨2, ![K, N]⟩ [1, 0] P h = tr P := by
  funext i
  obtain ⟨k, q, rfl⟩ : ∃ (k : Fin K) (q : Fin N), i = ix2 k q := ⟨i 0, i 1, eq_ix2 i⟩
  refine transpose_apply [1, 0] P h (ix2 k q) (ix2 q k) fun b => ?_
  match b with
  | ⟨0, _⟩ => rfl
  | ⟨1, _⟩ => rfl

/-! ## Rows kept under a mask -/

/-- Row `p` of `E` where the mask's entry `p` is one, a zero row elsewhere. -/
def keep {M K : ℕ} (c : (⟨1, ![M]⟩ : Shape).Idx → BitVec 1) (E : (⟨2, ![M, K]⟩ : Shape).Idx → EReal) :
    (⟨2, ![M, K]⟩ : Shape).Idx → EReal :=
  fun i => if c (ix1 (i 0)) = 1 then E i else 0

theorem keep_apply {M K : ℕ} (c : (⟨1, ![M]⟩ : Shape).Idx → BitVec 1) (E : (⟨2, ![M, K]⟩ : Shape).Idx → EReal)
    (p : Fin M) (k : Fin K) : keep c E (ix2 p k) = if c (ix1 p) = 1 then E (ix2 p k) else 0 := rfl

/-- The host's select of `E` against a splat zero under the mask broadcast to a column and along the rows. -/
theorem select_eq_keep {M K : ℕ} (c : (⟨1, ![M]⟩ : Shape).Idx → BitVec 1) (E : (⟨2, ![M, K]⟩ : Shape).Idx → EReal)
    (z : (⟨0, ![]⟩ : Shape).Idx → EReal) (hz : ∀ j, z j = 0)
    (h1 : (⟨1, ![M]⟩ : Shape).BroadcastsInDim ⟨2, ![M, 1]⟩ (![0] : Fin 1 → Fin 2))
    (h2 : (⟨2, ![M, 1]⟩ : Shape).BroadcastsInDim ⟨2, ![M, K]⟩ (![0, 1] : Fin 2 → Fin 2))
    (h0 : (⟨0, ![]⟩ : Shape).BroadcastsInDim ⟨2, ![M, K]⟩ (![] : Fin 0 → Fin 2)) :
    select (broadcastInDim ⟨2, ![M, K]⟩ ![0, 1] h2 (broadcastInDim ⟨2, ![M, 1]⟩ ![0] h1 c)) E
        (broadcastInDim ⟨2, ![M, K]⟩ ![] h0 z) = keep c E := by
  funext i
  obtain ⟨p, q, rfl⟩ : ∃ (p : Fin M) (q : Fin K), i = ix2 p q := ⟨i 0, i 1, eq_ix2 i⟩
  show Scalar.select (broadcastInDim ⟨2, ![M, K]⟩ ![0, 1] h2 (broadcastInDim ⟨2, ![M, 1]⟩ ![0] h1 c) (ix2 p q)) (E (ix2 p q))
      (broadcastInDim ⟨2, ![M, K]⟩ ![] h0 z (ix2 p q)) = _
  rw [broadcastInDim_col_apply, broadcastInDim_vecCol_apply, broadcastInDim_scalar_apply, hz]
  rfl

/-- The product with a masked left operand is the masked product: a zero row times anything sums to zero. -/
theorem mm_keep {M K N : ℕ} (c : (⟨1, ![M]⟩ : Shape).Idx → BitVec 1) (E : (⟨2, ![M, K]⟩ : Shape).Idx → EReal)
    (W : (⟨2, ![K, N]⟩ : Shape).Idx → EReal) (p : Fin M) (q : Fin N) :
    mm (keep c E) W (ix2 p q) = if c (ix1 p) = 1 then mm E W (ix2 p q) else 0 := by
  rw [mm_apply, mm_apply]
  by_cases h : c (ix1 p) = 1
  · simp only [keep_apply, if_pos h]
  · simp only [keep_apply, if_neg h, zero_mul, Finset.sum_const_zero]

/-! ## Three groups packed, with a zero tail -/

/-- `A` is three column groups side by side, then zero columns. -/
def IsColPack {M : ℕ} (A : (⟨2, ![M, 384]⟩ : Shape).Idx → EReal) (S1 : (⟨2, ![M, 256]⟩ : Shape).Idx → EReal)
    (S2 : (⟨2, ![M, 64]⟩ : Shape).Idx → EReal) (S3 : (⟨2, ![M, 16]⟩ : Shape).Idx → EReal) : Prop :=
  (∀ (p : Fin M) (k : Fin 384) (k' : Fin 256), k.val = k'.val → A (ix2 p k) = S1 (ix2 p k'))
  ∧ (∀ (p : Fin M) (k : Fin 384) (k' : Fin 64), k.val = 256 + k'.val → A (ix2 p k) = S2 (ix2 p k'))
  ∧ (∀ (p : Fin M) (k : Fin 384) (k' : Fin 16), k.val = 320 + k'.val → A (ix2 p k) = S3 (ix2 p k'))
  ∧ (∀ (p : Fin M) (k : Fin 384), 336 ≤ k.val → A (ix2 p k) = 0)

/-- `B` is three row groups one under another, then zero rows. -/
def IsRowPack {N : ℕ} (B : (⟨2, ![384, N]⟩ : Shape).Idx → EReal) (T1 : (⟨2, ![256, N]⟩ : Shape).Idx → EReal)
    (T2 : (⟨2, ![64, N]⟩ : Shape).Idx → EReal) (T3 : (⟨2, ![16, N]⟩ : Shape).Idx → EReal) : Prop :=
  (∀ (q : Fin N) (k : Fin 384) (k' : Fin 256), k.val = k'.val → B (ix2 k q) = T1 (ix2 k' q))
  ∧ (∀ (q : Fin N) (k : Fin 384) (k' : Fin 64), k.val = 256 + k'.val → B (ix2 k q) = T2 (ix2 k' q))
  ∧ (∀ (q : Fin N) (k : Fin 384) (k' : Fin 16), k.val = 320 + k'.val → B (ix2 k q) = T3 (ix2 k' q))
  ∧ (∀ (q : Fin N) (k : Fin 384), 336 ≤ k.val → B (ix2 k q) = 0)

/-- A sum over 384 positions split at 256, 320 and 336. -/
theorem sum_split (g : Fin 384 → EReal) :
    ∑ k : Fin 384, g k = (((∑ k : Fin 256, g ⟨k.val, by omega⟩) + ∑ k : Fin 64, g ⟨256 + k.val, by omega⟩)
      + ∑ k : Fin 16, g ⟨320 + k.val, by omega⟩) + ∑ k : Fin 48, g ⟨336 + k.val, by omega⟩ := by
  have e1 := Fin.sum_univ_add (M := EReal) (a := 336) (b := 48) (fun k : Fin (336 + 48) => g k)
  have e2 := Fin.sum_univ_add (M := EReal) (a := 320) (b := 16) (fun k : Fin (320 + 16) => g ⟨k.val, by omega⟩)
  have e3 := Fin.sum_univ_add (M := EReal) (a := 256) (b := 64) (fun k : Fin (256 + 64) => g ⟨k.val, by omega⟩)
  refine e1.trans ?_
  refine congrArg₂ (· + ·) ((e2.trans ?_)) (Finset.sum_congr rfl fun k _ => congrArg g (Fin.ext rfl))
  refine congrArg₂ (· + ·) (e3.trans ?_) (Finset.sum_congr rfl fun k _ => congrArg g (Fin.ext rfl))
  exact congrArg₂ (· + ·) (Finset.sum_congr rfl fun k _ => congrArg g (Fin.ext rfl))
    (Finset.sum_congr rfl fun k _ => congrArg g (Fin.ext rfl))

/-- The product of a packed pair is the sum of the three groups' products: the zero tail contributes nothing. -/
theorem mm_pack {M N : ℕ} {A : (⟨2, ![M, 384]⟩ : Shape).Idx → EReal} {S1 : (⟨2, ![M, 256]⟩ : Shape).Idx → EReal}
    {S2 : (⟨2, ![M, 64]⟩ : Shape).Idx → EReal} {S3 : (⟨2, ![M, 16]⟩ : Shape).Idx → EReal}
    {B : (⟨2, ![384, N]⟩ : Shape).Idx → EReal} {T1 : (⟨2, ![256, N]⟩ : Shape).Idx → EReal}
    {T2 : (⟨2, ![64, N]⟩ : Shape).Idx → EReal} {T3 : (⟨2, ![16, N]⟩ : Shape).Idx → EReal}
    (hA : IsColPack A S1 S2 S3) (hB : IsRowPack B T1 T2 T3) (p : Fin M) (q : Fin N) :
    mm A B (ix2 p q) = (mm S1 T1 (ix2 p q) + mm S2 T2 (ix2 p q)) + mm S3 T3 (ix2 p q) := by
  obtain ⟨a1, a2, a3, a4⟩ := hA
  obtain ⟨b1, b2, b3, b4⟩ := hB
  rw [mm_apply, mm_apply, mm_apply, mm_apply, sum_split]
  have t4 : (∑ k : Fin 48, A (ix2 p ⟨336 + k.val, by omega⟩) * B (ix2 ⟨336 + k.val, by omega⟩ q)) = 0 :=
    Finset.sum_eq_zero fun k _ => by rw [a4 p _ (Nat.le_add_right _ _), zero_mul]
  rw [t4, add_zero]
  refine congrArg₂ (· + ·) (congrArg₂ (· + ·) ?_ ?_) ?_
  · exact Finset.sum_congr rfl fun k _ => by rw [a1 p ⟨k.val, _⟩ k rfl, b1 q ⟨k.val, _⟩ k rfl]
  · exact Finset.sum_congr rfl fun k _ => by rw [a2 p ⟨256 + k.val, _⟩ k rfl, b2 q ⟨256 + k.val, _⟩ k rfl]
  · exact Finset.sum_congr rfl fun k _ => by rw [a3 p ⟨320 + k.val, _⟩ k rfl, b3 q ⟨320 + k.val, _⟩ k rfl]

/-! ## Four buckets projected and summed -/

/-- Entry `(n, j)`: over four buckets, the product of the bucket's rows with its transposed projection where the
    bucket's mask holds at row `n` and zero elsewhere, summed from zero in the buckets' order, times `s`. -/
def embed {M N : ℕ} (c0 c1 c2 c3 : (⟨1, ![M]⟩ : Shape).Idx → BitVec 1)
    (E0 : (⟨2, ![M, 1024]⟩ : Shape).Idx → EReal) (E1 : (⟨2, ![M, 256]⟩ : Shape).Idx → EReal)
    (E2 : (⟨2, ![M, 64]⟩ : Shape).Idx → EReal) (E3 : (⟨2, ![M, 16]⟩ : Shape).Idx → EReal)
    (P0 : (⟨2, ![N, 1024]⟩ : Shape).Idx → EReal) (P1 : (⟨2, ![N, 256]⟩ : Shape).Idx → EReal)
    (P2 : (⟨2, ![N, 64]⟩ : Shape).Idx → EReal) (P3 : (⟨2, ![N, 16]⟩ : Shape).Idx → EReal) (s : EReal) :
    (⟨2, ![M, N]⟩ : Shape).Idx → EReal :=
  fun i => ((((0 + keep c0 (mm E0 (tr P0)) i) + keep c1 (mm E1 (tr P1)) i) + keep c2 (mm E2 (tr P2)) i)
    + keep c3 (mm E3 (tr P3)) i) * s

/-- The fused form: the first bucket's masked rows against its transposed projection, plus the three narrow buckets'
    masked rows packed against their transposed projections packed, times `s`, is `embed`: a masked operand gives the
    masked product, the packed pair the sum of the groups' products, and addition is associative. -/
theorem fused_eq_embed {M N : ℕ} (c0 c1 c2 c3 : (⟨1, ![M]⟩ : Shape).Idx → BitVec 1)
    (E0 : (⟨2, ![M, 1024]⟩ : Shape).Idx → EReal) (E1 : (⟨2, ![M, 256]⟩ : Shape).Idx → EReal)
    (E2 : (⟨2, ![M, 64]⟩ : Shape).Idx → EReal) (E3 : (⟨2, ![M, 16]⟩ : Shape).Idx → EReal)
    (P0 : (⟨2, ![N, 1024]⟩ : Shape).Idx → EReal) (P1 : (⟨2, ![N, 256]⟩ : Shape).Idx → EReal)
    (P2 : (⟨2, ![N, 64]⟩ : Shape).Idx → EReal) (P3 : (⟨2, ![N, 16]⟩ : Shape).Idx → EReal) (s : EReal)
    (A1 : (⟨2, ![M, 384]⟩ : Shape).Idx → EReal) (B1 : (⟨2, ![384, N]⟩ : Shape).Idx → EReal)
    (hA : IsColPack A1 (keep c1 E1) (keep c2 E2) (keep c3 E3)) (hB : IsRowPack B1 (tr P1) (tr P2) (tr P3)) :
    (fun i => (mm (keep c0 E0) (tr P0) i + mm A1 B1 i) * s) = embed c0 c1 c2 c3 E0 E1 E2 E3 P0 P1 P2 P3 s := by
  funext i
  obtain ⟨p, q, rfl⟩ : ∃ (p : Fin M) (q : Fin N), i = ix2 p q := ⟨i 0, i 1, eq_ix2 i⟩
  show (mm (keep c0 E0) (tr P0) (ix2 p q) + mm A1 B1 (ix2 p q)) * s
    = ((((0 + keep c0 (mm E0 (tr P0)) (ix2 p q)) + keep c1 (mm E1 (tr P1)) (ix2 p q)) + keep c2 (mm E2 (tr P2)) (ix2 p q))
      + keep c3 (mm E3 (tr P3)) (ix2 p q)) * s
  rw [mm_pack hA hB, mm_keep, mm_keep, mm_keep, mm_keep, keep_apply, keep_apply, keep_apply, keep_apply, zero_add]
  simp only [add_assoc]

/-! ## The host's spelling of the packings -/

theorem concat3_cols_apply {M : ℕ} (S1 : (⟨2, ![M, 256]⟩ : Shape).Idx → EReal) (S2 : (⟨2, ![M, 64]⟩ : Shape).Idx → EReal)
    (S3 : (⟨2, ![M, 16]⟩ : Shape).Idx → EReal)
    (hc : Shape.Concatenates (([⟨⟨2, ![M, 256]⟩, S1⟩, ⟨⟨2, ![M, 64]⟩, S2⟩, ⟨⟨2, ![M, 16]⟩, S3⟩] : List ((s : Shape) × (s.Idx → EReal))).map (·.1)) ⟨2, ![M, 336]⟩ (1 : Fin 2))
    (p : Fin M) (k : Fin 336) :
    (∀ k' : Fin 256, k.val = k'.val → concatenate ⟨2, ![M, 336]⟩ (1 : Fin 2) [⟨⟨2, ![M, 256]⟩, S1⟩, ⟨⟨2, ![M, 64]⟩, S2⟩, ⟨⟨2, ![M, 16]⟩, S3⟩] hc (ix2 p k) = S1 (ix2 p k'))
    ∧ (∀ k' : Fin 64, k.val = 256 + k'.val → concatenate ⟨2, ![M, 336]⟩ (1 : Fin 2) [⟨⟨2, ![M, 256]⟩, S1⟩, ⟨⟨2, ![M, 64]⟩, S2⟩, ⟨⟨2, ![M, 16]⟩, S3⟩] hc (ix2 p k) = S2 (ix2 p k'))
    ∧ (∀ k' : Fin 16, k.val = 320 + k'.val → concatenate ⟨2, ![M, 336]⟩ (1 : Fin 2) [⟨⟨2, ![M, 256]⟩, S1⟩, ⟨⟨2, ![M, 64]⟩, S2⟩, ⟨⟨2, ![M, 16]⟩, S3⟩] hc (ix2 p k) = S3 (ix2 p k')) := by
  refine ⟨fun k' hk => ?_, fun k' hk => ?_, fun k' hk => ?_⟩
  · refine concatenate_apply_piece (1 : Fin 2) _ hc (ix2 p k) 0 (by simp) _ S1 rfl rfl 0 rfl (ix2 p k') (fun b hb => ?_) ?_
    · match b with
      | ⟨0, _⟩ => rfl
      | ⟨1, _⟩ => exact absurd rfl hb
    · show 0 + k'.val = k.val
      omega
  · refine concatenate_apply_piece (1 : Fin 2) _ hc (ix2 p k) 1 (by simp) _ S2 rfl rfl 256 rfl (ix2 p k') (fun b hb => ?_) ?_
    · match b with
      | ⟨0, _⟩ => rfl
      | ⟨1, _⟩ => exact absurd rfl hb
    · show 256 + k'.val = k.val
      omega
  · refine concatenate_apply_piece (1 : Fin 2) _ hc (ix2 p k) 2 (by simp) _ S3 rfl rfl 320 rfl (ix2 p k') (fun b hb => ?_) ?_
    · match b with
      | ⟨0, _⟩ => rfl
      | ⟨1, _⟩ => exact absurd rfl hb
    · show 320 + k'.val = k.val
      omega

theorem pad_cols_apply {M : ℕ} (X : (⟨2, ![M, 336]⟩ : Shape).Idx → EReal)
    (hp : (⟨2, ![M, 336]⟩ : Shape).Pads (![0, 0] : Fin 2 → Nat) ![0, 48] ![0, 0] ⟨2, ![M, 384]⟩)
    (v : (⟨0, ![]⟩ : Shape).Idx → EReal) (hu : 0 < (⟨0, ![]⟩ : Shape).numel) (hv : ∀ j, v j = 0) (p : Fin M) (k : Fin 384) :
    (∀ k' : Fin 336, k.val = k'.val → pad ⟨2, ![M, 384]⟩ ![0, 0] ![0, 48] ![0, 0] X v hp hu (ix2 p k) = X (ix2 p k'))
    ∧ (336 ≤ k.val → pad ⟨2, ![M, 384]⟩ ![0, 0] ![0, 48] ![0, 0] X v hp hu (ix2 p k) = 0) := by
  refine ⟨fun k' hk => ?_, fun hk => ?_⟩
  · refine pad_apply_of_inside _ _ _ X v hp hu (ix2 p k) (ix2 p k') fun a => ?_
    match a with
    | ⟨0, _⟩ => show p.val = 0 + p.val * (0 + 1); omega
    | ⟨1, _⟩ => show k.val = 0 + k'.val * (0 + 1); omega
  · rw [pad_apply_of_not_inside _ _ _ X v hp hu (ix2 p k) (1 : Fin 2) (fun h => ?_), hv]
    have h3 : (k.val - 0) / (0 + 1) < 336 := h.2.2
    omega

theorem concat3_rows_apply {N : ℕ} (T1 : (⟨2, ![256, N]⟩ : Shape).Idx → EReal) (T2 : (⟨2, ![64, N]⟩ : Shape).Idx → EReal)
    (T3 : (⟨2, ![16, N]⟩ : Shape).Idx → EReal)
    (hc : Shape.Concatenates (([⟨⟨2, ![256, N]⟩, T1⟩, ⟨⟨2, ![64, N]⟩, T2⟩, ⟨⟨2, ![16, N]⟩, T3⟩] : List ((s : Shape) × (s.Idx → EReal))).map (·.1)) ⟨2, ![336, N]⟩ (0 : Fin 2))
    (q : Fin N) (k : Fin 336) :
    (∀ k' : Fin 256, k.val = k'.val → concatenate ⟨2, ![336, N]⟩ (0 : Fin 2) [⟨⟨2, ![256, N]⟩, T1⟩, ⟨⟨2, ![64, N]⟩, T2⟩, ⟨⟨2, ![16, N]⟩, T3⟩] hc (ix2 k q) = T1 (ix2 k' q))
    ∧ (∀ k' : Fin 64, k.val = 256 + k'.val → concatenate ⟨2, ![336, N]⟩ (0 : Fin 2) [⟨⟨2, ![256, N]⟩, T1⟩, ⟨⟨2, ![64, N]⟩, T2⟩, ⟨⟨2, ![16, N]⟩, T3⟩] hc (ix2 k q) = T2 (ix2 k' q))
    ∧ (∀ k' : Fin 16, k.val = 320 + k'.val → concatenate ⟨2, ![336, N]⟩ (0 : Fin 2) [⟨⟨2, ![256, N]⟩, T1⟩, ⟨⟨2, ![64, N]⟩, T2⟩, ⟨⟨2, ![16, N]⟩, T3⟩] hc (ix2 k q) = T3 (ix2 k' q)) := by
  refine ⟨fun k' hk => ?_, fun k' hk => ?_, fun k' hk => ?_⟩
  · refine concatenate_apply_piece (0 : Fin 2) _ hc (ix2 k q) 0 (by simp) _ T1 rfl rfl 0 rfl (ix2 k' q) (fun b hb => ?_) ?_
    · match b with
      | ⟨0, _⟩ => exact absurd rfl hb
      | ⟨1, _⟩ => rfl
    · show 0 + k'.val = k.val
      omega
  · refine concatenate_apply_piece (0 : Fin 2) _ hc (ix2 k q) 1 (by simp) _ T2 rfl rfl 256 rfl (ix2 k' q) (fun b hb => ?_) ?_
    · match b with
      | ⟨0, _⟩ => exact absurd rfl hb
      | ⟨1, _⟩ => rfl
    · show 256 + k'.val = k.val
      omega
  · refine concatenate_apply_piece (0 : Fin 2) _ hc (ix2 k q) 2 (by simp) _ T3 rfl rfl 320 rfl (ix2 k' q) (fun b hb => ?_) ?_
    · match b with
      | ⟨0, _⟩ => exact absurd rfl hb
      | ⟨1, _⟩ => rfl
    · show 320 + k'.val = k.val
      omega

theorem pad_rows_apply {N : ℕ} (X : (⟨2, ![336, N]⟩ : Shape).Idx → EReal)
    (hp : (⟨2, ![336, N]⟩ : Shape).Pads (![0, 0] : Fin 2 → Nat) ![48, 0] ![0, 0] ⟨2, ![384, N]⟩)
    (v : (⟨0, ![]⟩ : Shape).Idx → EReal) (hu : 0 < (⟨0, ![]⟩ : Shape).numel) (hv : ∀ j, v j = 0) (q : Fin N) (k : Fin 384) :
    (∀ k' : Fin 336, k.val = k'.val → pad ⟨2, ![384, N]⟩ ![0, 0] ![48, 0] ![0, 0] X v hp hu (ix2 k q) = X (ix2 k' q))
    ∧ (336 ≤ k.val → pad ⟨2, ![384, N]⟩ ![0, 0] ![48, 0] ![0, 0] X v hp hu (ix2 k q) = 0) := by
  refine ⟨fun k' hk => ?_, fun hk => ?_⟩
  · refine pad_apply_of_inside _ _ _ X v hp hu (ix2 k q) (ix2 k' q) fun a => ?_
    match a with
    | ⟨0, _⟩ => show k.val = 0 + k'.val * (0 + 1); omega
    | ⟨1, _⟩ => show q.val = 0 + q.val * (0 + 1); omega
  · rw [pad_apply_of_not_inside _ _ _ X v hp hu (ix2 k q) (0 : Fin 2) (fun h => ?_), hv]
    have h3 : (k.val - 0) / (0 + 1) < 336 := h.2.2
    omega

/-- The host's zero padding of a concatenation of three column groups is their packing. -/
theorem pad_concat_cols {M : ℕ} (S1 : (⟨2, ![M, 256]⟩ : Shape).Idx → EReal) (S2 : (⟨2, ![M, 64]⟩ : Shape).Idx → EReal)
    (S3 : (⟨2, ![M, 16]⟩ : Shape).Idx → EReal)
    (hc : Shape.Concatenates (([⟨⟨2, ![M, 256]⟩, S1⟩, ⟨⟨2, ![M, 64]⟩, S2⟩, ⟨⟨2, ![M, 16]⟩, S3⟩] : List ((s : Shape) × (s.Idx → EReal))).map (·.1)) ⟨2, ![M, 336]⟩ (1 : Fin 2))
    (hp : (⟨2, ![M, 336]⟩ : Shape).Pads (![0, 0] : Fin 2 → Nat) ![0, 48] ![0, 0] ⟨2, ![M, 384]⟩)
    (v : (⟨0, ![]⟩ : Shape).Idx → EReal) (hu : 0 < (⟨0, ![]⟩ : Shape).numel) (hv : ∀ j, v j = 0) :
    IsColPack (pad ⟨2, ![M, 384]⟩ ![0, 0] ![0, 48] ![0, 0]
      (concatenate ⟨2, ![M, 336]⟩ (1 : Fin 2) [⟨⟨2, ![M, 256]⟩, S1⟩, ⟨⟨2, ![M, 64]⟩, S2⟩, ⟨⟨2, ![M, 16]⟩, S3⟩] hc) v hp hu) S1 S2 S3 := by
  refine ⟨fun p k k' hk => ?_, fun p k k' hk => ?_, fun p k k' hk => ?_, fun p k hk => ?_⟩
  · have hk' : k.val < 336 := by have := k'.isLt; omega
    rw [(pad_cols_apply _ hp v hu hv p k).1 ⟨k.val, hk'⟩ rfl]
    exact (concat3_cols_apply S1 S2 S3 hc p ⟨k.val, hk'⟩).1 k' hk
  · have hk' : k.val < 336 := by have := k'.isLt; omega
    rw [(pad_cols_apply _ hp v hu hv p k).1 ⟨k.val, hk'⟩ rfl]
    exact (concat3_cols_apply S1 S2 S3 hc p ⟨k.val, hk'⟩).2.1 k' hk
  · have hk' : k.val < 336 := by have := k'.isLt; omega
    rw [(pad_cols_apply _ hp v hu hv p k).1 ⟨k.val, hk'⟩ rfl]
    exact (concat3_cols_apply S1 S2 S3 hc p ⟨k.val, hk'⟩).2.2 k' hk
  · exact (pad_cols_apply _ hp v hu hv p k).2 hk

/-- The host's zero padding of a concatenation of three row groups is their packing. -/
theorem pad_concat_rows {N : ℕ} (T1 : (⟨2, ![256, N]⟩ : Shape).Idx → EReal) (T2 : (⟨2, ![64, N]⟩ : Shape).Idx → EReal)
    (T3 : (⟨2, ![16, N]⟩ : Shape).Idx → EReal)
    (hc : Shape.Concatenates (([⟨⟨2, ![256, N]⟩, T1⟩, ⟨⟨2, ![64, N]⟩, T2⟩, ⟨⟨2, ![16, N]⟩, T3⟩] : List ((s : Shape) × (s.Idx → EReal))).map (·.1)) ⟨2, ![336, N]⟩ (0 : Fin 2))
    (hp : (⟨2, ![336, N]⟩ : Shape).Pads (![0, 0] : Fin 2 → Nat) ![48, 0] ![0, 0] ⟨2, ![384, N]⟩)
    (v : (⟨0, ![]⟩ : Shape).Idx → EReal) (hu : 0 < (⟨0, ![]⟩ : Shape).numel) (hv : ∀ j, v j = 0) :
    IsRowPack (pad ⟨2, ![384, N]⟩ ![0, 0] ![48, 0] ![0, 0]
      (concatenate ⟨2, ![336, N]⟩ (0 : Fin 2) [⟨⟨2, ![256, N]⟩, T1⟩, ⟨⟨2, ![64, N]⟩, T2⟩, ⟨⟨2, ![16, N]⟩, T3⟩] hc) v hp hu) T1 T2 T3 := by
  refine ⟨fun q k k' hk => ?_, fun q k k' hk => ?_, fun q k k' hk => ?_, fun q k hk => ?_⟩
  · have hk' : k.val < 336 := by have := k'.isLt; omega
    rw [(pad_rows_apply _ hp v hu hv q k).1 ⟨k.val, hk'⟩ rfl]
    exact (concat3_rows_apply T1 T2 T3 hc q ⟨k.val, hk'⟩).1 k' hk
  · have hk' : k.val < 336 := by have := k'.isLt; omega
    rw [(pad_rows_apply _ hp v hu hv q k).1 ⟨k.val, hk'⟩ rfl]
    exact (concat3_rows_apply T1 T2 T3 hc q ⟨k.val, hk'⟩).2.1 k' hk
  · have hk' : k.val < 336 := by have := k'.isLt; omega
    rw [(pad_rows_apply _ hp v hu hv q k).1 ⟨k.val, hk'⟩ rfl]
    exact (concat3_rows_apply T1 T2 T3 hc q ⟨k.val, hk'⟩).2.2 k' hk
  · exact (pad_rows_apply _ hp v hu hv q k).2 hk

end Cert.PackLib

end
-- ==== Proof.KSpec.lean ====
/-
  The region's output as the four buckets' masked projections summed: the first operand array is the first bucket's
  rows kept under its mask, the first projection operand its projection transposed, the packed operand the three narrow
  buckets' masked rows side by side with a zero tail, the packed projection operand their transposed projections one
  under another with a zero tail. A masked operand gives the masked product, the packed pair gives the sum of the three
  products, and the sum is reassociated.
-/
import proofs.«130990_j59871844107157_2_alg».proof.Proof.KVal
import proofs.«130990_j59871844107157_2_alg».proof.Proof.Entry
import proofs.«130990_j59871844107157_2_alg».proof.Proof.LibPack

set_option maxRecDepth 16384

noncomputable section

namespace Cert.KernelIdeal.KSpec

open Idealize.ShloMosaic Idealize.ShloMosaic.TcCoe Idealize.SL.Sem Idealize.ShloMosaic.ValueIdx
open Cert.KernelIdeal Cert.KernelIdeal.Gen Cert.KernelIdeal.Fr Cert.KernelIdeal.KVal Cert.KernelIdeal.Entry
open Cert.Stages Cert.PackLib Cert.DenseLib Cert.LayoutLib

variable (m : (ℓ : Loc nD τ sig) → Buf (Elt Ideal) ℓ)

theorem zero_splat (j : S_.Idx) : constant (F := Ideal) S_ .f32 0x00000000#32 j = 0 := Ideal.ofBits_zero_f32
theorem zero_conv (j : S_.Idx) : sitofp (F := Ideal) .bf16 (constantI S_ 32 0#32) j = 0 := Idealize.ShloMosaic.sitofp_zero

/-- Bucket 0's selected and cast rows are its rows kept under its mask. -/
theorem kept0 (c : Dev nD) : @Eq (S16384x1024.Idx → EReal) (truncf (F := Ideal) .bf16 (select (broadcastInDim S16384x1024 ![0, 1] Facts₀.bcast_S16384x1_S16384x1024_0_1 (maskCol hyp 0#32 20000#32 (m ((c.tc : Thread nD τ).loc main_arg0)))) (rows0 m c) (broadcastInDim S16384x1024 ![] Facts₀.bcast_S_S16384x1024 (constant (F := Ideal) S_ .f32 0x00000000#32))) Facts₀.bitsLt_bf16_f32)
    (keep (mask hyp 0#32 20000#32 (m ((c.tc : Thread nD τ).loc main_arg0))) (rows0 m c)) := by
  unfold maskCol
  exact select_eq_keep _ _ _ zero_splat _ _ _

/-- Bucket 1's selected and cast rows are its rows kept under its mask. -/
theorem kept1 (c : Dev nD) : @Eq (S16384x256.Idx → EReal) (truncf (F := Ideal) .bf16 (select (broadcastInDim S16384x256 ![0, 1] Facts₀.bcast_S16384x1_S16384x256_0_1 (maskCol hyp 20000#32 40000#32 (m ((c.tc : Thread nD τ).loc main_arg0)))) (rows1 m c) (broadcastInDim S16384x256 ![] Facts₀.bcast_S_S16384x256 (constant (F := Ideal) S_ .f32 0x00000000#32))) Facts₀.bitsLt_bf16_f32)
    (keep (mask hyp 20000#32 40000#32 (m ((c.tc : Thread nD τ).loc main_arg0))) (rows1 m c)) := by
  unfold maskCol
  exact select_eq_keep _ _ _ zero_splat _ _ _

/-- Bucket 2's selected and cast rows are its rows kept under its mask. -/
theorem kept2 (c : Dev nD) : @Eq (S16384x64.Idx → EReal) (truncf (F := Ideal) .bf16 (select (broadcastInDim S16384x64 ![0, 1] Facts₀.bcast_S16384x1_S16384x64_0_1 (maskCol hyp 40000#32 200000#32 (m ((c.tc : Thread nD τ).loc main_arg0)))) (rows2 m c) (broadcastInDim S16384x64 ![] Facts₀.bcast_S_S16384x64 (constant (F := Ideal) S_ .f32 0x00000000#32))) Facts₀.bitsLt_bf16_f32)
    (keep (mask hyp 40000#32 200000#32 (m ((c.tc : Thread nD τ).loc main_arg0))) (rows2 m c)) := by
  unfold maskCol
  exact select_eq_keep _ _ _ zero_splat _ _ _

/-- Bucket 3's selected and cast rows are its rows kept under its mask. -/
theorem kept3 (c : Dev nD) : @Eq (S16384x16.Idx → EReal) (truncf (F := Ideal) .bf16 (select (broadcastInDim S16384x16 ![0, 1] Facts₀.bcast_S16384x1_S16384x16_0_1 (maskCol hyp 200000#32 267735#32 (m ((c.tc : Thread nD τ).loc main_arg0)))) (rows3 m c) (broadcastInDim S16384x16 ![] Facts₀.bcast_S_S16384x16 (constant (F := Ideal) S_ .f32 0x00000000#32))) Facts₀.bitsLt_bf16_f32)
    (keep (mask hyp 200000#32 267735#32 (m ((c.tc : Thread nD τ).loc main_arg0))) (rows3 m c)) := by
  unfold maskCol
  exact select_eq_keep _ _ _ zero_splat _ _ _

theorem op0 (c : Dev nD) : @Eq (S16384x1024.Idx → EReal) (V m c main_v18) (keep (mask hyp 0#32 20000#32 (m ((c.tc : Thread nD τ).loc main_arg0))) (rows0 m c)) :=
  (entry_v18 m c).trans (kept0 m c)

theorem pj0 (c : Dev nD) : @Eq (S1024x1024.Idx → EReal) (V m c main_v20) (tr (m ((c.tc : Thread nD τ).loc main_arg5))) :=
  (entry_v20 m c).trans (transpose_eq_tr _ _)

theorem op123 (c : Dev nD) : IsColPack (V m c main_v83) (keep (mask hyp 20000#32 40000#32 (m ((c.tc : Thread nD τ).loc main_arg0))) (rows1 m c))
    (keep (mask hyp 40000#32 200000#32 (m ((c.tc : Thread nD τ).loc main_arg0))) (rows2 m c)) (keep (mask hyp 200000#32 267735#32 (m ((c.tc : Thread nD τ).loc main_arg0))) (rows3 m c)) := by
  rw [entry_v83 m c, kept1 m c, kept2 m c, kept3 m c]
  exact pad_concat_cols _ _ _ _ _ _ _ zero_conv

theorem pj123 (c : Dev nD) : IsRowPack (V m c main_v84) (tr (m ((c.tc : Thread nD τ).loc main_arg6))) (tr (m ((c.tc : Thread nD τ).loc main_arg7))) (tr (m ((c.tc : Thread nD τ).loc main_arg8))) := by
  rw [entry_v84 m c]
  rw [show transpose S256x1024 [1, 0] (truncf (F := Ideal) .bf16 (m ((c.tc : Thread nD τ).loc main_arg6)) Facts₀.bitsLt_bf16_f32) Facts₀.transposes_S1024x256_S256x1024_1_0 = tr (m ((c.tc : Thread nD τ).loc main_arg6)) from transpose_eq_tr _ _,
    show transpose S64x1024 [1, 0] (truncf (F := Ideal) .bf16 (m ((c.tc : Thread nD τ).loc main_arg7)) Facts₀.bitsLt_bf16_f32) Facts₀.transposes_S1024x64_S64x1024_1_0 = tr (m ((c.tc : Thread nD τ).loc main_arg7)) from transpose_eq_tr _ _,
    show transpose S16x1024 [1, 0] (truncf (F := Ideal) .bf16 (m ((c.tc : Thread nD τ).loc main_arg8)) Facts₀.bitsLt_bf16_f32) Facts₀.transposes_S1024x16_S16x1024_1_0 = tr (m ((c.tc : Thread nD τ).loc main_arg8)) from transpose_eq_tr _ _]
  exact pad_concat_rows _ _ _ _ _ _ _ zero_conv

/-- The region's output array is the four buckets' masked projections summed and scaled. -/
theorem G_eq (c : Dev nD) : G (V m c main_v18) (V m c main_v83) (V m c main_v20) (V m c main_v84)
    = embed (mask hyp 0#32 20000#32 (m ((c.tc : Thread nD τ).loc main_arg0))) (mask hyp 20000#32 40000#32 (m ((c.tc : Thread nD τ).loc main_arg0))) (mask hyp 40000#32 200000#32 (m ((c.tc : Thread nD τ).loc main_arg0))) (mask hyp 200000#32 267735#32 (m ((c.tc : Thread nD τ).loc main_arg0)))
        (rows0 m c) (rows1 m c) (rows2 m c) (rows3 m c) (m ((c.tc : Thread nD τ).loc main_arg5)) (m ((c.tc : Thread nD τ).loc main_arg6)) (m ((c.tc : Thread nD τ).loc main_arg7)) (m ((c.tc : Thread nD τ).loc main_arg8)) c32 := by
  rw [← fused_eq_embed _ _ _ _ _ _ _ _ _ _ _ _ _ (V m c main_v83) (V m c main_v84) (op123 m c) (pj123 m c)]
  unfold G
  rw [op0 m c, pj0 m c]

end Cert.KernelIdeal.KSpec

end
-- ==== Proof.RefRun.lean ====
/-
  The reference program run: its host lines, in order, as two stretches; every weakly fair execution terminates with
  each buffer at the lines' fold over the launch contents. The program's text is the two stretches run one after the
  other once its calls are opened and sequencing is reassociated.
-/
import proofs.«130990_j59871844107157_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first stretch of the program's host lines, in order (a called function's lines stand at its call). -/
abbrev opsA : List (HloOp τ sig (Elt F)) :=
  [ reshape main_arg0 main_v0 rfl shapeCasts_S4x4096_S16384,
    nullary main_cst (constant S_ .f32 0x00000000#32),
    unary main_cst main_v1 (broadcastInDim S16384x1024 ![] bcast_S_S16384x1024 : (⟨S_, .f32⟩ : BufTy).Contents (Elt F) → (⟨S16384x1024, .f32⟩ : BufTy).Contents (Elt F)),
    nullary main_c (constantI S_ 32 0#32),
    unary main_c main_v2 (broadcastInDim S16384 ![] bcast_S_S16384 : (⟨S_, .i32⟩ : BufTy).Contents (Elt F) → (⟨S16384, .i32⟩ : BufTy).Contents (Elt F)),
    binary main_v0 main_v2 main_v3 (cmpi .sge : (⟨S16384, .i32⟩ : BufTy).Contents (Elt F) → (⟨S16384, .i32⟩ : BufTy).Contents (Elt F) → (⟨S16384, .i1⟩ : BufTy).Contents (Elt F)),
    nullary main_c_0 (constantI S_ 32 20000#32),
    unary main_c_0 main_v4 (broadcastInDim S16384 ![] bcast_S_S16384 : (⟨S_, .i32⟩ : BufTy).Contents (Elt F) → (⟨S16384, .i32⟩ : BufTy).Contents (Elt F)),
    binary main_v0 main_v4 main_v5 (cmpi .slt : (⟨S16384, .i32⟩ : BufTy).Contents (Elt F) → (⟨S16384, .i32⟩ : BufTy).Contents (Elt F) → (⟨S16384, .i1⟩ : BufTy).Contents (Elt F)),
    binary main_v3 main_v5 main_v6 (andi : (⟨S16384, .i1⟩ : BufTy).Contents (Elt F) → (⟨S16384, .i1⟩ : BufTy).Contents (Elt F) → (⟨S16384, .i1⟩ : BufTy).Contents (Elt F)),
    nullary main_c_1 (constantI S_ 32 0#32),
    unary main_c_1 main_v7 (broadcastInDim S16384 ![] bcast_S_S16384 : (⟨S_, .i32⟩ : BufTy).Contents (Elt F) → (⟨S16384, .i32⟩ : BufTy).Contents (Elt F)),
    binary main_v0 main_v7 main_v8 (subi : (⟨S16384, .i32⟩ : BufTy).Contents (Elt F) → (⟨S16384, .i32⟩ : BufTy).Contents (Elt F) → (⟨S16384, .i32⟩ : BufTy).Contents (Elt F)),
    nullary main_c_2 (constantI S_ 32 0#32),
    nullary main_c_3 (constantI S_ 32 19999#32),
    TRef.unary (TRef.of (T := ⟨S_, .i32⟩) main_c_2) (TRef.of (T := ⟨S_, .i32⟩) main_call0_v0) id,
    TRef.unary (TRef.of (T := ⟨S_, .i32⟩) main_call0_v0) (TRef.of (T := ⟨S16384, .i32⟩) main_call0_v1) (broadcastInDim S16384 ![] bcast_S_S16384),
    TRef.binary (TRef.of (T := ⟨S16384, .i32⟩) main_call0_v1) (TRef.of (T := ⟨S16384, .i32⟩) main_v8) (TRef.of (T := ⟨S16384, .i32⟩) main_call0_v2) maxsi,
    TRef.unary (TRef.of (T := ⟨S_, .i32⟩) main_c_3) (TRef.of (T := ⟨S_, .i32⟩) main_call0_v3) id,
    TRef.unary (TRef.of (T := ⟨S_, .i32⟩) main_call0_v3) (TRef.of (T := ⟨S16384, .i32⟩) main_call0_v4) (broadcastInDim S16384 ![] bcast_S_S16384),
    TRef.binary (TRef.of (T := ⟨S16384, .i32⟩) main_call0_v4) (TRef.of (T := ⟨S16384, .i32⟩) main_call0_v2) (TRef.of (T := ⟨S16384, .i32⟩) main_v9) minsi,
    nullary main_c_4 (constantI S_ 32 0#32),
    unary main_c_4 main_v10 (broadcastInDim S16384 ![] bcast_S_S16384 : (⟨S_, .i32⟩ : BufTy).Contents (Elt F) → (⟨S16384, .i32⟩ : BufTy).Contents (Elt F)),
    binary main_v9 main_v10 main_v11 (cmpi .slt : (⟨S16384, .i32⟩ : BufTy).Contents (Elt F) → (⟨S16384, .i32⟩ : BufTy).Contents (Elt F) → (⟨S16384, .i1⟩ : BufTy).Contents (Elt F)),
    nullary main_c_5 (constantI S_ 32 20000#32),
    unary main_c_5 main_v12 (broadcastInDim S16384 ![] bcast_S_S16384 : (⟨S_, .i32⟩ : BufTy).Contents (Elt F) → (⟨S16384, .i32⟩ : BufTy).Contents (Elt F)),
    binary main_v9 main_v12 main_v13 (addi : (⟨S16384, .i32⟩ : BufTy).Contents (Elt F) → (⟨S16384, .i32⟩ : BufTy).Contents (Elt F) → (⟨S16384, .i32⟩ : BufTy).Contents (Elt F)),
    ternary main_v11 main_v13 main_v9 main_v14 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v14 main_v15 (broadcastInDim S16384x1 ![0] bcast_S16384_S16384x1_0 : (⟨S16384, .i32⟩ : BufTy).Contents (Elt F) → (⟨S16384x1, .i32⟩ : BufTy).Contents (Elt F)),
    binary main_arg1 main_v15 main_v16 ((fun x i => Host.gather gather_S20000x1024_S16384x1_S16384x1024_1_0_n_n_0_1_11024 x i) : (⟨S20000x1024, .f32⟩ : BufTy).Contents (Elt F) → (⟨S16384x1, .i32⟩ : BufTy).Contents (Elt F) → (⟨S16384x1024, .f32⟩ : BufTy).Contents (Elt F)),
    binary main_v16 main_arg5 main_v17 ((fun l r => Host.dotGeneral dot_S16384x1024_S1024x1024_S16384x1024_1_1_0_0_n_n none l r) : (⟨S16384x1024, .f32⟩ : BufTy).Contents (Elt F) → (⟨S1024x1024, .f32⟩ : BufTy).Contents (Elt F) → (⟨S16384x1024, .f32⟩ : BufTy).Contents (Elt F)),
    unary main_v6 main_v18 (broadcastInDim S16384x1 ![0] bcast_S16384_S16384x1_0 : (⟨S16384, .i1⟩ : BufTy).Contents (Elt F) → (⟨S16384x1, .i1⟩ : BufTy).Contents (Elt F)),
    nullary main_cst_6 (constant S_ .f32 0x00000000#32),
    TRef.unary (TRef.of (T := ⟨S_, .f32⟩) main_cst_6) (TRef.of (T := ⟨S_, .f32⟩) main_call1_v0) id,
    TRef.unary (TRef.of (T := ⟨S16384x1, .i1⟩) main_v18) (TRef.of (T := ⟨S16384x1024, .i1⟩) main_call1_v1) (broadcastInDim S16384x1024 ![0, 1] bcast_S16384x1_S16384x1024_0_1),
    TRef.unary (TRef.of (T := ⟨S_, .f32⟩) main_call1_v0) (TRef.of (T := ⟨S16384x1024, .f32⟩) main_call1_v2) (broadcastInDim S16384x1024 ![] bcast_S_S16384x1024),
    TRef.ternary (TRef.of (T := ⟨S16384x1024, .i1⟩) main_call1_v1) (TRef.of (T := ⟨S16384x1024, .f32⟩) main_v17) (TRef.of (T := ⟨S16384x1024, .f32⟩) main_call1_v2) (TRef.of (T := ⟨S16384x1024, .f32⟩) main_v19) select,
    binary main_v1 main_v19 main_v20 (addf : (⟨S16384x1024, .f32⟩ : BufTy).Contents (Elt F) → (⟨S16384x1024, .f32⟩ : BufTy).Contents (Elt F) → (⟨S16384x1024, .f32⟩ : BufTy).Contents (Elt F)),
    nullary main_c_7 (constantI S_ 32 20000#32),
    unary main_c_7 main_v21 (broadcastInDim S16384 ![] bcast_S_S16384 : (⟨S_, .i32⟩ : BufTy).Contents (Elt F) → (⟨S16384, .i32⟩ : BufTy).Contents (Elt F)),
    binary main_v0 main_v21 main_v22 (cmpi .sge : (⟨S16384, .i32⟩ : BufTy).Contents (Elt F) → (⟨S16384, .i32⟩ : BufTy).Contents (Elt F) → (⟨S16384, .i1⟩ : BufTy).Contents (Elt F)),
    nullary main_c_8 (constantI S_ 32 40000#32),
    unary main_c_8 main_v23 (broadcastInDim S16384 ![] bcast_S_S16384 : (⟨S_, .i32⟩ : BufTy).Contents (Elt F) → (⟨S16384, .i32⟩ : BufTy).Contents (Elt F)),
    binary main_v0 main_v23 main_v24 (cmpi .slt : (⟨S16384, .i32⟩ : BufTy).Contents (Elt F) → (⟨S16384, .i32⟩ : BufTy).Contents (Elt F) → (⟨S16384, .i1⟩ : BufTy).Contents (Elt F)),
    binary main_v22 main_v24 main_v25 (andi : (⟨S16384, .i1⟩ : BufTy).Contents (Elt F) → (⟨S16384, .i1⟩ : BufTy).Contents (Elt F) → (⟨S16384, .i1⟩ : BufTy).Contents (Elt F)),
    nullary main_c_9 (constantI S_ 32 20000#32),
    unary main_c_9 main_v26 (broadcastInDim S16384 ![] bcast_S_S16384 : (⟨S_, .i32⟩ : BufTy).Contents (Elt F) → (⟨S16384, .i32⟩ : BufTy).Contents (Elt F)),
    binary main_v0 main_v26 main_v27 (subi : (⟨S16384, .i32⟩ : BufTy).Contents (Elt F) → (⟨S16384, .i32⟩ : BufTy).Contents (Elt F) → (⟨S16384, .i32⟩ : BufTy).Contents (Elt F)),
    nullary main_c_10 (constantI S_ 32 0#32),
    nullary main_c_11 (constantI S_ 32 19999#32),
    TRef.unary (TRef.of (T := ⟨S_, .i32⟩) main_c_10) (TRef.of (T := ⟨S_, .i32⟩) main_call2_v0) id,
    TRef.unary (TRef.of (T := ⟨S_, .i32⟩) main_call2_v0) (TRef.of (T := ⟨S16384, .i32⟩) main_call2_v1) (broadcastInDim S16384 ![] bcast_S_S16384),
    TRef.binary (TRef.of (T := ⟨S16384, .i32⟩) main_call2_v1) (TRef.of (T := ⟨S16384, .i32⟩) main_v27) (TRef.of (T := ⟨S16384, .i32⟩) main_call2_v2) maxsi,
    TRef.unary (TRef.of (T := ⟨S_, .i32⟩) main_c_11) (TRef.of (T := ⟨S_, .i32⟩) main_call2_v3) id,
    TRef.unary (TRef.of (T := ⟨S_, .i32⟩) main_call2_v3) (TRef.of (T := ⟨S16384, .i32⟩) main_call2_v4) (broadcastInDim S16384 ![] bcast_S_S16384),
    TRef.binary (TRef.of (T := ⟨S16384, .i32⟩) main_call2_v4) (TRef.of (T := ⟨S16384, .i32⟩) main_call2_v2) (TRef.of (T := ⟨S16384, .i32⟩) main_v28) minsi,
    nullary main_c_12 (constantI S_ 32 0#32),
    unary main_c_12 main_v29 (broadcastInDim S16384 ![] bcast_S_S16384 : (⟨S_, .i32⟩ : BufTy).Contents (Elt F) → (⟨S16384, .i32⟩ : BufTy).Contents (Elt F)),
    binary main_v28 main_v29 main_v30 (cmpi .slt : (⟨S16384, .i32⟩ : BufTy).Contents (Elt F) → (⟨S16384, .i32⟩ : BufTy).Contents (Elt F) → (⟨S16384, .i1⟩ : BufTy).Contents (Elt F)),
    nullary main_c_13 (constantI S_ 32 20000#32),
    unary main_c_13 main_v31 (broadcastInDim S16384 ![] bcast_S_S16384 : (⟨S_, .i32⟩ : BufTy).Contents (Elt F) → (⟨S16384, .i32⟩ : BufTy).Contents (Elt F)),
    binary main_v28 main_v31 main_v32 (addi : (⟨S16384, .i32⟩ : BufTy).Contents (Elt F) → (⟨S16384, .i32⟩ : BufTy).Contents (Elt F) → (⟨S16384, .i32⟩ : BufTy).Contents (Elt F)),
    ternary main_v30 main_v32 main_v28 main_v33 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v33 main_v34 (broadcastInDim S16384x1 ![0] bcast_S16384_S16384x1_0 : (⟨S16384, .i32⟩ : BufTy).Contents (Elt F) → (⟨S16384x1, .i32⟩ : BufTy).Contents (Elt F)),
    binary main_arg2 main_v34 main_v35 ((fun x i => Host.gather gather_S20000x256_S16384x1_S16384x256_1_0_n_n_0_1_1256 x i) : (⟨S20000x256, .f32⟩ : BufTy).Contents (Elt F) → (⟨S16384x1, .i32⟩ : BufTy).Contents (Elt F) → (⟨S16384x256, .f32⟩ : BufTy).Contents (Elt F)),
    binary main_v35 main_arg6 main_v36 ((fun l r => Host.dotGeneral dot_S16384x256_S1024x256_S16384x1024_1_1_0_0_n_n none l r) : (⟨S16384x256, .f32⟩ : BufTy).Contents (Elt F) → (⟨S1024x256, .f32⟩ : BufTy).Contents (Elt F) → (⟨S16384x1024, .f32⟩ : BufTy).Contents (Elt F)),
    unary main_v25 main_v37 (broadcastInDim S16384x1 ![0] bcast_S16384_S16384x1_0 : (⟨S16384, .i1⟩ : BufTy).Contents (Elt F) → (⟨S16384x1, .i1⟩ : BufTy).Contents (Elt F)),
    nullary main_cst_14 (constant S_ .f32 0x00000000#32),
    TRef.unary (TRef.of (T := ⟨S_, .f32⟩) main_cst_14) (TRef.of (T := ⟨S_, .f32⟩) main_call3_v0) id,
    TRef.unary (TRef.of (T := ⟨S16384x1, .i1⟩) main_v37) (TRef.of (T := ⟨S16384x1024, .i1⟩) main_call3_v1) (broadcastInDim S16384x1024 ![0, 1] bcast_S16384x1_S16384x1024_0_1),
    TRef.unary (TRef.of (T := ⟨S_, .f32⟩) main_call3_v0) (TRef.of (T := ⟨S16384x1024, .f32⟩) main_call3_v2) (broadcastInDim S16384x1024 ![] bcast_S_S16384x1024),
    TRef.ternary (TRef.of (T := ⟨S16384x1024, .i1⟩) main_call3_v1) (TRef.of (T := ⟨S16384x1024, .f32⟩) main_v36) (TRef.of (T := ⟨S16384x1024, .f32⟩) main_call3_v2) (TRef.of (T := ⟨S16384x1024, .f32⟩) main_v38) select,
    binary main_v20 main_v38 main_v39 (addf : (⟨S16384x1024, .f32⟩ : BufTy).Contents (Elt F) → (⟨S16384x1024, .f32⟩ : BufTy).Contents (Elt F) → (⟨S16384x1024, .f32⟩ : BufTy).Contents (Elt F)),
    nullary main_c_15 (constantI S_ 32 40000#32),
    unary main_c_15 main_v40 (broadcastInDim S16384 ![] bcast_S_S16384 : (⟨S_, .i32⟩ : BufTy).Contents (Elt F) → (⟨S16384, .i32⟩ : BufTy).Contents (Elt F)),
    binary main_v0 main_v40 main_v41 (cmpi .sge : (⟨S16384, .i32⟩ : BufTy).Contents (Elt F) → (⟨S16384, .i32⟩ : BufTy).Contents (Elt F) → (⟨S16384, .i1⟩ : BufTy).Contents (Elt F)) ]

/-- The second stretch. -/
abbrev opsB : List (HloOp τ sig (Elt F)) :=
  [ nullary main_c_16 (constantI S_ 32 200000#32),
    unary main_c_16 main_v42 (broadcastInDim S16384 ![] bcast_S_S16384 : (⟨S_, .i32⟩ : BufTy).Contents (Elt F) → (⟨S16384, .i32⟩ : BufTy).Contents (Elt F)),
    binary main_v0 main_v42 main_v43 (cmpi .slt : (⟨S16384, .i32⟩ : BufTy).Contents (Elt F) → (⟨S16384, .i32⟩ : BufTy).Contents (Elt F) → (⟨S16384, .i1⟩ : BufTy).Contents (Elt F)),
    binary main_v41 main_v43 main_v44 (andi : (⟨S16384, .i1⟩ : BufTy).Contents (Elt F) → (⟨S16384, .i1⟩ : BufTy).Contents (Elt F) → (⟨S16384, .i1⟩ : BufTy).Contents (Elt F)),
    nullary main_c_17 (constantI S_ 32 40000#32),
    unary main_c_17 main_v45 (broadcastInDim S16384 ![] bcast_S_S16384 : (⟨S_, .i32⟩ : BufTy).Contents (Elt F) → (⟨S16384, .i32⟩ : BufTy).Contents (Elt F)),
    binary main_v0 main_v45 main_v46 (subi : (⟨S16384, .i32⟩ : BufTy).Contents (Elt F) → (⟨S16384, .i32⟩ : BufTy).Contents (Elt F) → (⟨S16384, .i32⟩ : BufTy).Contents (Elt F)),
    nullary main_c_18 (constantI S_ 32 0#32),
    nullary main_c_19 (constantI S_ 32 159999#32),
    TRef.unary (TRef.of (T := ⟨S_, .i32⟩) main_c_18) (TRef.of (T := ⟨S_, .i32⟩) main_call4_v0) id,
    TRef.unary (TRef.of (T := ⟨S_, .i32⟩) main_call4_v0) (TRef.of (T := ⟨S16384, .i32⟩) main_call4_v1) (broadcastInDim S16384 ![] bcast_S_S16384),
    TRef.binary (TRef.of (T := ⟨S16384, .i32⟩) main_call4_v1) (TRef.of (T := ⟨S16384, .i32⟩) main_v46) (TRef.of (T := ⟨S16384, .i32⟩) main_call4_v2) maxsi,
    TRef.unary (TRef.of (T := ⟨S_, .i32⟩) main_c_19) (TRef.of (T := ⟨S_, .i32⟩) main_call4_v3) id,
    TRef.unary (TRef.of (T := ⟨S_, .i32⟩) main_call4_v3) (TRef.of (T := ⟨S16384, .i32⟩) main_call4_v4) (broadcastInDim S16384 ![] bcast_S_S16384),
    TRef.binary (TRef.of (T := ⟨S16384, .i32⟩) main_call4_v4) (TRef.of (T := ⟨S16384, .i32⟩) main_call4_v2) (TRef.of (T := ⟨S16384, .i32⟩) main_v47) minsi,
    nullary main_c_20 (constantI S_ 32 0#32),
    unary main_c_20 main_v48 (broadcastInDim S16384 ![] bcast_S_S16384 : (⟨S_, .i32⟩ : BufTy).Contents (Elt F) → (⟨S16384, .i32⟩ : BufTy).Contents (Elt F)),
    binary main_v47 main_v48 main_v49 (cmpi .slt : (⟨S16384, .i32⟩ : BufTy).Contents (Elt F) → (⟨S16384, .i32⟩ : BufTy).Contents (Elt F) → (⟨S16384, .i1⟩ : BufTy).Contents (Elt F)),
    nullary main_c_21 (constantI S_ 32 160000#32),
    unary main_c_21 main_v50 (broadcastInDim S16384 ![] bcast_S_S16384 : (⟨S_, .i32⟩ : BufTy).Contents (Elt F) → (⟨S16384, .i32⟩ : BufTy).Contents (Elt F)),
    binary main_v47 main_v50 main_v51 (addi : (⟨S16384, .i32⟩ : BufTy).Contents (Elt F) → (⟨S16384, .i32⟩ : BufTy).Contents (Elt F) → (⟨S16384, .i32⟩ : BufTy).Contents (Elt F)),
    ternary main_v49 main_v51 main_v47 main_v52 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v52 main_v53 (broadcastInDim S16384x1 ![0] bcast_S16384_S16384x1_0 : (⟨S16384, .i32⟩ : BufTy).Contents (Elt F) → (⟨S16384x1, .i32⟩ : BufTy).Contents (Elt F)),
    binary main_arg3 main_v53 main_v54 ((fun x i => Host.gather gather_S160000x64_S16384x1_S16384x64_1_0_n_n_0_1_164 x i) : (⟨S160000x64, .f32⟩ : BufTy).Contents (Elt F) → (⟨S16384x1, .i32⟩ : BufTy).Contents (Elt F) → (⟨S16384x64, .f32⟩ : BufTy).Contents (Elt F)),
    binary main_v54 main_arg7 main_v55 ((fun l r => Host.dotGeneral dot_S16384x64_S1024x64_S16384x1024_1_1_0_0_n_n none l r) : (⟨S16384x64, .f32⟩ : BufTy).Contents (Elt F) → (⟨S1024x64, .f32⟩ : BufTy).Contents (Elt F) → (⟨S16384x1024, .f32⟩ : BufTy).Contents (Elt F)),
    unary main_v44 main_v56 (broadcastInDim S16384x1 ![0] bcast_S16384_S16384x1_0 : (⟨S16384, .i1⟩ : BufTy).Contents (Elt F) → (⟨S16384x1, .i1⟩ : BufTy).Contents (Elt F)),
    nullary main_cst_22 (constant S_ .f32 0x00000000#32),
    TRef.unary (TRef.of (T := ⟨S_, .f32⟩) main_cst_22) (TRef.of (T := ⟨S_, .f32⟩) main_call5_v0) id,
    TRef.unary (TRef.of (T := ⟨S16384x1, .i1⟩) main_v56) (TRef.of (T := ⟨S16384x1024, .i1⟩) main_call5_v1) (broadcastInDim S16384x1024 ![0, 1] bcast_S16384x1_S16384x1024_0_1),
    TRef.unary (TRef.of (T := ⟨S_, .f32⟩) main_call5_v0) (TRef.of (T := ⟨S16384x1024, .f32⟩) main_call5_v2) (broadcastInDim S16384x1024 ![] bcast_S_S16384x1024),
    TRef.ternary (TRef.of (T := ⟨S16384x1024, .i1⟩) main_call5_v1) (TRef.of (T := ⟨S16384x1024, .f32⟩) main_v55) (TRef.of (T := ⟨S16384x1024, .f32⟩) main_call5_v2) (TRef.of (T := ⟨S16384x1024, .f32⟩) main_v57) select,
    binary main_v39 main_v57 main_v58 (addf : (⟨S16384x1024, .f32⟩ : BufTy).Contents (Elt F) → (⟨S16384x1024, .f32⟩ : BufTy).Contents (Elt F) → (⟨S16384x1024, .f32⟩ : BufTy).Contents (Elt F)),
    nullary main_c_23 (constantI S_ 32 200000#32),
    unary main_c_23 main_v59 (broadcastInDim S16384 ![] bcast_S_S16384 : (⟨S_, .i32⟩ : BufTy).Contents (Elt F) → (⟨S16384, .i32⟩ : BufTy).Contents (Elt F)),
    binary main_v0 main_v59 main_v60 (cmpi .sge : (⟨S16384, .i32⟩ : BufTy).Contents (Elt F) → (⟨S16384, .i32⟩ : BufTy).Contents (Elt F) → (⟨S16384, .i1⟩ : BufTy).Contents (Elt F)),
    nullary main_c_24 (constantI S_ 32 267735#32),
    unary main_c_24 main_v61 (broadcastInDim S16384 ![] bcast_S_S16384 : (⟨S_, .i32⟩ : BufTy).Contents (Elt F) → (⟨S16384, .i32⟩ : BufTy).Contents (Elt F)),
    binary main_v0 main_v61 main_v62 (cmpi .slt : (⟨S16384, .i32⟩ : BufTy).Contents (Elt F) → (⟨S16384, .i32⟩ : BufTy).Contents (Elt F) → (⟨S16384, .i1⟩ : BufTy).Contents (Elt F)),
    binary main_v60 main_v62 main_v63 (andi : (⟨S16384, .i1⟩ : BufTy).Contents (Elt F) → (⟨S16384, .i1⟩ : BufTy).Contents (Elt F) → (⟨S16384, .i1⟩ : BufTy).Contents (Elt F)),
    nullary main_c_25 (constantI S_ 32 200000#32),
    unary main_c_25 main_v64 (broadcastInDim S16384 ![] bcast_S_S16384 : (⟨S_, .i32⟩ : BufTy).Contents (Elt F) → (⟨S16384, .i32⟩ : BufTy).Contents (Elt F)),
    binary main_v0 main_v64 main_v65 (subi : (⟨S16384, .i32⟩ : BufTy).Contents (Elt F) → (⟨S16384, .i32⟩ : BufTy).Contents (Elt F) → (⟨S16384, .i32⟩ : BufTy).Contents (Elt F)),
    nullary main_c_26 (constantI S_ 32 0#32),
    nullary main_c_27 (constantI S_ 32 67734#32),
    TRef.unary (TRef.of (T := ⟨S_, .i32⟩) main_c_26) (TRef.of (T := ⟨S_, .i32⟩) main_call6_v0) id,
    TRef.unary (TRef.of (T := ⟨S_, .i32⟩) main_call6_v0) (TRef.of (T := ⟨S16384, .i32⟩) main_call6_v1) (broadcastInDim S16384 ![] bcast_S_S16384),
    TRef.binary (TRef.of (T := ⟨S16384, .i32⟩) main_call6_v1) (TRef.of (T := ⟨S16384, .i32⟩) main_v65) (TRef.of (T := ⟨S16384, .i32⟩) main_call6_v2) maxsi,
    TRef.unary (TRef.of (T := ⟨S_, .i32⟩) main_c_27) (TRef.of (T := ⟨S_, .i32⟩) main_call6_v3) id,
    TRef.unary (TRef.of (T := ⟨S_, .i32⟩) main_call6_v3) (TRef.of (T := ⟨S16384, .i32⟩) main_call6_v4) (broadcastInDim S16384 ![] bcast_S_S16384),
    TRef.binary (TRef.of (T := ⟨S16384, .i32⟩) main_call6_v4) (TRef.of (T := ⟨S16384, .i32⟩) main_call6_v2) (TRef.of (T := ⟨S16384, .i32⟩) main_v66) minsi,
    nullary main_c_28 (constantI S_ 32 0#32),
    unary main_c_28 main_v67 (broadcastInDim S16384 ![] bcast_S_S16384 : (⟨S_, .i32⟩ : BufTy).Contents (Elt F) → (⟨S16384, .i32⟩ : BufTy).Contents (Elt F)),
    binary main_v66 main_v67 main_v68 (cmpi .slt : (⟨S16384, .i32⟩ : BufTy).Contents (Elt F) → (⟨S16384, .i32⟩ : BufTy).Contents (Elt F) → (⟨S16384, .i1⟩ : BufTy).Contents (Elt F)),
    nullary main_c_29 (constantI S_ 32 67735#32),
    unary main_c_29 main_v69 (broadcastInDim S16384 ![] bcast_S_S16384 : (⟨S_, .i32⟩ : BufTy).Contents (Elt F) → (⟨S16384, .i32⟩ : BufTy).Contents (Elt F)),
    binary main_v66 main_v69 main_v70 (addi : (⟨S16384, .i32⟩ : BufTy).Contents (Elt F) → (⟨S16384, .i32⟩ : BufTy).Contents (Elt F) → (⟨S16384, .i32⟩ : BufTy).Contents (Elt F)),
    ternary main_v68 main_v70 main_v66 main_v71 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v71 main_v72 (broadcastInDim S16384x1 ![0] bcast_S16384_S16384x1_0 : (⟨S16384, .i32⟩ : BufTy).Contents (Elt F) → (⟨S16384x1, .i32⟩ : BufTy).Contents (Elt F)),
    binary main_arg4 main_v72 main_v73 ((fun x i => Host.gather gather_S67735x16_S16384x1_S16384x16_1_0_n_n_0_1_116 x i) : (⟨S67735x16, .f32⟩ : BufTy).Contents (Elt F) → (⟨S16384x1, .i32⟩ : BufTy).Contents (Elt F) → (⟨S16384x16, .f32⟩ : BufTy).Contents (Elt F)),
    binary main_v73 main_arg8 main_v74 ((fun l r => Host.dotGeneral dot_S16384x16_S1024x16_S16384x1024_1_1_0_0_n_n none l r) : (⟨S16384x16, .f32⟩ : BufTy).Contents (Elt F) → (⟨S1024x16, .f32⟩ : BufTy).Contents (Elt F) → (⟨S16384x1024, .f32⟩ : BufTy).Contents (Elt F)),
    unary main_v63 main_v75 (broadcastInDim S16384x1 ![0] bcast_S16384_S16384x1_0 : (⟨S16384, .i1⟩ : BufTy).Contents (Elt F) → (⟨S16384x1, .i1⟩ : BufTy).Contents (Elt F)),
    nullary main_cst_30 (constant S_ .f32 0x00000000#32),
    TRef.unary (TRef.of (T := ⟨S_, .f32⟩) main_cst_30) (TRef.of (T := ⟨S_, .f32⟩) main_call7_v0) id,
    TRef.unary (TRef.of (T := ⟨S16384x1, .i1⟩) main_v75) (TRef.of (T := ⟨S16384x1024, .i1⟩) main_call7_v1) (broadcastInDim S16384x1024 ![0, 1] bcast_S16384x1_S16384x1024_0_1),
    TRef.unary (TRef.of (T := ⟨S_, .f32⟩) main_call7_v0) (TRef.of (T := ⟨S16384x1024, .f32⟩) main_call7_v2) (broadcastInDim S16384x1024 ![] bcast_S_S16384x1024),
    TRef.ternary (TRef.of (T := ⟨S16384x1024, .i1⟩) main_call7_v1) (TRef.of (T := ⟨S16384x1024, .f32⟩) main_v74) (TRef.of (T := ⟨S16384x1024, .f32⟩) main_call7_v2) (TRef.of (T := ⟨S16384x1024, .f32⟩) main_v76) select,
    binary main_v58 main_v76 main_v77 (addf : (⟨S16384x1024, .f32⟩ : BufTy).Contents (Elt F) → (⟨S16384x1024, .f32⟩ : BufTy).Contents (Elt F) → (⟨S16384x1024, .f32⟩ : BufTy).Contents (Elt F)),
    nullary main_cst_31 (constant S_ .f32 0x42000000#32),
    unary main_cst_31 main_v78 (broadcastInDim S16384x1024 ![] bcast_S_S16384x1024 : (⟨S_, .f32⟩ : BufTy).Contents (Elt F) → (⟨S16384x1024, .f32⟩ : BufTy).Contents (Elt F)),
    binary main_v77 main_v78 main_v79 (mulf : (⟨S16384x1024, .f32⟩ : BufTy).Contents (Elt F) → (⟨S16384x1024, .f32⟩ : BufTy).Contents (Elt F) → (⟨S16384x1024, .f32⟩ : BufTy).Contents (Elt F)),
    reshape main_v79 main_v80 rfl shapeCasts_S16384x1024_S4x4096x1024 ]

/-- All of them. -/
abbrev ops : List (HloOp τ sig (Elt F)) :=
  [ reshape main_arg0 main_v0 rfl shapeCasts_S4x4096_S16384,
    nullary main_cst (constant S_ .f32 0x00000000#32),
    unary main_cst main_v1 (broadcastInDim S16384x1024 ![] bcast_S_S16384x1024 : (⟨S_, .f32⟩ : BufTy).Contents (Elt F) → (⟨S16384x1024, .f32⟩ : BufTy).Contents (Elt F)),
    nullary main_c (constantI S_ 32 0#32),
    unary main_c main_v2 (broadcastInDim S16384 ![] bcast_S_S16384 : (⟨S_, .i32⟩ : BufTy).Contents (Elt F) → (⟨S16384, .i32⟩ : BufTy).Contents (Elt F)),
    binary main_v0 main_v2 main_v3 (cmpi .sge : (⟨S16384, .i32⟩ : BufTy).Contents (Elt F) → (⟨S16384, .i32⟩ : BufTy).Contents (Elt F) → (⟨S16384, .i1⟩ : BufTy).Contents (Elt F)),
    nullary main_c_0 (constantI S_ 32 20000#32),
    unary main_c_0 main_v4 (broadcastInDim S16384 ![] bcast_S_S16384 : (⟨S_, .i32⟩ : BufTy).Contents (Elt F) → (⟨S16384, .i32⟩ : BufTy).Contents (Elt F)),
    binary main_v0 main_v4 main_v5 (cmpi .slt : (⟨S16384, .i32⟩ : BufTy).Contents (Elt F) → (⟨S16384, .i32⟩ : BufTy).Contents (Elt F) → (⟨S16384, .i1⟩ : BufTy).Contents (Elt F)),
    binary main_v3 main_v5 main_v6 (andi : (⟨S16384, .i1⟩ : BufTy).Contents (Elt F) → (⟨S16384, .i1⟩ : BufTy).Contents (Elt F) → (⟨S16384, .i1⟩ : BufTy).Contents (Elt F)),
    nullary main_c_1 (constantI S_ 32 0#32),
    unary main_c_1 main_v7 (broadcastInDim S16384 ![] bcast_S_S16384 : (⟨S_, .i32⟩ : BufTy).Contents (Elt F) → (⟨S16384, .i32⟩ : BufTy).Contents (Elt F)),
    binary main_v0 main_v7 main_v8 (subi : (⟨S16384, .i32⟩ : BufTy).Contents (Elt F) → (⟨S16384, .i32⟩ : BufTy).Contents (Elt F) → (⟨S16384, .i32⟩ : BufTy).Contents (Elt F)),
    nullary main_c_2 (constantI S_ 32 0#32),
    nullary main_c_3 (constantI S_ 32 19999#32),
    TRef.unary (TRef.of (T := ⟨S_, .i32⟩) main_c_2) (TRef.of (T := ⟨S_, .i32⟩) main_call0_v0) id,
    TRef.unary (TRef.of (T := ⟨S_, .i32⟩) main_call0_v0) (TRef.of (T := ⟨S16384, .i32⟩) main_call0_v1) (broadcastInDim S16384 ![] bcast_S_S16384),
    TRef.binary (TRef.of (T := ⟨S16384, .i32⟩) main_call0_v1) (TRef.of (T := ⟨S16384, .i32⟩) main_v8) (TRef.of (T := ⟨S16384, .i32⟩) main_call0_v2) maxsi,
    TRef.unary (TRef.of (T := ⟨S_, .i32⟩) main_c_3) (TRef.of (T := ⟨S_, .i32⟩) main_call0_v3) id,
    TRef.unary (TRef.of (T := ⟨S_, .i32⟩) main_call0_v3) (TRef.of (T := ⟨S16384, .i32⟩) main_call0_v4) (broadcastInDim S16384 ![] bcast_S_S16384),
    TRef.binary (TRef.of (T := ⟨S16384, .i32⟩) main_call0_v4) (TRef.of (T := ⟨S16384, .i32⟩) main_call0_v2) (TRef.of (T := ⟨S16384, .i32⟩) main_v9) minsi,
    nullary main_c_4 (constantI S_ 32 0#32),
    unary main_c_4 main_v10 (broadcastInDim S16384 ![] bcast_S_S16384 : (⟨S_, .i32⟩ : BufTy).Contents (Elt F) → (⟨S16384, .i32⟩ : BufTy).Contents (Elt F)),
    binary main_v9 main_v10 main_v11 (cmpi .slt : (⟨S16384, .i32⟩ : BufTy).Contents (Elt F) → (⟨S16384, .i32⟩ : BufTy).Contents (Elt F) → (⟨S16384, .i1⟩ : BufTy).Contents (Elt F)),
    nullary main_c_5 (constantI S_ 32 20000#32),
    unary main_c_5 main_v12 (broadcastInDim S16384 ![] bcast_S_S16384 : (⟨S_, .i32⟩ : BufTy).Contents (Elt F) → (⟨S16384, .i32⟩ : BufTy).Contents (Elt F)),
    binary main_v9 main_v12 main_v13 (addi : (⟨S16384, .i32⟩ : BufTy).Contents (Elt F) → (⟨S16384, .i32⟩ : BufTy).Contents (Elt F) → (⟨S16384, .i32⟩ : BufTy).Contents (Elt F)),
    ternary main_v11 main_v13 main_v9 main_v14 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v14 main_v15 (broadcastInDim S16384x1 ![0] bcast_S16384_S16384x1_0 : (⟨S16384, .i32⟩ : BufTy).Contents (Elt F) → (⟨S16384x1, .i32⟩ : BufTy).Contents (Elt F)),
    binary main_arg1 main_v15 main_v16 ((fun x i => Host.gather gather_S20000x1024_S16384x1_S16384x1024_1_0_n_n_0_1_11024 x i) : (⟨S20000x1024, .f32⟩ : BufTy).Contents (Elt F) → (⟨S16384x1, .i32⟩ : BufTy).Contents (Elt F) → (⟨S16384x1024, .f32⟩ : BufTy).Contents (Elt F)),
    binary main_v16 main_arg5 main_v17 ((fun l r => Host.dotGeneral dot_S16384x1024_S1024x1024_S16384x1024_1_1_0_0_n_n none l r) : (⟨S16384x1024, .f32⟩ : BufTy).Contents (Elt F) → (⟨S1024x1024, .f32⟩ : BufTy).Contents (Elt F) → (⟨S16384x1024, .f32⟩ : BufTy).Contents (Elt F)),
    unary main_v6 main_v18 (broadcastInDim S16384x1 ![0] bcast_S16384_S16384x1_0 : (⟨S16384, .i1⟩ : BufTy).Contents (Elt F) → (⟨S16384x1, .i1⟩ : BufTy).Contents (Elt F)),
    nullary main_cst_6 (constant S_ .f32 0x00000000#32),
    TRef.unary (TRef.of (T := ⟨S_, .f32⟩) main_cst_6) (TRef.of (T := ⟨S_, .f32⟩) main_call1_v0) id,
    TRef.unary (TRef.of (T := ⟨S16384x1, .i1⟩) main_v18) (TRef.of (T := ⟨S16384x1024, .i1⟩) main_call1_v1) (broadcastInDim S16384x1024 ![0, 1] bcast_S16384x1_S16384x1024_0_1),
    TRef.unary (TRef.of (T := ⟨S_, .f32⟩) main_call1_v0) (TRef.of (T := ⟨S16384x1024, .f32⟩) main_call1_v2) (broadcastInDim S16384x1024 ![] bcast_S_S16384x1024),
    TRef.ternary (TRef.of (T := ⟨S16384x1024, .i1⟩) main_call1_v1) (TRef.of (T := ⟨S16384x1024, .f32⟩) main_v17) (TRef.of (T := ⟨S16384x1024, .f32⟩) main_call1_v2) (TRef.of (T := ⟨S16384x1024, .f32⟩) main_v19) select,
    binary main_v1 main_v19 main_v20 (addf : (⟨S16384x1024, .f32⟩ : BufTy).Contents (Elt F) → (⟨S16384x1024, .f32⟩ : BufTy).Contents (Elt F) → (⟨S16384x1024, .f32⟩ : BufTy).Contents (Elt F)),
    nullary main_c_7 (constantI S_ 32 20000#32),
    unary main_c_7 main_v21 (broadcastInDim S16384 ![] bcast_S_S16384 : (⟨S_, .i32⟩ : BufTy).Contents (Elt F) → (⟨S16384, .i32⟩ : BufTy).Contents (Elt F)),
    binary main_v0 main_v21 main_v22 (cmpi .sge : (⟨S16384, .i32⟩ : BufTy).Contents (Elt F) → (⟨S16384, .i32⟩ : BufTy).Contents (Elt F) → (⟨S16384, .i1⟩ : BufTy).Contents (Elt F)),
    nullary main_c_8 (constantI S_ 32 40000#32),
    unary main_c_8 main_v23 (broadcastInDim S16384 ![] bcast_S_S16384 : (⟨S_, .i32⟩ : BufTy).Contents (Elt F) → (⟨S16384, .i32⟩ : BufTy).Contents (Elt F)),
    binary main_v0 main_v23 main_v24 (cmpi .slt : (⟨S16384, .i32⟩ : BufTy).Contents (Elt F) → (⟨S16384, .i32⟩ : BufTy).Contents (Elt F) → (⟨S16384, .i1⟩ : BufTy).Contents (Elt F)),
    binary main_v22 main_v24 main_v25 (andi : (⟨S16384, .i1⟩ : BufTy).Contents (Elt F) → (⟨S16384, .i1⟩ : BufTy).Contents (Elt F) → (⟨S16384, .i1⟩ : BufTy).Contents (Elt F)),
    nullary main_c_9 (constantI S_ 32 20000#32),
    unary main_c_9 main_v26 (broadcastInDim S16384 ![] bcast_S_S16384 : (⟨S_, .i32⟩ : BufTy).Contents (Elt F) → (⟨S16384, .i32⟩ : BufTy).Contents (Elt F)),
    binary main_v0 main_v26 main_v27 (subi : (⟨S16384, .i32⟩ : BufTy).Contents (Elt F) → (⟨S16384, .i32⟩ : BufTy).Contents (Elt F) → (⟨S16384, .i32⟩ : BufTy).Contents (Elt F)),
    nullary main_c_10 (constantI S_ 32 0#32),
    nullary main_c_11 (constantI S_ 32 19999#32),
    TRef.unary (TRef.of (T := ⟨S_, .i32⟩) main_c_10) (TRef.of (T := ⟨S_, .i32⟩) main_call2_v0) id,
    TRef.unary (TRef.of (T := ⟨S_, .i32⟩) main_call2_v0) (TRef.of (T := ⟨S16384, .i32⟩) main_call2_v1) (broadcastInDim S16384 ![] bcast_S_S16384),
    TRef.binary (TRef.of (T := ⟨S16384, .i32⟩) main_call2_v1) (TRef.of (T := ⟨S16384, .i32⟩) main_v27) (TRef.of (T := ⟨S16384, .i32⟩) main_call2_v2) maxsi,
    TRef.unary (TRef.of (T := ⟨S_, .i32⟩) main_c_11) (TRef.of (T := ⟨S_, .i32⟩) main_call2_v3) id,
    TRef.unary (TRef.of (T := ⟨S_, .i32⟩) main_call2_v3) (TRef.of (T := ⟨S16384, .i32⟩) main_call2_v4) (broadcastInDim S16384 ![] bcast_S_S16384),
    TRef.binary (TRef.of (T := ⟨S16384, .i32⟩) main_call2_v4) (TRef.of (T := ⟨S16384, .i32⟩) main_call2_v2) (TRef.of (T := ⟨S16384, .i32⟩) main_v28) minsi,
    nullary main_c_12 (constantI S_ 32 0#32),
    unary main_c_12 main_v29 (broadcastInDim S16384 ![] bcast_S_S16384 : (⟨S_, .i32⟩ : BufTy).Contents (Elt F) → (⟨S16384, .i32⟩ : BufTy).Contents (Elt F)),
    binary main_v28 main_v29 main_v30 (cmpi .slt : (⟨S16384, .i32⟩ : BufTy).Contents (Elt F) → (⟨S16384, .i32⟩ : BufTy).Contents (Elt F) → (⟨S16384, .i1⟩ : BufTy).Contents (Elt F)),
    nullary main_c_13 (constantI S_ 32 20000#32),
    unary main_c_13 main_v31 (broadcastInDim S16384 ![] bcast_S_S16384 : (⟨S_, .i32⟩ : BufTy).Contents (Elt F) → (⟨S16384, .i32⟩ : BufTy).Contents (Elt F)),
    binary main_v28 main_v31 main_v32 (addi : (⟨S16384, .i32⟩ : BufTy).Contents (Elt F) → (⟨S16384, .i32⟩ : BufTy).Contents (Elt F) → (⟨S16384, .i32⟩ : BufTy).Contents (Elt F)),
    ternary main_v30 main_v32 main_v28 main_v33 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v33 main_v34 (broadcastInDim S16384x1 ![0] bcast_S16384_S16384x1_0 : (⟨S16384, .i32⟩ : BufTy).Contents (Elt F) → (⟨S16384x1, .i32⟩ : BufTy).Contents (Elt F)),
    binary main_arg2 main_v34 main_v35 ((fun x i => Host.gather gather_S20000x256_S16384x1_S16384x256_1_0_n_n_0_1_1256 x i) : (⟨S20000x256, .f32⟩ : BufTy).Contents (Elt F) → (⟨S16384x1, .i32⟩ : BufTy).Contents (Elt F) → (⟨S16384x256, .f32⟩ : BufTy).Contents (Elt F)),
    binary main_v35 main_arg6 main_v36 ((fun l r => Host.dotGeneral dot_S16384x256_S1024x256_S16384x1024_1_1_0_0_n_n none l r) : (⟨S16384x256, .f32⟩ : BufTy).Contents (Elt F) → (⟨S1024x256, .f32⟩ : BufTy).Contents (Elt F) → (⟨S16384x1024, .f32⟩ : BufTy).Contents (Elt F)),
    unary main_v25 main_v37 (broadcastInDim S16384x1 ![0] bcast_S16384_S16384x1_0 : (⟨S16384, .i1⟩ : BufTy).Contents (Elt F) → (⟨S16384x1, .i1⟩ : BufTy).Contents (Elt F)),
    nullary main_cst_14 (constant S_ .f32 0x00000000#32),
    TRef.unary (TRef.of (T := ⟨S_, .f32⟩) main_cst_14) (TRef.of (T := ⟨S_, .f32⟩) main_call3_v0) id,
    TRef.unary (TRef.of (T := ⟨S16384x1, .i1⟩) main_v37) (TRef.of (T := ⟨S16384x1024, .i1⟩) main_call3_v1) (broadcastInDim S16384x1024 ![0, 1] bcast_S16384x1_S16384x1024_0_1),
    TRef.unary (TRef.of (T := ⟨S_, .f32⟩) main_call3_v0) (TRef.of (T := ⟨S16384x1024, .f32⟩) main_call3_v2) (broadcastInDim S16384x1024 ![] bcast_S_S16384x1024),
    TRef.ternary (TRef.of (T := ⟨S16384x1024, .i1⟩) main_call3_v1) (TRef.of (T := ⟨S16384x1024, .f32⟩) main_v36) (TRef.of (T := ⟨S16384x1024, .f32⟩) main_call3_v2) (TRef.of (T := ⟨S16384x1024, .f32⟩) main_v38) select,
    binary main_v20 main_v38 main_v39 (addf : (⟨S16384x1024, .f32⟩ : BufTy).Contents (Elt F) → (⟨S16384x1024, .f32⟩ : BufTy).Contents (Elt F) → (⟨S16384x1024, .f32⟩ : BufTy).Contents (Elt F)),
    nullary main_c_15 (constantI S_ 32 40000#32),
    unary main_c_15 main_v40 (broadcastInDim S16384 ![] bcast_S_S16384 : (⟨S_, .i32⟩ : BufTy).Contents (Elt F) → (⟨S16384, .i32⟩ : BufTy).Contents (Elt F)),
    binary main_v0 main_v40 main_v41 (cmpi .sge : (⟨S16384, .i32⟩ : BufTy).Contents (Elt F) → (⟨S16384, .i32⟩ : BufTy).Contents (Elt F) → (⟨S16384, .i1⟩ : BufTy).Contents (Elt F)),
    nullary main_c_16 (constantI S_ 32 200000#32),
    unary main_c_16 main_v42 (broadcastInDim S16384 ![] bcast_S_S16384 : (⟨S_, .i32⟩ : BufTy).Contents (Elt F) → (⟨S16384, .i32⟩ : BufTy).Contents (Elt F)),
    binary main_v0 main_v42 main_v43 (cmpi .slt : (⟨S16384, .i32⟩ : BufTy).Contents (Elt F) → (⟨S16384, .i32⟩ : BufTy).Contents (Elt F) → (⟨S16384, .i1⟩ : BufTy).Contents (Elt F)),
    binary main_v41 main_v43 main_v44 (andi : (⟨S16384, .i1⟩ : BufTy).Contents (Elt F) → (⟨S16384, .i1⟩ : BufTy).Contents (Elt F) → (⟨S16384, .i1⟩ : BufTy).Contents (Elt F)),
    nullary main_c_17 (constantI S_ 32 40000#32),
    unary main_c_17 main_v45 (broadcastInDim S16384 ![] bcast_S_S16384 : (⟨S_, .i32⟩ : BufTy).Contents (Elt F) → (⟨S16384, .i32⟩ : BufTy).Contents (Elt F)),
    binary main_v0 main_v45 main_v46 (subi : (⟨S16384, .i32⟩ : BufTy).Contents (Elt F) → (⟨S16384, .i32⟩ : BufTy).Contents (Elt F) → (⟨S16384, .i32⟩ : BufTy).Contents (Elt F)),
    nullary main_c_18 (constantI S_ 32 0#32),
    nullary main_c_19 (constantI S_ 32 159999#32),
    TRef.unary (TRef.of (T := ⟨S_, .i32⟩) main_c_18) (TRef.of (T := ⟨S_, .i32⟩) main_call4_v0) id,
    TRef.unary (TRef.of (T := ⟨S_, .i32⟩) main_call4_v0) (TRef.of (T := ⟨S16384, .i32⟩) main_call4_v1) (broadcastInDim S16384 ![] bcast_S_S16384),
    TRef.binary (TRef.of (T := ⟨S16384, .i32⟩) main_call4_v1) (TRef.of (T := ⟨S16384, .i32⟩) main_v46) (TRef.of (T := ⟨S16384, .i32⟩) main_call4_v2) maxsi,
    TRef.unary (TRef.of (T := ⟨S_, .i32⟩) main_c_19) (TRef.of (T := ⟨S_, .i32⟩) main_call4_v3) id,
    TRef.unary (TRef.of (T := ⟨S_, .i32⟩) main_call4_v3) (TRef.of (T := ⟨S16384, .i32⟩) main_call4_v4) (broadcastInDim S16384 ![] bcast_S_S16384),
    TRef.binary (TRef.of (T := ⟨S16384, .i32⟩) main_call4_v4) (TRef.of (T := ⟨S16384, .i32⟩) main_call4_v2) (TRef.of (T := ⟨S16384, .i32⟩) main_v47) minsi,
    nullary main_c_20 (constantI S_ 32 0#32),
    unary main_c_20 main_v48 (broadcastInDim S16384 ![] bcast_S_S16384 : (⟨S_, .i32⟩ : BufTy).Contents (Elt F) → (⟨S16384, .i32⟩ : BufTy).Contents (Elt F)),
    binary main_v47 main_v48 main_v49 (cmpi .slt : (⟨S16384, .i32⟩ : BufTy).Contents (Elt F) → (⟨S16384, .i32⟩ : BufTy).Contents (Elt F) → (⟨S16384, .i1⟩ : BufTy).Contents (Elt F)),
    nullary main_c_21 (constantI S_ 32 160000#32),
    unary main_c_21 main_v50 (broadcastInDim S16384 ![] bcast_S_S16384 : (⟨S_, .i32⟩ : BufTy).Contents (Elt F) → (⟨S16384, .i32⟩ : BufTy).Contents (Elt F)),
    binary main_v47 main_v50 main_v51 (addi : (⟨S16384, .i32⟩ : BufTy).Contents (Elt F) → (⟨S16384, .i32⟩ : BufTy).Contents (Elt F) → (⟨S16384, .i32⟩ : BufTy).Contents (Elt F)),
    ternary main_v49 main_v51 main_v47 main_v52 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v52 main_v53 (broadcastInDim S16384x1 ![0] bcast_S16384_S16384x1_0 : (⟨S16384, .i32⟩ : BufTy).Contents (Elt F) → (⟨S16384x1, .i32⟩ : BufTy).Contents (Elt F)),
    binary main_arg3 main_v53 main_v54 ((fun x i => Host.gather gather_S160000x64_S16384x1_S16384x64_1_0_n_n_0_1_164 x i) : (⟨S160000x64, .f32⟩ : BufTy).Contents (Elt F) → (⟨S16384x1, .i32⟩ : BufTy).Contents (Elt F) → (⟨S16384x64, .f32⟩ : BufTy).Contents (Elt F)),
    binary main_v54 main_arg7 main_v55 ((fun l r => Host.dotGeneral dot_S16384x64_S1024x64_S16384x1024_1_1_0_0_n_n none l r) : (⟨S16384x64, .f32⟩ : BufTy).Contents (Elt F) → (⟨S1024x64, .f32⟩ : BufTy).Contents (Elt F) → (⟨S16384x1024, .f32⟩ : BufTy).Contents (Elt F)),
    unary main_v44 main_v56 (broadcastInDim S16384x1 ![0] bcast_S16384_S16384x1_0 : (⟨S16384, .i1⟩ : BufTy).Contents (Elt F) → (⟨S16384x1, .i1⟩ : BufTy).Contents (Elt F)),
    nullary main_cst_22 (constant S_ .f32 0x00000000#32),
    TRef.unary (TRef.of (T := ⟨S_, .f32⟩) main_cst_22) (TRef.of (T := ⟨S_, .f32⟩) main_call5_v0) id,
    TRef.unary (TRef.of (T := ⟨S16384x1, .i1⟩) main_v56) (TRef.of (T := ⟨S16384x1024, .i1⟩) main_call5_v1) (broadcastInDim S16384x1024 ![0, 1] bcast_S16384x1_S16384x1024_0_1),
    TRef.unary (TRef.of (T := ⟨S_, .f32⟩) main_call5_v0) (TRef.of (T := ⟨S16384x1024, .f32⟩) main_call5_v2) (broadcastInDim S16384x1024 ![] bcast_S_S16384x1024),
    TRef.ternary (TRef.of (T := ⟨S16384x1024, .i1⟩) main_call5_v1) (TRef.of (T := ⟨S16384x1024, .f32⟩) main_v55) (TRef.of (T := ⟨S16384x1024, .f32⟩) main_call5_v2) (TRef.of (T := ⟨S16384x1024, .f32⟩) main_v57) select,
    binary main_v39 main_v57 main_v58 (addf : (⟨S16384x1024, .f32⟩ : BufTy).Contents (Elt F) → (⟨S16384x1024, .f32⟩ : BufTy).Contents (Elt F) → (⟨S16384x1024, .f32⟩ : BufTy).Contents (Elt F)),
    nullary main_c_23 (constantI S_ 32 200000#32),
    unary main_c_23 main_v59 (broadcastInDim S16384 ![] bcast_S_S16384 : (⟨S_, .i32⟩ : BufTy).Contents (Elt F) → (⟨S16384, .i32⟩ : BufTy).Contents (Elt F)),
    binary main_v0 main_v59 main_v60 (cmpi .sge : (⟨S16384, .i32⟩ : BufTy).Contents (Elt F) → (⟨S16384, .i32⟩ : BufTy).Contents (Elt F) → (⟨S16384, .i1⟩ : BufTy).Contents (Elt F)),
    nullary main_c_24 (constantI S_ 32 267735#32),
    unary main_c_24 main_v61 (broadcastInDim S16384 ![] bcast_S_S16384 : (⟨S_, .i32⟩ : BufTy).Contents (Elt F) → (⟨S16384, .i32⟩ : BufTy).Contents (Elt F)),
    binary main_v0 main_v61 main_v62 (cmpi .slt : (⟨S16384, .i32⟩ : BufTy).Contents (Elt F) → (⟨S16384, .i32⟩ : BufTy).Contents (Elt F) → (⟨S16384, .i1⟩ : BufTy).Contents (Elt F)),
    binary main_v60 main_v62 main_v63 (andi : (⟨S16384, .i1⟩ : BufTy).Contents (Elt F) → (⟨S16384, .i1⟩ : BufTy).Contents (Elt F) → (⟨S16384, .i1⟩ : BufTy).Contents (Elt F)),
    nullary main_c_25 (constantI S_ 32 200000#32),
    unary main_c_25 main_v64 (broadcastInDim S16384 ![] bcast_S_S16384 : (⟨S_, .i32⟩ : BufTy).Contents (Elt F) → (⟨S16384, .i32⟩ : BufTy).Contents (Elt F)),
    binary main_v0 main_v64 main_v65 (subi : (⟨S16384, .i32⟩ : BufTy).Contents (Elt F) → (⟨S16384, .i32⟩ : BufTy).Contents (Elt F) → (⟨S16384, .i32⟩ : BufTy).Contents (Elt F)),
    nullary main_c_26 (constantI S_ 32 0#32),
    nullary main_c_27 (constantI S_ 32 67734#32),
    TRef.unary (TRef.of (T := ⟨S_, .i32⟩) main_c_26) (TRef.of (T := ⟨S_, .i32⟩) main_call6_v0) id,
    TRef.unary (TRef.of (T := ⟨S_, .i32⟩) main_call6_v0) (TRef.of (T := ⟨S16384, .i32⟩) main_call6_v1) (broadcastInDim S16384 ![] bcast_S_S16384),
    TRef.binary (TRef.of (T := ⟨S16384, .i32⟩) main_call6_v1) (TRef.of (T := ⟨S16384, .i32⟩) main_v65) (TRef.of (T := ⟨S16384, .i32⟩) main_call6_v2) maxsi,
    TRef.unary (TRef.of (T := ⟨S_, .i32⟩) main_c_27) (TRef.of (T := ⟨S_, .i32⟩) main_call6_v3) id,
    TRef.unary (TRef.of (T := ⟨S_, .i32⟩) main_call6_v3) (TRef.of (T := ⟨S16384, .i32⟩) main_call6_v4) (broadcastInDim S16384 ![] bcast_S_S16384),
    TRef.binary (TRef.of (T := ⟨S16384, .i32⟩) main_call6_v4) (TRef.of (T := ⟨S16384, .i32⟩) main_call6_v2) (TRef.of (T := ⟨S16384, .i32⟩) main_v66) minsi,
    nullary main_c_28 (constantI S_ 32 0#32),
    unary main_c_28 main_v67 (broadcastInDim S16384 ![] bcast_S_S16384 : (⟨S_, .i32⟩ : BufTy).Contents (Elt F) → (⟨S16384, .i32⟩ : BufTy).Contents (Elt F)),
    binary main_v66 main_v67 main_v68 (cmpi .slt : (⟨S16384, .i32⟩ : BufTy).Contents (Elt F) → (⟨S16384, .i32⟩ : BufTy).Contents (Elt F) → (⟨S16384, .i1⟩ : BufTy).Contents (Elt F)),
    nullary main_c_29 (constantI S_ 32 67735#32),
    unary main_c_29 main_v69 (broadcastInDim S16384 ![] bcast_S_S16384 : (⟨S_, .i32⟩ : BufTy).Contents (Elt F) → (⟨S16384, .i32⟩ : BufTy).Contents (Elt F)),
    binary main_v66 main_v69 main_v70 (addi : (⟨S16384, .i32⟩ : BufTy).Contents (Elt F) → (⟨S16384, .i32⟩ : BufTy).Contents (Elt F) → (⟨S16384, .i32⟩ : BufTy).Contents (Elt F)),
    ternary main_v68 main_v70 main_v66 main_v71 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v71 main_v72 (broadcastInDim S16384x1 ![0] bcast_S16384_S16384x1_0 : (⟨S16384, .i32⟩ : BufTy).Contents (Elt F) → (⟨S16384x1, .i32⟩ : BufTy).Contents (Elt F)),
    binary main_arg4 main_v72 main_v73 ((fun x i => Host.gather gather_S67735x16_S16384x1_S16384x16_1_0_n_n_0_1_116 x i) : (⟨S67735x16, .f32⟩ : BufTy).Contents (Elt F) → (⟨S16384x1, .i32⟩ : BufTy).Contents (Elt F) → (⟨S16384x16, .f32⟩ : BufTy).Contents (Elt F)),
    binary main_v73 main_arg8 main_v74 ((fun l r => Host.dotGeneral dot_S16384x16_S1024x16_S16384x1024_1_1_0_0_n_n none l r) : (⟨S16384x16, .f32⟩ : BufTy).Contents (Elt F) → (⟨S1024x16, .f32⟩ : BufTy).Contents (Elt F) → (⟨S16384x1024, .f32⟩ : BufTy).Contents (Elt F)),
    unary main_v63 main_v75 (broadcastInDim S16384x1 ![0] bcast_S16384_S16384x1_0 : (⟨S16384, .i1⟩ : BufTy).Contents (Elt F) → (⟨S16384x1, .i1⟩ : BufTy).Contents (Elt F)),
    nullary main_cst_30 (constant S_ .f32 0x00000000#32),
    TRef.unary (TRef.of (T := ⟨S_, .f32⟩) main_cst_30) (TRef.of (T := ⟨S_, .f32⟩) main_call7_v0) id,
    TRef.unary (TRef.of (T := ⟨S16384x1, .i1⟩) main_v75) (TRef.of (T := ⟨S16384x1024, .i1⟩) main_call7_v1) (broadcastInDim S16384x1024 ![0, 1] bcast_S16384x1_S16384x1024_0_1),
    TRef.unary (TRef.of (T := ⟨S_, .f32⟩) main_call7_v0) (TRef.of (T := ⟨S16384x1024, .f32⟩) main_call7_v2) (broadcastInDim S16384x1024 ![] bcast_S_S16384x1024),
    TRef.ternary (TRef.of (T := ⟨S16384x1024, .i1⟩) main_call7_v1) (TRef.of (T := ⟨S16384x1024, .f32⟩) main_v74) (TRef.of (T := ⟨S16384x1024, .f32⟩) main_call7_v2) (TRef.of (T := ⟨S16384x1024, .f32⟩) main_v76) select,
    binary main_v58 main_v76 main_v77 (addf : (⟨S16384x1024, .f32⟩ : BufTy).Contents (Elt F) → (⟨S16384x1024, .f32⟩ : BufTy).Contents (Elt F) → (⟨S16384x1024, .f32⟩ : BufTy).Contents (Elt F)),
    nullary main_cst_31 (constant S_ .f32 0x42000000#32),
    unary main_cst_31 main_v78 (broadcastInDim S16384x1024 ![] bcast_S_S16384x1024 : (⟨S_, .f32⟩ : BufTy).Contents (Elt F) → (⟨S16384x1024, .f32⟩ : BufTy).Contents (Elt F)),
    binary main_v77 main_v78 main_v79 (mulf : (⟨S16384x1024, .f32⟩ : BufTy).Contents (Elt F) → (⟨S16384x1024, .f32⟩ : BufTy).Contents (Elt F) → (⟨S16384x1024, .f32⟩ : BufTy).Contents (Elt F)),
    reshape main_v79 main_v80 rfl shapeCasts_S16384x1024_S4x4096x1024 ]

theorem ops_eq : (ops : List (HloOp τ sig (Elt F))) = opsA ++ opsB := rfl

set_option maxRecDepth 4096 in
set_option maxHeartbeats 4000000 in
theorem part0_eq (c : Dev nD) : main_part0 (F := F) c = seq opsA := by
  simp only [main_part0, fn_clip.body, fn_where.body, seq, bind_assoc, pure_bind] <;> rfl

set_option maxRecDepth 4096 in
set_option maxHeartbeats 4000000 in
theorem part1_eq (c : Dev nD) : main_part1 (F := F) c = seq opsB := by
  simp only [main_part1, fn_clip.body, fn_where.body, seq, bind_assoc, pure_bind] <;> rfl

theorem main_eq (c : Dev nD) : main (F := F) c = seq ops := by
  rw [ops_eq, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨reshape_bufs_sub .., nullary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., unary_bufs_sub .., unary_bufs_sub .., ternary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., unary_bufs_sub .., unary_bufs_sub .., ternary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., unary_bufs_sub .., unary_bufs_sub .., ternary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., unary_bufs_sub .., unary_bufs_sub .., ternary_bufs_sub .., binary_bufs_sub .., nullary_bufs_sub .., unary_bufs_sub .., binary_bufs_sub .., reshape_bufs_sub ..⟩

set_option maxRecDepth 8192 in
/-- Every weakly fair execution terminates with each buffer at the lines' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefVal.lean ====
/-
  The reference's result as one function of the argument arrays. Its host lines fold to: a zero array, plus, bucket by
  bucket, the product of the bucket's gathered rows with its projection (contracted over the embedding axis of both)
  kept under the bucket's mask, all times 32, reshaped. Each general dot is the product with the transposed
  projection; each select under the mask column is the row mask; so entry `(n, j)` is the sum over the buckets of the
  masked products' entries, times 32.
-/
import proofs.«130990_j59871844107157_2_alg».proof.Proof.RefRun
import proofs.«130990_j59871844107157_2_alg».proof.Proof.Stages
import proofs.«130990_j59871844107157_2_alg».proof.Proof.LibPack

set_option maxRecDepth 16384

noncomputable section

namespace Cert.ReferenceIdeal.RefVal

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RefRun Cert.Stages Cert.PackLib Cert.DenseLib Cert.LayoutLib

theorem hyp : Hyp := ⟨shapeCasts_S4x4096_S16384, bcast_S_S16384, bcast_S16384_S16384x1_0⟩

variable (V : Valuation τ sig (Elt Ideal))

/-- Bucket 0's gathered rows. -/
def rows0 : S16384x1024.Idx → EReal :=
  Host.gather gather_S20000x1024_S16384x1_S16384x1024_1_0_n_n_0_1_11024 (V (Proc.devRef .tc main_arg1)) (rowIx hyp 0#32 19999#32 20000#32 (V (Proc.devRef .tc main_arg0)))

/-- Bucket 1's gathered rows. -/
def rows1 : S16384x256.Idx → EReal :=
  Host.gather gather_S20000x256_S16384x1_S16384x256_1_0_n_n_0_1_1256 (V (Proc.devRef .tc main_arg2)) (rowIx hyp 20000#32 19999#32 20000#32 (V (Proc.devRef .tc main_arg0)))

/-- Bucket 2's gathered rows. -/
def rows2 : S16384x64.Idx → EReal :=
  Host.gather gather_S160000x64_S16384x1_S16384x64_1_0_n_n_0_1_164 (V (Proc.devRef .tc main_arg3)) (rowIx hyp 40000#32 159999#32 160000#32 (V (Proc.devRef .tc main_arg0)))

/-- Bucket 3's gathered rows. -/
def rows3 : S16384x16.Idx → EReal :=
  Host.gather gather_S67735x16_S16384x1_S16384x16_1_0_n_n_0_1_116 (V (Proc.devRef .tc main_arg4)) (rowIx hyp 200000#32 67734#32 67735#32 (V (Proc.devRef .tc main_arg0)))

/-- The reference's general dot for bucket 0 (both operands contracted over their second axis) is the product
    with the transposed projection. -/
theorem dot0_eq (L : S16384x1024.Idx → EReal) (R : S1024x1024.Idx → EReal) :
    Host.dotGeneral (F := Ideal) (φ₁ := .f32) (φ₂ := .f32) dot_S16384x1024_S1024x1024_S16384x1024_1_1_0_0_n_n none L R = mm L (tr R) := by
  funext i
  obtain ⟨p, q, rfl⟩ : ∃ (p : Fin 16384) (q : Fin 1024), i = ix2 p q := ⟨i 0, i 1, eq_ix2 i⟩
  simp only [Host.dotGeneral]
  rw [Ideal.dotGeneral_apply, ← Equiv.sum_comp (contrEquiv1 dot_S16384x1024_S1024x1024_S16384x1024_1_1_0_0_n_n 1024 rfl rfl).symm, mm_apply]
  refine Finset.sum_congr rfl fun k _ => ?_
  have hk := contrEquiv1_symm_val dot_S16384x1024_S1024x1024_S16384x1024_1_1_0_0_n_n 1024 rfl rfl k
  have l0 : ∀ (i : S16384x1024.Idx) (qq : dot_S16384x1024_S1024x1024_S16384x1024_1_1_0_0_n_n.contr.Idx), (dot_S16384x1024_S1024x1024_S16384x1024_1_1_0_0_n_n.lhsIdx i qq 0).val = (i 0).val := by
    intro i qq
    unfold DotDims.lhsIdx
    rw [dif_neg (show ¬(0 : Fin S16384x1024.rank) ∈ dot_S16384x1024_S1024x1024_S16384x1024_1_1_0_0_n_n.lhsBatch by decide), dif_pos (show (0 : Fin S16384x1024.rank) ∈ dot_S16384x1024_S1024x1024_S16384x1024_1_1_0_0_n_n.lhsNonContracting by decide)]
    rfl
  have r0 : ∀ (i : S16384x1024.Idx) (qq : dot_S16384x1024_S1024x1024_S16384x1024_1_1_0_0_n_n.contr.Idx), (dot_S16384x1024_S1024x1024_S16384x1024_1_1_0_0_n_n.rhsIdx i qq 0).val = (i 1).val := by
    intro i qq
    unfold DotDims.rhsIdx
    rw [dif_neg (show ¬(0 : Fin S1024x1024.rank) ∈ dot_S16384x1024_S1024x1024_S16384x1024_1_1_0_0_n_n.rhsBatch by decide), dif_pos (show (0 : Fin S1024x1024.rank) ∈ dot_S16384x1024_S1024x1024_S16384x1024_1_1_0_0_n_n.rhsNonContracting by decide)]
    rfl
  have el : dot_S16384x1024_S1024x1024_S16384x1024_1_1_0_0_n_n.lhsIdx (ix2 p q) ((contrEquiv1 dot_S16384x1024_S1024x1024_S16384x1024_1_1_0_0_n_n 1024 rfl rfl).symm k) = ix2 p k :=
    funext fun a => Fin.ext (by
      match a with
      | ⟨0, _⟩ => exact l0 _ _
      | ⟨1, _⟩ => exact (dot_S16384x1024_S1024x1024_S16384x1024_1_1_0_0_n_n.lhsIdx_val_of_single (cl := (1 : Fin 2)) rfl _ _).trans hk)
  have er : dot_S16384x1024_S1024x1024_S16384x1024_1_1_0_0_n_n.rhsIdx (ix2 p q) ((contrEquiv1 dot_S16384x1024_S1024x1024_S16384x1024_1_1_0_0_n_n 1024 rfl rfl).symm k) = ix2 q k :=
    funext fun a => Fin.ext (by
      match a with
      | ⟨0, _⟩ => exact r0 _ _
      | ⟨1, _⟩ => exact (dot_S16384x1024_S1024x1024_S16384x1024_1_1_0_0_n_n.rhsIdx_val_of_single (cr := (1 : Fin 2)) rfl _ _).trans hk)
  rw [el, er]
  rfl

/-- The reference's general dot for bucket 1 (both operands contracted over their second axis) is the product
    with the transposed projection. -/
theorem dot1_eq (L : S16384x256.Idx → EReal) (R : S1024x256.Idx → EReal) :
    Host.dotGeneral (F := Ideal) (φ₁ := .f32) (φ₂ := .f32) dot_S16384x256_S1024x256_S16384x1024_1_1_0_0_n_n none L R = mm L (tr R) := by
  funext i
  obtain ⟨p, q, rfl⟩ : ∃ (p : Fin 16384) (q : Fin 1024), i = ix2 p q := ⟨i 0, i 1, eq_ix2 i⟩
  simp only [Host.dotGeneral]
  rw [Ideal.dotGeneral_apply, ← Equiv.sum_comp (contrEquiv1 dot_S16384x256_S1024x256_S16384x1024_1_1_0_0_n_n 256 rfl rfl).symm, mm_apply]
  refine Finset.sum_congr rfl fun k _ => ?_
  have hk := contrEquiv1_symm_val dot_S16384x256_S1024x256_S16384x1024_1_1_0_0_n_n 256 rfl rfl k
  have l0 : ∀ (i : S16384x1024.Idx) (qq : dot_S16384x256_S1024x256_S16384x1024_1_1_0_0_n_n.contr.Idx), (dot_S16384x256_S1024x256_S16384x1024_1_1_0_0_n_n.lhsIdx i qq 0).val = (i 0).val := by
    intro i qq
    unfold DotDims.lhsIdx
    rw [dif_neg (show ¬(0 : Fin S16384x256.rank) ∈ dot_S16384x256_S1024x256_S16384x1024_1_1_0_0_n_n.lhsBatch by decide), dif_pos (show (0 : Fin S16384x256.rank) ∈ dot_S16384x256_S1024x256_S16384x1024_1_1_0_0_n_n.lhsNonContracting by decide)]
    rfl
  have r0 : ∀ (i : S16384x1024.Idx) (qq : dot_S16384x256_S1024x256_S16384x1024_1_1_0_0_n_n.contr.Idx), (dot_S16384x256_S1024x256_S16384x1024_1_1_0_0_n_n.rhsIdx i qq 0).val = (i 1).val := by
    intro i qq
    unfold DotDims.rhsIdx
    rw [dif_neg (show ¬(0 : Fin S1024x256.rank) ∈ dot_S16384x256_S1024x256_S16384x1024_1_1_0_0_n_n.rhsBatch by decide), dif_pos (show (0 : Fin S1024x256.rank) ∈ dot_S16384x256_S1024x256_S16384x1024_1_1_0_0_n_n.rhsNonContracting by decide)]
    rfl
  have el : dot_S16384x256_S1024x256_S16384x1024_1_1_0_0_n_n.lhsIdx (ix2 p q) ((contrEquiv1 dot_S16384x256_S1024x256_S16384x1024_1_1_0_0_n_n 256 rfl rfl).symm k) = ix2 p k :=
    funext fun a => Fin.ext (by
      match a with
      | ⟨0, _⟩ => exact l0 _ _
      | ⟨1, _⟩ => exact (dot_S16384x256_S1024x256_S16384x1024_1_1_0_0_n_n.lhsIdx_val_of_single (cl := (1 : Fin 2)) rfl _ _).trans hk)
  have er : dot_S16384x256_S1024x256_S16384x1024_1_1_0_0_n_n.rhsIdx (ix2 p q) ((contrEquiv1 dot_S16384x256_S1024x256_S16384x1024_1_1_0_0_n_n 256 rfl rfl).symm k) = ix2 q k :=
    funext fun a => Fin.ext (by
      match a with
      | ⟨0, _⟩ => exact r0 _ _
      | ⟨1, _⟩ => exact (dot_S16384x256_S1024x256_S16384x1024_1_1_0_0_n_n.rhsIdx_val_of_single (cr := (1 : Fin 2)) rfl _ _).trans hk)
  rw [el, er]
  rfl

/-- The reference's general dot for bucket 2 (both operands contracted over their second axis) is the product
    with the transposed projection. -/
theorem dot2_eq (L : S16384x64.Idx → EReal) (R : S1024x64.Idx → EReal) :
    Host.dotGeneral (F := Ideal) (φ₁ := .f32) (φ₂ := .f32) dot_S16384x64_S1024x64_S16384x1024_1_1_0_0_n_n none L R = mm L (tr R) := by
  funext i
  obtain ⟨p, q, rfl⟩ : ∃ (p : Fin 16384) (q : Fin 1024), i = ix2 p q := ⟨i 0, i 1, eq_ix2 i⟩
  simp only [Host.dotGeneral]
  rw [Ideal.dotGeneral_apply, ← Equiv.sum_comp (contrEquiv1 dot_S16384x64_S1024x64_S16384x1024_1_1_0_0_n_n 64 rfl rfl).symm, mm_apply]
  refine Finset.sum_congr rfl fun k _ => ?_
  have hk := contrEquiv1_symm_val dot_S16384x64_S1024x64_S16384x1024_1_1_0_0_n_n 64 rfl rfl k
  have l0 : ∀ (i : S16384x1024.Idx) (qq : dot_S16384x64_S1024x64_S16384x1024_1_1_0_0_n_n.contr.Idx), (dot_S16384x64_S1024x64_S16384x1024_1_1_0_0_n_n.lhsIdx i qq 0).val = (i 0).val := by
    intro i qq
    unfold DotDims.lhsIdx
    rw [dif_neg (show ¬(0 : Fin S16384x64.rank) ∈ dot_S16384x64_S1024x64_S16384x1024_1_1_0_0_n_n.lhsBatch by decide), dif_pos (show (0 : Fin S16384x64.rank) ∈ dot_S16384x64_S1024x64_S16384x1024_1_1_0_0_n_n.lhsNonContracting by decide)]
    rfl
  have r0 : ∀ (i : S16384x1024.Idx) (qq : dot_S16384x64_S1024x64_S16384x1024_1_1_0_0_n_n.contr.Idx), (dot_S16384x64_S1024x64_S16384x1024_1_1_0_0_n_n.rhsIdx i qq 0).val = (i 1).val := by
    intro i qq
    unfold DotDims.rhsIdx
    rw [dif_neg (show ¬(0 : Fin S1024x64.rank) ∈ dot_S16384x64_S1024x64_S16384x1024_1_1_0_0_n_n.rhsBatch by decide), dif_pos (show (0 : Fin S1024x64.rank) ∈ dot_S16384x64_S1024x64_S16384x1024_1_1_0_0_n_n.rhsNonContracting by decide)]
    rfl
  have el : dot_S16384x64_S1024x64_S16384x1024_1_1_0_0_n_n.lhsIdx (ix2 p q) ((contrEquiv1 dot_S16384x64_S1024x64_S16384x1024_1_1_0_0_n_n 64 rfl rfl).symm k) = ix2 p k :=
    funext fun a => Fin.ext (by
      match a with
      | ⟨0, _⟩ => exact l0 _ _
      | ⟨1, _⟩ => exact (dot_S16384x64_S1024x64_S16384x1024_1_1_0_0_n_n.lhsIdx_val_of_single (cl := (1 : Fin 2)) rfl _ _).trans hk)
  have er : dot_S16384x64_S1024x64_S16384x1024_1_1_0_0_n_n.rhsIdx (ix2 p q) ((contrEquiv1 dot_S16384x64_S1024x64_S16384x1024_1_1_0_0_n_n 64 rfl rfl).symm k) = ix2 q k :=
    funext fun a => Fin.ext (by
      match a with
      | ⟨0, _⟩ => exact r0 _ _
      | ⟨1, _⟩ => exact (dot_S16384x64_S1024x64_S16384x1024_1_1_0_0_n_n.rhsIdx_val_of_single (cr := (1 : Fin 2)) rfl _ _).trans hk)
  rw [el, er]
  rfl

/-- The reference's general dot for bucket 3 (both operands contracted over their second axis) is the product
    with the transposed projection. -/
theorem dot3_eq (L : S16384x16.Idx → EReal) (R : S1024x16.Idx → EReal) :
    Host.dotGeneral (F := Ideal) (φ₁ := .f32) (φ₂ := .f32) dot_S16384x16_S1024x16_S16384x1024_1_1_0_0_n_n none L R = mm L (tr R) := by
  funext i
  obtain ⟨p, q, rfl⟩ : ∃ (p : Fin 16384) (q : Fin 1024), i = ix2 p q := ⟨i 0, i 1, eq_ix2 i⟩
  simp only [Host.dotGeneral]
  rw [Ideal.dotGeneral_apply, ← Equiv.sum_comp (contrEquiv1 dot_S16384x16_S1024x16_S16384x1024_1_1_0_0_n_n 16 rfl rfl).symm, mm_apply]
  refine Finset.sum_congr rfl fun k _ => ?_
  have hk := contrEquiv1_symm_val dot_S16384x16_S1024x16_S16384x1024_1_1_0_0_n_n 16 rfl rfl k
  have l0 : ∀ (i : S16384x1024.Idx) (qq : dot_S16384x16_S1024x16_S16384x1024_1_1_0_0_n_n.contr.Idx), (dot_S16384x16_S1024x16_S16384x1024_1_1_0_0_n_n.lhsIdx i qq 0).val = (i 0).val := by
    intro i qq
    unfold DotDims.lhsIdx
    rw [dif_neg (show ¬(0 : Fin S16384x16.rank) ∈ dot_S16384x16_S1024x16_S16384x1024_1_1_0_0_n_n.lhsBatch by decide), dif_pos (show (0 : Fin S16384x16.rank) ∈ dot_S16384x16_S1024x16_S16384x1024_1_1_0_0_n_n.lhsNonContracting by decide)]
    rfl
  have r0 : ∀ (i : S16384x1024.Idx) (qq : dot_S16384x16_S1024x16_S16384x1024_1_1_0_0_n_n.contr.Idx), (dot_S16384x16_S1024x16_S16384x1024_1_1_0_0_n_n.rhsIdx i qq 0).val = (i 1).val := by
    intro i qq
    unfold DotDims.rhsIdx
    rw [dif_neg (show ¬(0 : Fin S1024x16.rank) ∈ dot_S16384x16_S1024x16_S16384x1024_1_1_0_0_n_n.rhsBatch by decide), dif_pos (show (0 : Fin S1024x16.rank) ∈ dot_S16384x16_S1024x16_S16384x1024_1_1_0_0_n_n.rhsNonContracting by decide)]
    rfl
  have el : dot_S16384x16_S1024x16_S16384x1024_1_1_0_0_n_n.lhsIdx (ix2 p q) ((contrEquiv1 dot_S16384x16_S1024x16_S16384x1024_1_1_0_0_n_n 16 rfl rfl).symm k) = ix2 p k :=
    funext fun a => Fin.ext (by
      match a with
      | ⟨0, _⟩ => exact l0 _ _
      | ⟨1, _⟩ => exact (dot_S16384x16_S1024x16_S16384x1024_1_1_0_0_n_n.lhsIdx_val_of_single (cl := (1 : Fin 2)) rfl _ _).trans hk)
  have er : dot_S16384x16_S1024x16_S16384x1024_1_1_0_0_n_n.rhsIdx (ix2 p q) ((contrEquiv1 dot_S16384x16_S1024x16_S16384x1024_1_1_0_0_n_n 16 rfl rfl).symm k) = ix2 q k :=
    funext fun a => Fin.ext (by
      match a with
      | ⟨0, _⟩ => exact r0 _ _
      | ⟨1, _⟩ => exact (dot_S16384x16_S1024x16_S16384x1024_1_1_0_0_n_n.rhsIdx_val_of_single (cr := (1 : Fin 2)) rfl _ _).trans hk)
  rw [el, er]
  rfl

attribute [local irreducible] Host.gather in
set_option maxHeartbeats 8000000 in
/-- The fold of the host lines at the result buffer. -/
theorem out_raw : after (ops (F := Ideal)) V (Proc.devRef .tc main_v80)
    = shapeCast S4x4096x1024 (mulf (F := Ideal) (addf (addf (addf (addf (broadcastInDim S16384x1024 ![] bcast_S_S16384x1024 (constant (F := Ideal) S_ .f32 0x00000000#32))
        (select (broadcastInDim S16384x1024 ![0, 1] bcast_S16384x1_S16384x1024_0_1 (maskCol hyp 0#32 20000#32 (V (Proc.devRef .tc main_arg0)))) (Host.dotGeneral (F := Ideal) (φ₁ := .f32) (φ₂ := .f32) dot_S16384x1024_S1024x1024_S16384x1024_1_1_0_0_n_n none (rows0 V) (V (Proc.devRef .tc main_arg5))) (broadcastInDim S16384x1024 ![] bcast_S_S16384x1024 (constant (F := Ideal) S_ .f32 0x00000000#32))))
        (select (broadcastInDim S16384x1024 ![0, 1] bcast_S16384x1_S16384x1024_0_1 (maskCol hyp 20000#32 40000#32 (V (Proc.devRef .tc main_arg0)))) (Host.dotGeneral (F := Ideal) (φ₁ := .f32) (φ₂ := .f32) dot_S16384x256_S1024x256_S16384x1024_1_1_0_0_n_n none (rows1 V) (V (Proc.devRef .tc main_arg6))) (broadcastInDim S16384x1024 ![] bcast_S_S16384x1024 (constant (F := Ideal) S_ .f32 0x00000000#32))))
        (select (broadcastInDim S16384x1024 ![0, 1] bcast_S16384x1_S16384x1024_0_1 (maskCol hyp 40000#32 200000#32 (V (Proc.devRef .tc main_arg0)))) (Host.dotGeneral (F := Ideal) (φ₁ := .f32) (φ₂ := .f32) dot_S16384x64_S1024x64_S16384x1024_1_1_0_0_n_n none (rows2 V) (V (Proc.devRef .tc main_arg7))) (broadcastInDim S16384x1024 ![] bcast_S_S16384x1024 (constant (F := Ideal) S_ .f32 0x00000000#32))))
        (select (broadcastInDim S16384x1024 ![0, 1] bcast_S16384x1_S16384x1024_0_1 (maskCol hyp 200000#32 267735#32 (V (Proc.devRef .tc main_arg0)))) (Host.dotGeneral (F := Ideal) (φ₁ := .f32) (φ₂ := .f32) dot_S16384x16_S1024x16_S16384x1024_1_1_0_0_n_n none (rows3 V) (V (Proc.devRef .tc main_arg8))) (broadcastInDim S16384x1024 ![] bcast_S_S16384x1024 (constant (F := Ideal) S_ .f32 0x00000000#32))))
      (broadcastInDim S16384x1024 ![] bcast_S_S16384x1024 (constant (F := Ideal) S_ .f32 0x42000000#32))) shapeCasts_S16384x1024_S4x4096x1024 := by
  after_results_simp
  rfl

set_option maxHeartbeats 8000000 in
theorem arg0_kept : after (ops (F := Ideal)) V (Proc.devRef .tc main_arg0) = V (Proc.devRef .tc main_arg0) := by
  after_results_simp
set_option maxHeartbeats 8000000 in
theorem arg1_kept : after (ops (F := Ideal)) V (Proc.devRef .tc main_arg1) = V (Proc.devRef .tc main_arg1) := by
  after_results_simp
set_option maxHeartbeats 8000000 in
theorem arg2_kept : after (ops (F := Ideal)) V (Proc.devRef .tc main_arg2) = V (Proc.devRef .tc main_arg2) := by
  after_results_simp
set_option maxHeartbeats 8000000 in
theorem arg3_kept : after (ops (F := Ideal)) V (Proc.devRef .tc main_arg3) = V (Proc.devRef .tc main_arg3) := by
  after_results_simp
set_option maxHeartbeats 8000000 in
theorem arg4_kept : after (ops (F := Ideal)) V (Proc.devRef .tc main_arg4) = V (Proc.devRef .tc main_arg4) := by
  after_results_simp
set_option maxHeartbeats 8000000 in
theorem arg5_kept : after (ops (F := Ideal)) V (Proc.devRef .tc main_arg5) = V (Proc.devRef .tc main_arg5) := by
  after_results_simp
set_option maxHeartbeats 8000000 in
theorem arg6_kept : after (ops (F := Ideal)) V (Proc.devRef .tc main_arg6) = V (Proc.devRef .tc main_arg6) := by
  after_results_simp
set_option maxHeartbeats 8000000 in
theorem arg7_kept : after (ops (F := Ideal)) V (Proc.devRef .tc main_arg7) = V (Proc.devRef .tc main_arg7) := by
  after_results_simp
set_option maxHeartbeats 8000000 in
theorem arg8_kept : after (ops (F := Ideal)) V (Proc.devRef .tc main_arg8) = V (Proc.devRef .tc main_arg8) := by
  after_results_simp

theorem zero_splat (j : S_.Idx) : constant (F := Ideal) S_ .f32 0x00000000#32 j = 0 := Ideal.ofBits_zero_f32

/-- The array before the reshape, entry by entry: the buckets' masked products summed, times 32. -/
theorem body_eq :
    mulf (F := Ideal) (addf (addf (addf (addf (broadcastInDim S16384x1024 ![] bcast_S_S16384x1024 (constant (F := Ideal) S_ .f32 0x00000000#32))
        (select (broadcastInDim S16384x1024 ![0, 1] bcast_S16384x1_S16384x1024_0_1 (maskCol hyp 0#32 20000#32 (V (Proc.devRef .tc main_arg0)))) (Host.dotGeneral (F := Ideal) (φ₁ := .f32) (φ₂ := .f32) dot_S16384x1024_S1024x1024_S16384x1024_1_1_0_0_n_n none (rows0 V) (V (Proc.devRef .tc main_arg5))) (broadcastInDim S16384x1024 ![] bcast_S_S16384x1024 (constant (F := Ideal) S_ .f32 0x00000000#32))))
        (select (broadcastInDim S16384x1024 ![0, 1] bcast_S16384x1_S16384x1024_0_1 (maskCol hyp 20000#32 40000#32 (V (Proc.devRef .tc main_arg0)))) (Host.dotGeneral (F := Ideal) (φ₁ := .f32) (φ₂ := .f32) dot_S16384x256_S1024x256_S16384x1024_1_1_0_0_n_n none (rows1 V) (V (Proc.devRef .tc main_arg6))) (broadcastInDim S16384x1024 ![] bcast_S_S16384x1024 (constant (F := Ideal) S_ .f32 0x00000000#32))))
        (select (broadcastInDim S16384x1024 ![0, 1] bcast_S16384x1_S16384x1024_0_1 (maskCol hyp 40000#32 200000#32 (V (Proc.devRef .tc main_arg0)))) (Host.dotGeneral (F := Ideal) (φ₁ := .f32) (φ₂ := .f32) dot_S16384x64_S1024x64_S16384x1024_1_1_0_0_n_n none (rows2 V) (V (Proc.devRef .tc main_arg7))) (broadcastInDim S16384x1024 ![] bcast_S_S16384x1024 (constant (F := Ideal) S_ .f32 0x00000000#32))))
        (select (broadcastInDim S16384x1024 ![0, 1] bcast_S16384x1_S16384x1024_0_1 (maskCol hyp 200000#32 267735#32 (V (Proc.devRef .tc main_arg0)))) (Host.dotGeneral (F := Ideal) (φ₁ := .f32) (φ₂ := .f32) dot_S16384x16_S1024x16_S16384x1024_1_1_0_0_n_n none (rows3 V) (V (Proc.devRef .tc main_arg8))) (broadcastInDim S16384x1024 ![] bcast_S_S16384x1024 (constant (F := Ideal) S_ .f32 0x00000000#32))))
      (broadcastInDim S16384x1024 ![] bcast_S_S16384x1024 (constant (F := Ideal) S_ .f32 0x42000000#32))
    = embed (mask hyp 0#32 20000#32 (V (Proc.devRef .tc main_arg0))) (mask hyp 20000#32 40000#32 (V (Proc.devRef .tc main_arg0))) (mask hyp 40000#32 200000#32 (V (Proc.devRef .tc main_arg0))) (mask hyp 200000#32 267735#32 (V (Proc.devRef .tc main_arg0)))
        (rows0 V) (rows1 V) (rows2 V) (rows3 V) (V (Proc.devRef .tc main_arg5)) (V (Proc.devRef .tc main_arg6)) (V (Proc.devRef .tc main_arg7)) (V (Proc.devRef .tc main_arg8)) (Ideal.ofBits .f32 0x42000000#32) := by
  rw [dot0_eq, dot1_eq, dot2_eq, dot3_eq]
  unfold maskCol
  rw [select_eq_keep _ _ _ zero_splat, select_eq_keep _ _ _ zero_splat, select_eq_keep _ _ _ zero_splat, select_eq_keep _ _ _ zero_splat]
  funext i
  show ((((broadcastInDim S16384x1024 ![] bcast_S_S16384x1024 (constant (F := Ideal) S_ .f32 0x00000000#32) i + _) + _) + _) + _)
      * broadcastInDim S16384x1024 ![] bcast_S_S16384x1024 (constant (F := Ideal) S_ .f32 0x42000000#32) i = _
  rw [broadcastInDim_scalar_apply, broadcastInDim_scalar_apply, zero_splat]
  rfl

end Cert.ReferenceIdeal.RefVal

end
-- ==== Proof.lean ====
/-
  Equivalence of the fused embedding kernel and its reference over the extended reals.

  Both programs compute, for token `n` and output feature `j`, 32 times the sum over the four vocabulary buckets of
  (bucket mask at `n`) · Σ_k table_b[local_b(n), k] · proj_b[j, k], with identical index arithmetic. The reference
  forms each bucket's product and masks it; the kernel masks the gathered rows first, lays the three narrow buckets side
  by side (and their transposed projections one under another) with zero filling, and forms two products in one
  pipelined region over sixteen row blocks. A zero row times anything sums to zero, the zero filling contributes
  nothing, the packed product splits into the three buckets' products, and extended-real addition is associative — no
  finiteness is needed. The frames: the kernel's by the launch theorem around its one region, the reference's by its
  straight-line run. The ideal pass rewrote nothing, so the idealization claim is trivial.
-/
import proofs.«130990_j59871844107157_2_alg».proof.Defs
import proofs.«130990_j59871844107157_2_alg».proof.Proof.Gen.Kernel
import proofs.«130990_j59871844107157_2_alg».proof.Proof.Gen.KernelIdeal
import proofs.«130990_j59871844107157_2_alg».proof.Proof.Gen.ReferenceIdeal
import proofs.«130990_j59871844107157_2_alg».proof.Proof.Gen.Pre_finite_inputs
import proofs.«130990_j59871844107157_2_alg».proof.Proof.FrameBits
import proofs.«130990_j59871844107157_2_alg».proof.Proof.FrameIdeal
import proofs.«130990_j59871844107157_2_alg».proof.Proof.KSpec
import proofs.«130990_j59871844107157_2_alg».proof.Proof.RefVal
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Fr.frame m ρ

theorem frame_ki : Cert.frame_KernelIdeal := fun m ρ _ => Cert.KernelIdeal.Fr.frame m ρ

/-- The reference's lines write none of its arguments. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefVal.arg0_kept _),
     (h c Cert.ReferenceIdeal.main_arg1).trans (Cert.ReferenceIdeal.RefVal.arg1_kept _),
     (h c Cert.ReferenceIdeal.main_arg2).trans (Cert.ReferenceIdeal.RefVal.arg2_kept _),
     (h c Cert.ReferenceIdeal.main_arg3).trans (Cert.ReferenceIdeal.RefVal.arg3_kept _),
     (h c Cert.ReferenceIdeal.main_arg4).trans (Cert.ReferenceIdeal.RefVal.arg4_kept _),
     (h c Cert.ReferenceIdeal.main_arg5).trans (Cert.ReferenceIdeal.RefVal.arg5_kept _),
     (h c Cert.ReferenceIdeal.main_arg6).trans (Cert.ReferenceIdeal.RefVal.arg6_kept _),
     (h c Cert.ReferenceIdeal.main_arg7).trans (Cert.ReferenceIdeal.RefVal.arg7_kept _),
     (h c Cert.ReferenceIdeal.main_arg8).trans (Cert.ReferenceIdeal.RefVal.arg8_kept _)⟩)
    (Cert.ReferenceIdeal.RefRun.run_fold (F := Ideal) m ρ)

theorem preserves : Cert.preserves_Kernel_KernelIdeal := trivial

/-- Both results are the four buckets' masked projections summed, times 32, reshaped: the kernel's by the packed
    products' splitting, the reference's by its lines read entry by entry; on agreeing arguments they are one term. -/
theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun _ h c =>
    ⟨?_, (h c Cert.ReferenceIdeal.main_arg0).trans (Cert.ReferenceIdeal.RefVal.arg0_kept _),
     (h c Cert.ReferenceIdeal.main_arg1).trans (Cert.ReferenceIdeal.RefVal.arg1_kept _),
     (h c Cert.ReferenceIdeal.main_arg2).trans (Cert.ReferenceIdeal.RefVal.arg2_kept _),
     (h c Cert.ReferenceIdeal.main_arg3).trans (Cert.ReferenceIdeal.RefVal.arg3_kept _),
     (h c Cert.ReferenceIdeal.main_arg4).trans (Cert.ReferenceIdeal.RefVal.arg4_kept _),
     (h c Cert.ReferenceIdeal.main_arg5).trans (Cert.ReferenceIdeal.RefVal.arg5_kept _),
     (h c Cert.ReferenceIdeal.main_arg6).trans (Cert.ReferenceIdeal.RefVal.arg6_kept _),
     (h c Cert.ReferenceIdeal.main_arg7).trans (Cert.ReferenceIdeal.RefVal.arg7_kept _),
     (h c Cert.ReferenceIdeal.main_arg8).trans (Cert.ReferenceIdeal.RefVal.arg8_kept _)⟩)
    (Cert.ReferenceIdeal.RefRun.run_fold (F := Ideal) m' ρ')
  obtain ⟨a0, a1, a2, a3, a4, a5, a6, a7, a8⟩ := hagree c
  rw [h c Cert.ReferenceIdeal.main_v80, Cert.ReferenceIdeal.RefVal.out_raw, Cert.ReferenceIdeal.RefVal.body_eq,
    Cert.KernelIdeal.KSpec.G_eq m c]
  unfold Cert.ReferenceIdeal.RefVal.rows0 Cert.ReferenceIdeal.RefVal.rows1 Cert.ReferenceIdeal.RefVal.rows2 Cert.ReferenceIdeal.RefVal.rows3
    Cert.KernelIdeal.Entry.rows0 Cert.KernelIdeal.Entry.rows1 Cert.KernelIdeal.Entry.rows2 Cert.KernelIdeal.Entry.rows3
  simp only [show launchContents m' c (Proc.devRef .tc Cert.ReferenceIdeal.main_arg0) = m ((c.tc : Thread Cert.KernelIdeal.nD Cert.KernelIdeal.τ).loc Cert.KernelIdeal.main_arg0) from a0,
    show launchContents m' c (Proc.devRef .tc Cert.ReferenceIdeal.main_arg1) = m ((c.tc : Thread Cert.KernelIdeal.nD Cert.KernelIdeal.τ).loc Cert.KernelIdeal.main_arg1) from a1,
    show launchContents m' c (Proc.devRef .tc Cert.ReferenceIdeal.main_arg2) = m ((c.tc : Thread Cert.KernelIdeal.nD Cert.KernelIdeal.τ).loc Cert.KernelIdeal.main_arg2) from a2,
    show launchContents m' c (Proc.devRef .tc Cert.ReferenceIdeal.main_arg3) = m ((c.tc : Thread Cert.KernelIdeal.nD Cert.KernelIdeal.τ).loc Cert.KernelIdeal.main_arg3) from a3,
    show launchContents m' c (Proc.devRef .tc Cert.ReferenceIdeal.main_arg4) = m ((c.tc : Thread Cert.KernelIdeal.nD Cert.KernelIdeal.τ).loc Cert.KernelIdeal.main_arg4) from a4,
    show launchContents m' c (Proc.devRef .tc Cert.ReferenceIdeal.main_arg5) = m ((c.tc : Thread Cert.KernelIdeal.nD Cert.KernelIdeal.τ).loc Cert.KernelIdeal.main_arg5) from a5,
    show launchContents m' c (Proc.devRef .tc Cert.ReferenceIdeal.main_arg6) = m ((c.tc : Thread Cert.KernelIdeal.nD Cert.KernelIdeal.τ).loc Cert.KernelIdeal.main_arg6) from a6,
    show launchContents m' c (Proc.devRef .tc Cert.ReferenceIdeal.main_arg7) = m ((c.tc : Thread Cert.KernelIdeal.nD Cert.KernelIdeal.τ).loc Cert.KernelIdeal.main_arg7) from a7,
    show launchContents m' c (Proc.devRef .tc Cert.ReferenceIdeal.main_arg8) = m ((c.tc : Thread Cert.KernelIdeal.nD Cert.KernelIdeal.τ).loc Cert.KernelIdeal.main_arg8) from a8]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
